-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v94)) (v2 : (c : Dev Cert.KernelIdeal.nD) → Buf (Elt Ideal) ((c.tc : Thread Cert.KernelIdeal.nD Cert.KernelIdeal.τ).loc Cert.KernelIdeal.main_v90)) (v3 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v94) = v1 c
          ∧ r.2.mem ((c.tc : Thread Cert.KernelIdeal.nD Cert.KernelIdeal.τ).loc Cert.KernelIdeal.main_v90) = v2 c
          ∧ r.2.mem ((c.tc : Thread Cert.KernelIdeal.nD Cert.KernelIdeal.τ).loc Cert.KernelIdeal.main_v95) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v138) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x320000 : Shape := ⟨2, ![2, 320000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S256x64 .f32) (main_arg7 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S10000x512 .f32) (main_arg1 : IVec S2x320000 32) (main_arg2 : FVec F S512x256 .f32) (main_arg3 : FVec F S256 .f32) (main_arg4 : FVec F S256x64 .f32) (main_arg5 : FVec F S64 .f32) (main_arg6 : FVec F S256x64 .f32) (main_arg7 : FVec F S64 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_v13 main_v16
-- ==== Kernel.lean ====
abbrev S10000x512 : Shape := ⟨2, ![10000, 512]⟩
abbrev S2x320000 : Shape := ⟨2, ![2, 320000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S1x320000 : Shape := ⟨2, ![1, 320000]⟩
abbrev S320000 : Shape := ⟨1, ![320000]⟩
abbrev S10000x256 : Shape := ⟨2, ![10000, 256]⟩
abbrev S1000x512 : Shape := ⟨2, ![1000, 512]⟩
abbrev S1000x256 : Shape := ⟨2, ![1000, 256]⟩
abbrev S10000 : Shape := ⟨1, ![10000]⟩
abbrev S330000 : Shape := ⟨1, ![330000]⟩
abbrev S_ : Shape := ⟨0, ![]⟩
abbrev S330000x1 : Shape := ⟨2, ![330000, 1]⟩
abbrev S330000x256 : Shape := ⟨2, ![330000, 256]⟩
abbrev S1x256 : Shape := ⟨2, ![1, 256]⟩
abbrev S256x128 : Shape := ⟨2, ![256, 128]⟩
abbrev S10000x128 : Shape := ⟨2, ![10000, 128]⟩
abbrev S1000x128 : Shape := ⟨2, ![1000, 128]⟩
abbrev S330000x128 : Shape := ⟨2, ![330000, 128]⟩
abbrev S10000x64 : Shape := ⟨2, ![10000, 64]⟩
abbrev S1x64 : Shape := ⟨2, ![1, 64]⟩
abbrev S10000x10000 : Shape := ⟨2, ![10000, 10000]⟩
abbrev S1000x64 : Shape := ⟨2, ![1000, 64]⟩
abbrev S1024x64 : Shape := ⟨2, ![1024, 64]⟩
abbrev S1000x1024 : Shape := ⟨2, ![1000, 1024]⟩

abbrev nBuf : Space → Nat
  | .hbm => 126
  | .vmem => 16
  | .smem => 0
  | _ => 0

abbrev bufTy : (tb : Table) → Fin (tcTables nBuf tb) → BufTy
  | .hbm, ⟨0, _⟩ => ⟨S10000x512, .f32⟩
  | .hbm, ⟨1, _⟩ => ⟨S2x320000, .i32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S256x64, .f32⟩
  | .hbm, ⟨7, _⟩ => ⟨S64, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S10000x256, .f32⟩
  | .hbm, ⟨13, _⟩ => ⟨S10000, .i32⟩
  | .hbm, ⟨14, _⟩ => ⟨S330000, .i32⟩
  | .hbm, ⟨15, _⟩ => ⟨S330000, .i32⟩
  | .hbm, ⟨16, _⟩ => ⟨S_, .f32⟩
  | .hbm, ⟨17, _⟩ => ⟨S330000, .f32⟩
  | .hbm, ⟨18, _⟩ => ⟨S_, .f32⟩
  | .hbm, ⟨19, _⟩ => ⟨S10000, .f32⟩
  | .hbm, ⟨20, _⟩ => ⟨S330000x1, .i32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S10000, .f32⟩
  | .hbm, ⟨26, _⟩ => ⟨S_, .i32⟩
  | .hbm, ⟨27, _⟩ => ⟨S330000, .i32⟩
  | .hbm, ⟨28, _⟩ => ⟨S330000, .i1⟩
  | .hbm, ⟨29, _⟩ => ⟨S_, .i32⟩
  | .hbm, ⟨30, _⟩ => ⟨S330000, .i32⟩
  | .hbm, ⟨31, _⟩ => ⟨S330000, .i32⟩
  | .hbm, ⟨32, _⟩ => ⟨S330000, .i32⟩
  | .hbm, ⟨33, _⟩ => ⟨S330000x1, .i32⟩
  | .hbm, ⟨34, _⟩ => ⟨S330000, .f32⟩
  | .hbm, ⟨35, _⟩ => ⟨S_, .i32⟩
  | .hbm, ⟨36, _⟩ => ⟨S330000, .i32⟩
  | .hbm, ⟨37, _⟩ => ⟨S330000, .i1⟩
  | .hbm, ⟨38, _⟩ => ⟨S_, .i32⟩
  | .hbm, ⟨39, _⟩ => ⟨S330000, .i32⟩
  | .hbm, ⟨40, _⟩ => ⟨S330000, .i32⟩
  | .hbm, ⟨41, _⟩ => ⟨S330000, .i32⟩
  | .hbm, ⟨42, _⟩ => ⟨S330000x1, .i32⟩
  | .hbm, ⟨43, _⟩ => ⟨S330000, .f32⟩
  | .hbm, ⟨44, _⟩ => ⟨S330000, .f32⟩
  | .hbm, ⟨45, _⟩ => ⟨S_, .i32⟩
  | .hbm, ⟨46, _⟩ => ⟨S330000, .i32⟩
  | .hbm, ⟨47, _⟩ => ⟨S330000, .i1⟩
  | .hbm, ⟨48, _⟩ => ⟨S_, .i32⟩
  | .hbm, ⟨49, _⟩ => ⟨S330000, .i32⟩
  | .hbm, ⟨50, _⟩ => ⟨S330000, .i32⟩
  | .hbm, ⟨51, _⟩ => ⟨S330000, .i32⟩
  | .hbm, ⟨52, _⟩ => ⟨S330000x1, .i32⟩
  | .hbm, ⟨53, _⟩ => ⟨S330000x256, .f32⟩
  | .hbm, ⟨54, _⟩ => ⟨S330000x1, .f32⟩
  | .hbm, ⟨55, _⟩ => ⟨S330000x256, .f32⟩
  | .hbm, ⟨56, _⟩ => ⟨S330000x256, .f32⟩
  | .hbm, ⟨57, _⟩ => ⟨S_, .f32⟩
  | .hbm, ⟨58, _⟩ => ⟨S10000x256, .f32⟩
  | .hbm, ⟨59, _⟩ => ⟨S330000x1, .i32⟩
  | .hbm, ⟨60, _⟩ => ⟨S10000x256, .f32⟩
  | .hbm, ⟨61, _⟩ => ⟨S1x256, .f32⟩
  | .hbm, ⟨62, _⟩ => ⟨S10000x256, .f32⟩
  | .hbm, ⟨63, _⟩ => ⟨S10000x256, .f32⟩
  | .hbm, ⟨64, _⟩ => ⟨S_, .f32⟩
  | .hbm, ⟨65, _⟩ => ⟨S10000x256, .f32⟩
  | .hbm, ⟨66, _⟩ => ⟨S10000x256, .f32⟩
  | .hbm, ⟨67, _⟩ => ⟨S256x128, .f32⟩
  | .hbm, ⟨68, _⟩ => ⟨S10000x128, .f32⟩
  | .hbm, ⟨69, _⟩ => ⟨S10000, .i32⟩
  | .hbm, ⟨70, _⟩ => ⟨S330000, .i32⟩
  | .hbm, ⟨71, _⟩ => ⟨S330000, .i32⟩
  | .hbm, ⟨72, _⟩ => ⟨S_, .f32⟩
  | .hbm, ⟨73, _⟩ => ⟨S330000, .f32⟩
  | .hbm, ⟨74, _⟩ => ⟨S_, .f32⟩
  | .hbm, ⟨75, _⟩ => ⟨S10000, .f32⟩
  | .hbm, ⟨76, _⟩ => ⟨S330000x1, .i32⟩
  | .hbm, ⟨77, _⟩ => ⟨S10000, .f32⟩
  | .hbm, ⟨78, _⟩ => ⟨S_, .f32⟩
  | .hbm, ⟨79, _⟩ => ⟨S10000, .f32⟩
  | .hbm, ⟨80, _⟩ => ⟨S10000, .f32⟩
  | .hbm, ⟨81, _⟩ => ⟨S10000, .f32⟩
  | .hbm, ⟨82, _⟩ => ⟨S_, .i32⟩
  | .hbm, ⟨83, _⟩ => ⟨S330000, .i32⟩
  | .hbm, ⟨84, _⟩ => ⟨S330000, .i1⟩
  | .hbm, ⟨85, _⟩ => ⟨S_, .i32⟩
  | .hbm, ⟨86, _⟩ => ⟨S330000, .i32⟩
  | .hbm, ⟨87, _⟩ => ⟨S330000, .i32⟩
  | .hbm, ⟨88, _⟩ => ⟨S330000, .i32⟩
  | .hbm, ⟨89, _⟩ => ⟨S330000x1, .i32⟩
  | .hbm, ⟨90, _⟩ => ⟨S330000, .f32⟩
  | .hbm, ⟨91, _⟩ => ⟨S_, .i32⟩
  | .hbm, ⟨92, _⟩ => ⟨S330000, .i32⟩
  | .hbm, ⟨93, _⟩ => ⟨S330000, .i1⟩
  | .hbm, ⟨94, _⟩ => ⟨S_, .i32⟩
  | .hbm, ⟨95, _⟩ => ⟨S330000, .i32⟩
  | .hbm, ⟨96, _⟩ => ⟨S330000, .i32⟩
  | .hbm, ⟨97, _⟩ => ⟨S330000, .i32⟩
  | .hbm, ⟨98, _⟩ => ⟨S330000x1, .i32⟩
  | .hbm, ⟨99, _⟩ => ⟨S330000, .f32⟩
  | .hbm, ⟨100, _⟩ => ⟨S330000, .f32⟩
  | .hbm, ⟨101, _⟩ => ⟨S_, .i32⟩
  | .hbm, ⟨102, _⟩ => ⟨S330000, .i32⟩
  | .hbm, ⟨103, _⟩ => ⟨S330000, .i1⟩
  | .hbm, ⟨104, _⟩ => ⟨S_, .i32⟩
  | .hbm, ⟨105, _⟩ => ⟨S330000, .i32⟩
  | .hbm, ⟨106, _⟩ => ⟨S330000, .i32⟩
  | .hbm, ⟨107, _⟩ => ⟨S330000, .i32⟩
  | .hbm, ⟨108, _⟩ => ⟨S330000x1, .i32⟩
  | .hbm, ⟨109, _⟩ => ⟨S330000x128, .f32⟩
  | .hbm, ⟨110, _⟩ => ⟨S330000x1, .f32⟩
  | .hbm, ⟨111, _⟩ => ⟨S330000x128, .f32⟩
  | .hbm, ⟨112, _⟩ => ⟨S330000x128, .f32⟩
  | .hbm, ⟨113, _⟩ => ⟨S_, .f32⟩
  | .hbm, ⟨114, _⟩ => ⟨S10000x128, .f32⟩
  | .hbm, ⟨115, _⟩ => ⟨S330000x1, .i32⟩
  | .hbm, ⟨116, _⟩ => ⟨S10000x128, .f32⟩
  | .hbm, ⟨117, _⟩ => ⟨S10000x64, .f32⟩
  | .hbm, ⟨118, _⟩ => ⟨S1x64, .f32⟩
  | .hbm, ⟨119, _⟩ => ⟨S10000x64, .f32⟩
  | .hbm, ⟨120, _⟩ => ⟨S10000x64, .f32⟩
  | .hbm, ⟨121, _⟩ => ⟨S10000x64, .f32⟩
  | .hbm, ⟨122, _⟩ => ⟨S1x64, .f32⟩
  | .hbm, ⟨123, _⟩ => ⟨S10000x64, .f32⟩
  | .hbm, ⟨124, _⟩ => ⟨S10000x64, .f32⟩
  | .hbm, ⟨125, _⟩ => ⟨S10000x10000, .f32⟩
  | .local _ .vmem, ⟨0, _⟩ => ⟨S1000x512, .f32⟩
  | .local _ .vmem, ⟨1, _⟩ => ⟨S1000x512, .f32⟩
  | .local _ .vmem, ⟨2, _⟩ => ⟨S512x256, .f32⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S256x128, .f32⟩
  | .local _ .vmem, ⟨8, _⟩ => ⟨S1000x128, .f32⟩
  | .local _ .vmem, ⟨9, _⟩ => ⟨S1000x128, .f32⟩
  | .local _ .vmem, ⟨10, _⟩ => ⟨S1000x64, .f32⟩
  | .local _ .vmem, ⟨11, _⟩ => ⟨S1000x64, .f32⟩
  | .local _ .vmem, ⟨12, _⟩ => ⟨S1024x64, .f32⟩
  | .local _ .vmem, ⟨13, _⟩ => ⟨S1024x64, .f32⟩
  | .local _ .vmem, ⟨14, _⟩ => ⟨S1000x1024, .f32⟩
  | .local _ .vmem, ⟨15, _⟩ => ⟨S1000x1024, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_15 : Ref sig .tc := ⟨.hbm, 101, rfl⟩
abbrev main_v74 : Ref sig .tc := ⟨.hbm, 102, rfl⟩
abbrev main_v75 : Ref sig .tc := ⟨.hbm, 103, rfl⟩
abbrev main_c_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![10, 10], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1000x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1000x256_S1000x256_0_0 : ∀ a, (![0, 0] : Fin 2 → Nat) a + S1000x256.size a ≤ S1000x256.size a
  h_S1000x256 : 0 < S1000x256.numel
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  concatenates_S256x64_S256x64_S256x128_d1 : Shape.Concatenates [S256x64, S256x64] S256x128 1
  shapeCasts_S1000x256_S1000x256 : S1000x256.ShapeCasts S1000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1000x128_S1000x128_0_0 : ∀ a, (![0, 0] : Fin 2 → Nat) a + S1000x128.size a ≤ S1000x128.size a
  h_S1000x128 : 0 < S1000x128.numel
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  slices_S10000x128_S10000x64_0_0 : S10000x128.Slices ![0, 0] S10000x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  slices_S10000x128_S10000x64_0_64 : S10000x128.Slices ![0, 64] S10000x64
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1000x1024_S1000x1024_0_0 : ∀ a, (![0, 0] : Fin 2 → Nat) a + S1000x1024.size a ≤ S1000x1024.size a
  h_S1000x1024 : 0 < S1000x1024.numel
  dot_S1000x512_S512x256_S1000x256_1_0_0_1_n_n_wf : DotDims.WF S1000x512 S512x256 S1000x256 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S1000x256_S256x128_S1000x128_1_0_0_1_n_n_wf : DotDims.WF S1000x256 S256x128 S1000x128 [1] [0] [0] [1] [] []
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  dot_S1000x64_S1024x64_S1000x1024_1_1_0_0_n_n_wf : DotDims.WF S1000x64 S1024x64 S1000x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S10000x256.size a
  hwx0_2 : ∀ i : grid0.Coords, EltTy.bits .f32 = 32 ∨ (Rect.block (s := S10000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S10000x128.size a
  hwx1_2 : ∀ i : grid1.Coords, EltTy.bits .f32 = 32 ∨ (Rect.block (s := S10000x128) S1000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S10000x64.size a
  hwx2_0 : ∀ i : grid2.Coords, EltTy.bits .f32 = 32 ∨ (Rect.block (s := S10000x64) S1000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S1024x64.size a < S10000x64.size a
  hwx2_1 : ∀ i : grid2.Coords, EltTy.bits .f32 = 32 ∨ (Rect.unit (s := S10000x64) (fun a => cc2_transform_1 i a * S1024x64.size a) (fun a => (Pipeline.Clip.of (cc2_transform_1 i a) (S1024x64.size a) (S10000x64.size a)).extent (S1024x64.size a)) fun a => Pipeline.Clip.inb (Pipeline.Clip.ok_of (hstart2_1 i a))).WholeWords (EltTy.packing .f32)
  hwxs2_1 : ∀ i : grid2.Coords, EltTy.bits .f32 = 32 ∨ (Rect.unit (s := S1024x64) (fun _ => 0) (fun a => (Pipeline.Clip.of (cc2_transform_1 i a) (S1024x64.size a) (S10000x64.size a)).extent (S1024x64.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1000x1024.size a < S10000x10000.size a
  hwx2_2 : ∀ i : grid2.Coords, EltTy.bits .f32 = 32 ∨ (Rect.unit (s := S10000x10000) (fun a => cc2_transform_2 i a * S1000x1024.size a) (fun a => (Pipeline.Clip.of (cc2_transform_2 i a) (S1000x1024.size a) (S10000x10000.size a)).extent (S1000x1024.size a)) fun a => Pipeline.Clip.inb (Pipeline.Clip.ok_of (hstart2_2 i a))).WholeWords (EltTy.packing .f32)
  hwxs2_2 : ∀ i : grid2.Coords, EltTy.bits .f32 = 32 ∨ (Rect.unit (s := S1000x1024) (fun _ => 0) (fun a => (Pipeline.Clip.of (cc2_transform_2 i a) (S1000x1024.size a) (S10000x10000.size a)).extent (S1000x1024.size a)) fun a => (Nat.zero_add _).trans_le (Pipeline.Clip.extent_le (Pipeline.Clip.ok_of (hstart2_2 i a)))).WholeWords (EltTy.packing .f32)

variable [Facts₀]

def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf
def dot_S1000x64_S1024x64_S1000x1024_1_1_0_0_n_n : DotDims S1000x64 S1024x64 S1000x1024 where
  lhsContracting := [1]
  rhsContracting := [1]
  lhsNonContracting := [0]
  rhsNonContracting := [0]
  lhsBatch := []
  rhsBatch := []
  wf := dot_S1000x64_S1024x64_S1000x1024_1_1_0_0_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v90) S1000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpecClip (Memref.whole main_v90) S1024x64.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v95) S1000x1024.size cc2_transform_2 reads2_2 true false 2 stage2_2 sem2_2
    hrank2 hreads2_2 hstart2_2 nbuf2_2 (Memref.isWhole_whole _) hwx2_2 hwxs2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x512 : Shape := ⟨2, ![10000, 512]⟩
abbrev S2x320000 : Shape := ⟨2, ![2, 320000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S1x320000 : Shape := ⟨2, ![1, 320000]⟩
abbrev S320000 : Shape := ⟨1, ![320000]⟩
abbrev S10000x256 : Shape := ⟨2, ![10000, 256]⟩
abbrev S10000 : Shape := ⟨1, ![10000]⟩
abbrev S330000 : Shape := ⟨1, ![330000]⟩
abbrev S_ : Shape := ⟨0, ![]⟩
abbrev S330000x1 : Shape := ⟨2, ![330000, 1]⟩
abbrev S330000x256 : Shape := ⟨2, ![330000, 256]⟩
abbrev S1x256 : Shape := ⟨2, ![1, 256]⟩
abbrev S10000x64 : Shape := ⟨2, ![10000, 64]⟩
abbrev S330000x64 : Shape := ⟨2, ![330000, 64]⟩
abbrev S1x64 : Shape := ⟨2, ![1, 64]⟩
abbrev S64x10000 : Shape := ⟨2, ![64, 10000]⟩
abbrev S10000x10000 : Shape := ⟨2, ![10000, 10000]⟩

abbrev nBuf : Space → Nat
  | .hbm => 181
  | .vmem => 0
  | .smem => 0
  | _ => 0

abbrev hbmTy0_0 (i : Nat) : BufTy := match i % 128 with
  | 0 => ⟨S10000x512, .f32⟩
  | 1 => ⟨S2x320000, .i32⟩
  | 2 => ⟨S512x256, .f32⟩
  | 3 => ⟨S256, .f32⟩
  | 4 => ⟨S256x64, .f32⟩
  | 5 => ⟨S64, .f32⟩
  | 6 => ⟨S256x64, .f32⟩
  | 7 => ⟨S64, .f32⟩
  | 8 => ⟨S1x320000, .i32⟩
  | 9 => ⟨S320000, .i32⟩
  | 10 => ⟨S1x320000, .i32⟩
  | 11 => ⟨S320000, .i32⟩
  | 12 => ⟨S10000x256, .f32⟩
  | 13 => ⟨S10000, .i32⟩
  | 14 => ⟨S330000, .i32⟩
  | 15 => ⟨S330000, .i32⟩
  | 16 => ⟨S_, .f32⟩
  | 17 => ⟨S330000, .f32⟩
  | 18 => ⟨S_, .f32⟩
  | 19 => ⟨S10000, .f32⟩
  | 20 => ⟨S330000x1, .i32⟩
  | 21 => ⟨S10000, .f32⟩
  | 22 => ⟨S_, .f32⟩
  | 23 => ⟨S10000, .f32⟩
  | 24 => ⟨S10000, .f32⟩
  | 25 => ⟨S10000, .f32⟩
  | 26 => ⟨S_, .i32⟩
  | 27 => ⟨S330000, .i32⟩
  | 28 => ⟨S330000, .i1⟩
  | 29 => ⟨S_, .i32⟩
  | 30 => ⟨S330000, .i32⟩
  | 31 => ⟨S330000, .i32⟩
  | 32 => ⟨S330000, .i32⟩
  | 33 => ⟨S330000x1, .i32⟩
  | 34 => ⟨S330000, .f32⟩
  | 35 => ⟨S_, .i32⟩
  | 36 => ⟨S330000, .i32⟩
  | 37 => ⟨S330000, .i1⟩
  | 38 => ⟨S_, .i32⟩
  | 39 => ⟨S330000, .i32⟩
  | 40 => ⟨S330000, .i32⟩
  | 41 => ⟨S330000, .i32⟩
  | 42 => ⟨S330000x1, .i32⟩
  | 43 => ⟨S330000, .f32⟩
  | 44 => ⟨S330000, .f32⟩
  | 45 => ⟨S_, .i32⟩
  | 46 => ⟨S330000, .i32⟩
  | 47 => ⟨S330000, .i1⟩
  | 48 => ⟨S_, .i32⟩
  | 49 => ⟨S330000, .i32⟩
  | 50 => ⟨S330000, .i32⟩
  | 51 => ⟨S330000, .i32⟩
  | 52 => ⟨S330000x1, .i32⟩
  | 53 => ⟨S330000x256, .f32⟩
  | 54 => ⟨S330000x1, .f32⟩
  | 55 => ⟨S330000x256, .f32⟩
  | 56 => ⟨S330000x256, .f32⟩
  | 57 => ⟨S_, .f32⟩
  | 58 => ⟨S10000x256, .f32⟩
  | 59 => ⟨S330000x1, .i32⟩
  | 60 => ⟨S10000x256, .f32⟩
  | 61 => ⟨S1x256, .f32⟩
  | 62 => ⟨S10000x256, .f32⟩
  | 63 => ⟨S10000x256, .f32⟩
  | 64 => ⟨S_, .f32⟩
  | 65 => ⟨S10000x256, .f32⟩
  | 66 => ⟨S10000x256, .f32⟩
  | 67 => ⟨S10000x64, .f32⟩
  | 68 => ⟨S10000, .i32⟩
  | 69 => ⟨S330000, .i32⟩
  | 70 => ⟨S330000, .i32⟩
  | 71 => ⟨S_, .f32⟩
  | 72 => ⟨S330000, .f32⟩
  | 73 => ⟨S_, .f32⟩
  | 74 => ⟨S10000, .f32⟩
  | 75 => ⟨S330000x1, .i32⟩
  | 76 => ⟨S10000, .f32⟩
  | 77 => ⟨S_, .f32⟩
  | 78 => ⟨S10000, .f32⟩
  | 79 => ⟨S10000, .f32⟩
  | 80 => ⟨S10000, .f32⟩
  | 81 => ⟨S_, .i32⟩
  | 82 => ⟨S330000, .i32⟩
  | 83 => ⟨S330000, .i1⟩
  | 84 => ⟨S_, .i32⟩
  | 85 => ⟨S330000, .i32⟩
  | 86 => ⟨S330000, .i32⟩
  | 87 => ⟨S330000, .i32⟩
  | 88 => ⟨S330000x1, .i32⟩
  | 89 => ⟨S330000, .f32⟩
  | 90 => ⟨S_, .i32⟩
  | 91 => ⟨S330000, .i32⟩
  | 92 => ⟨S330000, .i1⟩
  | 93 => ⟨S_, .i32⟩
  | 94 => ⟨S330000, .i32⟩
  | 95 => ⟨S330000, .i32⟩
  | 96 => ⟨S330000, .i32⟩
  | 97 => ⟨S330000x1, .i32⟩
  | 98 => ⟨S330000, .f32⟩
  | 99 => ⟨S330000, .f32⟩
  | 100 => ⟨S_, .i32⟩
  | 101 => ⟨S330000, .i32⟩
  | 102 => ⟨S330000, .i1⟩
  | 103 => ⟨S_, .i32⟩
  | 104 => ⟨S330000, .i32⟩
  | 105 => ⟨S330000, .i32⟩
  | 106 => ⟨S330000, .i32⟩
  | 107 => ⟨S330000x1, .i32⟩
  | 108 => ⟨S330000x64, .f32⟩
  | 109 => ⟨S330000x1, .f32⟩
  | 110 => ⟨S330000x64, .f32⟩
  | 111 => ⟨S330000x64, .f32⟩
  | 112 => ⟨S_, .f32⟩
  | 113 => ⟨S10000x64, .f32⟩
  | 114 => ⟨S330000x1, .i32⟩
  | 115 => ⟨S10000x64, .f32⟩
  | 116 => ⟨S1x64, .f32⟩
  | 117 => ⟨S10000x64, .f32⟩
  | 118 => ⟨S10000x64, .f32⟩
  | 119 => ⟨S10000x64, .f32⟩
  | 120 => ⟨S10000, .i32⟩
  | 121 => ⟨S330000, .i32⟩
  | 122 => ⟨S330000, .i32⟩
  | 123 => ⟨S_, .f32⟩
  | 124 => ⟨S330000, .f32⟩
  | 125 => ⟨S_, .f32⟩
  | 126 => ⟨S10000, .f32⟩
  | 127 => ⟨S330000x1, .i32⟩
  | _ => ⟨S10000x512, .f32⟩

abbrev hbmTy0_1 (i : Nat) : BufTy := match i % 128 with
  | 0 => ⟨S10000, .f32⟩
  | 1 => ⟨S_, .f32⟩
  | 2 => ⟨S10000, .f32⟩
  | 3 => ⟨S10000, .f32⟩
  | 4 => ⟨S10000, .f32⟩
  | 5 => ⟨S_, .i32⟩
  | 6 => ⟨S330000, .i32⟩
  | 7 => ⟨S330000, .i1⟩
  | 8 => ⟨S_, .i32⟩
  | 9 => ⟨S330000, .i32⟩
  | 10 => ⟨S330000, .i32⟩
  | 11 => ⟨S330000, .i32⟩
  | 12 => ⟨S330000x1, .i32⟩
  | 13 => ⟨S330000, .f32⟩
  | 14 => ⟨S_, .i32⟩
  | 15 => ⟨S330000, .i32⟩
  | 16 => ⟨S330000, .i1⟩
  | 17 => ⟨S_, .i32⟩
  | 18 => ⟨S330000, .i32⟩
  | 19 => ⟨S330000, .i32⟩
  | 20 => ⟨S330000, .i32⟩
  | 21 => ⟨S330000x1, .i32⟩
  | 22 => ⟨S330000, .f32⟩
  | 23 => ⟨S330000, .f32⟩
  | 24 => ⟨S_, .i32⟩
  | 25 => ⟨S330000, .i32⟩
  | 26 => ⟨S330000, .i1⟩
  | 27 => ⟨S_, .i32⟩
  | 28 => ⟨S330000, .i32⟩
  | 29 => ⟨S330000, .i32⟩
  | 30 => ⟨S330000, .i32⟩
  | 31 => ⟨S330000x1, .i32⟩
  | 32 => ⟨S330000x64, .f32⟩
  | 33 => ⟨S330000x1, .f32⟩
  | 34 => ⟨S330000x64, .f32⟩
  | 35 => ⟨S330000x64, .f32⟩
  | 36 => ⟨S_, .f32⟩
  | 37 => ⟨S10000x64, .f32⟩
  | 38 => ⟨S330000x1, .i32⟩
  | 39 => ⟨S10000x64, .f32⟩
  | 40 => ⟨S1x64, .f32⟩
  | 41 => ⟨S10000x64, .f32⟩
  | 42 => ⟨S10000x64, .f32⟩
  | 43 => ⟨S64x10000, .f32⟩
  | 44 => ⟨S10000x10000, .f32⟩
  | 45 => ⟨S10000x10000, .f32⟩
  | 46 => ⟨S10000x10000, .f32⟩
  | 47 => ⟨S_, .f32⟩
  | 48 => ⟨S10000x10000, .f32⟩
  | 49 => ⟨S10000x10000, .f32⟩
  | 50 => ⟨S_, .f32⟩
  | 51 => ⟨S10000x10000, .f32⟩
  | 52 => ⟨S10000x10000, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_c_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_17 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_18 : Ref sig .tc := ⟨.hbm, 123, rfl⟩
abbrev main_v93 : Ref sig .tc := ⟨.hbm, 124, rfl⟩
abbrev main_cst_19 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_20 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_21 : Ref sig .tc := ⟨.hbm, 133, rfl⟩
abbrev main_v100 : Ref sig .tc := ⟨.hbm, 134, rfl⟩
abbrev main_v101 : Ref sig .tc := ⟨.hbm, 135, rfl⟩
abbrev main_c_22 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_23 : Ref sig .tc := ⟨.hbm, 142, rfl⟩
abbrev main_v107 : Ref sig .tc := ⟨.hbm, 143, rfl⟩
abbrev main_v108 : Ref sig .tc := ⟨.hbm, 144, rfl⟩
abbrev main_c_24 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_c_25 : Ref sig .tc := ⟨.hbm, 152, rfl⟩
abbrev main_v115 : Ref sig .tc := ⟨.hbm, 153, rfl⟩
abbrev main_v116 : Ref sig .tc := ⟨.hbm, 154, rfl⟩
abbrev main_c_26 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_27 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_cst_28 : Ref sig .tc := ⟨.hbm, 175, rfl⟩
abbrev main_v135 : Ref sig .tc := ⟨.hbm, 176, rfl⟩
abbrev main_v136 : Ref sig .tc := ⟨.hbm, 177, rfl⟩
abbrev main_cst_29 : Ref sig .tc := ⟨.hbm, 178, rfl⟩
abbrev main_v137 : Ref sig .tc := ⟨.hbm, 179, rfl⟩
abbrev main_v138 : Ref sig .tc := ⟨.hbm, 180, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  transposes_S10000x64_S64x10000_1_0 : S10000x64.Transposes [1, 0] S64x10000
  bcast_S_S10000x10000 : S_.BroadcastsInDim S10000x10000 (![] : Fin 0 → Fin S10000x10000.rank)
  dot_S10000x512_S512x256_S10000x256_1_0_0_1_n_n_wf : DotDims.WF S10000x512 S512x256 S10000x256 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S10000x256_S256x64_S10000x64_1_0_0_1_n_n_wf : DotDims.WF S10000x256 S256x64 S10000x64 [1] [0] [0] [1] [] []
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S10000x64_S64x10000_S10000x10000_1_0_0_1_n_n_wf : DotDims.WF S10000x64 S64x10000 S10000x10000 [1] [0] [0] [1] [] []

variable [Facts₀]

def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.KReg0.lean ====
/- The frame half of region 0 of @main (the pallas_call `cc0_kernel`), stated at a parameter `V`: the
   TensorCore's buffer contents when the region is entered. Each window's block at a grid point, what the body
   leaves in the output window's buffer as a function of the two input blocks, the body's triple, the
   pipeline's proof data over `V`, and the body obligation at every point. -/
import proofs.«155734_j54030688584379_1_alg».proof.Proof.Gen.Kernel.Launch
import proofs.«155734_j54030688584379_1_alg».proof.Proof.Gen.Kernel.Skeleton
import proofs.«155734_j54030688584379_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the window's view of its array, read off the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a band of 1000 rows, a new band at every point): its current staging buffer holds the band at
    every point, for any proof data whose array is `V`'s and whose body leaves the band in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole right factor, the same block at every point, so fetched once): its staging buffer
    holds the block at every point all the same — where it is not fetched the block index has not moved and the
    body left the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1000x512 := Rect.unit (s := S1000x512) ![0, 0] S1000x512.size inb_S1000x512_S1000x512_0_0
abbrev r0_1 : Rect S512x256 := Rect.unit (s := S512x256) ![0, 0] S512x256.size inb_S512x256_S512x256_0_0
abbrev r0_2 : Rect S1000x256 := Rect.unit (s := S1000x256) ![0, 0] S1000x256.size inb_S1000x256_S1000x256_0_0

/-! ## What the body leaves in the output window's buffer -/

/-- The output window's staging buffer after the body, from the two input blocks: its one store (of the whole
    buffer) of the product payload of the two whole loads. -/
def out0_2 (x0 : Vec F S1000x512 .f32) (x1 : Vec F S512x256 .f32) : Vec F S1000x256 .f32 :=
  View.canon [⟨r0_2, k0_pay1 (View.ld x0 r0_0) (View.ld x1 r0_1)⟩]

/-- The one store is of the whole buffer, so it covers it. -/
theorem cover0_2 (p0 : Vec F S1000x256 .f32) (y : S1000x256.Idx) :
    ∃ pc ∈ ([⟨r0_2, p0⟩] : List (View.Piece (Elt F) S1000x256 .f32)), y ∈ pc.1.set :=
  View.cover_of_tiled [⟨r0_2, p0⟩] S1000x256.size (by rfl) y

/-! ## The body's triple -/

set_option maxHeartbeats 1000000 in
/-- The kernel body on whole staging memrefs — the inputs' at read contents `x0`, `x1`, the output's at anything —
    runs to the continuation holding the inputs' as they were and the output's at `out0_2 x0 x1`. -/
theorem sound_kernel0 (c : Dev nD) (E : Set ℕ) (i : grid0.Coords) (arg1 : Memref sig .tc .vmem S1000x512 .f32) (harg1 : arg1.IsWhole) (arg2 : Memref sig .tc .vmem S512x256 .f32) (harg2 : arg2.IsWhole) (arg3 : Memref sig .tc .vmem S1000x256 .f32) (harg3 : arg3.IsWhole)
    (x0 : Vec F S1000x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region's pipeline on core `c`: the arrays as the region finds them (`V`); after the body
    at point `t` each input's buffer at its block and the output's at `out0_2` of the two input blocks; the
    invariant keeps the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's owed transfers pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
/- The frame half of region 1 of @main (the pallas_call `cc1_kernel`), stated at a parameter `V`: the
   TensorCore's buffer contents when the region is entered. Each window's block at a grid point, what the body
   leaves in the output window's buffer as a function of the two input blocks, the body's triple, the
   pipeline's proof data over `V`, and the body obligation at every point. -/
import proofs.«155734_j54030688584379_1_alg».proof.Proof.Gen.Kernel.Launch
import proofs.«155734_j54030688584379_1_alg».proof.Proof.Gen.Kernel.Skeleton
import proofs.«155734_j54030688584379_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the window's view of its array, read off the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (a band of 1000 rows, a new band at every point): its current staging buffer holds the band at
    every point, for any proof data whose array is `V`'s and whose body leaves the band in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole right factor, the same block at every point, so fetched once): its staging buffer
    holds the block at every point all the same — where it is not fetched the block index has not moved and the
    body left the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1000x256 := Rect.unit (s := S1000x256) ![0, 0] S1000x256.size inb_S1000x256_S1000x256_0_0
abbrev r1_1 : Rect S256x128 := Rect.unit (s := S256x128) ![0, 0] S256x128.size inb_S256x128_S256x128_0_0
abbrev r1_2 : Rect S1000x128 := Rect.unit (s := S1000x128) ![0, 0] S1000x128.size inb_S1000x128_S1000x128_0_0

/-! ## What the body leaves in the output window's buffer -/

/-- The output window's staging buffer after the body, from the two input blocks: its one store (of the whole
    buffer) of the product payload of the two whole loads. -/
def out1_2 (x0 : Vec F S1000x256 .f32) (x1 : Vec F S256x128 .f32) : Vec F S1000x128 .f32 :=
  View.canon [⟨r1_2, k1_pay1 (View.ld x0 r1_0) (View.ld x1 r1_1)⟩]

/-- The one store is of the whole buffer, so it covers it. -/
theorem cover1_2 (p0 : Vec F S1000x128 .f32) (y : S1000x128.Idx) :
    ∃ pc ∈ ([⟨r1_2, p0⟩] : List (View.Piece (Elt F) S1000x128 .f32)), y ∈ pc.1.set :=
  View.cover_of_tiled [⟨r1_2, p0⟩] S1000x128.size (by rfl) y

/-! ## The body's triple -/

set_option maxHeartbeats 1000000 in
/-- The kernel body on whole staging memrefs — the inputs' at read contents `x0`, `x1`, the output's at anything —
    runs to the continuation holding the inputs' as they were and the output's at `out1_2 x0 x1`. -/
theorem sound_kernel1 (c : Dev nD) (E : Set ℕ) (i : grid1.Coords) (arg1 : Memref sig .tc .vmem S1000x256 .f32) (harg1 : arg1.IsWhole) (arg2 : Memref sig .tc .vmem S256x128 .f32) (harg2 : arg2.IsWhole) (arg3 : Memref sig .tc .vmem S1000x128 .f32) (harg3 : arg3.IsWhole)
    (x0 : Vec F S1000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region's pipeline on core `c`: the arrays as the region finds them (`V`); after the body
    at point `t` each input's buffer at its block and the output's at `out1_2` of the two input blocks; the
    invariant keeps the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's owed transfers pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2.lean ====
/-
  Region 2 of @main, the third pipelined kernel (grid [10,10]): each point reads a block of 1000 rows and a block of
  1024 rows of ONE array of 10000 rows of 64 entries, and writes the entrywise logistic of the product of the first
  with the transpose of the second into the matching 1000 × 1024 block of a 10000 × 10000 array.  The last block of
  1024 rows overhangs the array (10 · 1024 > 10000), and so does the last block of 1024 columns of the result: of
  such a block only the part inside the array is moved, and the staging buffer's remaining rows hold words that
  nothing names.  Stated here, at the buffer contents `V` the region is entered from: the blocks, what the body
  leaves, the body's triple, the proof data (the one input array shared half and half between its two windows), and
  the body obligation in two forms — with the result window forgotten (any float model), and exact, under the
  hypothesis that an entry of the block product reads only its own row of the right factor.
-/
import proofs.«155734_j54030688584379_1_alg».proof.Proof.Gen.Kernel.Launch
import proofs.«155734_j54030688584379_1_alg».proof.Proof.Gen.Kernel.Skeleton
import proofs.«155734_j54030688584379_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region2
-- the TensorCore's buffer contents when region 2 is entered
variable (V : (c : Dev nD) → (b : Ref sig .tc) → Buf (Elt F) ((c : Thread nD τ).loc b))

/-! ## The windows' blocks -/

/-- Window `w`'s block at point `t`, its part inside the array, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of 1024 rows filled out to the whole staging buffer: the rows inside the array, and the zero word
    on the rows past its end (which nothing reads back). -/
def jblk2 (c : Dev nD) (t : Fin cfg2.N) : S1024x64.Idx → Elt F .f32 :=
  (cfg2.win 1).fill (cfg2.grid.coords t) (fun _ => Scalar.ofBits .f32 0#32) (iblk2 V c 1 t)

/-! ## The body's accesses -/

abbrev r2_0 : Rect S1000x64 := Rect.unit (s := S1000x64) ![0, 0] S1000x64.size inb_S1000x64_S1000x64_0_0
abbrev r2_1 : Rect S1024x64 := Rect.unit (s := S1024x64) ![0, 0] S1024x64.size inb_S1024x64_S1024x64_0_0
abbrev r2_2 : Rect S1000x1024 := Rect.unit (s := S1000x1024) ![0, 0] S1000x1024.size inb_S1000x1024_S1000x1024_0_0

/-! ## What the body leaves in the result window's buffer -/

/-- The result window's staging buffer after the body, from the two input buffers: its one whole-block store. -/
def out2_2 (x0 : Vec F S1000x64 .f32) (x1 : Vec F S1024x64 .f32) : Vec F S1000x1024 .f32 :=
  View.canon [⟨r2_2, k2_pay1 (View.ld x0 r2_0) (View.ld x1 r2_1)⟩]

/-- The store covers the buffer. -/
theorem cover2_2 (p0 : Vec F S1000x1024 .f32) (y : S1000x1024.Idx) :
    ∃ pc ∈ ([⟨r2_2, p0⟩] : List (View.Piece (Elt F) S1000x1024 .f32)), y ∈ pc.1.set :=
  View.cover_of_tiled [⟨r2_2, p0⟩] S1000x1024.size (by rfl) y

/-! ## The body's triple -/

set_option maxHeartbeats 1000000 in
/-- The body on whole staging memrefs, the two inputs' at contents `x0`, `x1` and the result's at anything, runs to
    the continuation holding the inputs' as they were and the result's at `out2_2 x0 x1`. -/
theorem sound_kernel2 (c : Dev nD) (E : Set ℕ) (i : grid2.Coords) (arg0 : Memref sig .tc .vmem S1000x64 .f32) (harg0 : arg0.IsWhole)
    (arg1 : Memref sig .tc .vmem S1024x64 .f32) (harg1 : arg1.IsWhole) (arg2 : Memref sig .tc .vmem S1000x1024 .f32) (harg2 : arg2.IsWhole)
    (x0 : Vec F S1000x64 .f32) (x1 : Vec F S1024x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2_kernel i arg0 harg0 arg1 harg1 arg2 harg2) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of region 2 on core `c`: the arrays as the region finds them; after the body at point `t` the
    block of 1000 rows in the first window's buffer, the block of 1024 rows (filled out) in the second's, and what
    the body computes from those two in the result's; the class invariant; nothing owed; the input array, which two
    windows read, held half and half. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => jblk2 V c t
    | ⟨2, _⟩ => out2_2 (iblk2 V c 0 t) (jblk2 V c t)
  Φ _ := Pipeline.ΦA spec2 c
  q w := match w with
    | ⟨0, _⟩ => fullShare.left
    | ⟨1, _⟩ => fullShare.right
    | ⟨2, _⟩ => fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = jblk2 V c t := by dsimp only [dat2]
theorem after2_2 (c : Dev nD) (t : Fin cfg2.N) : (dat2 V c).after 2 t = out2_2 (iblk2 V c 0 t) (jblk2 V c t) := by dsimp only [dat2]

end Region2

end Cert.Kernel.Hand

end
-- ==== Proof.KRunDefs.lean ====
/- The contents of the TensorCore's buffers at each boundary between the items of @main — host stretches and the
   three kernel regions — as a fold from the launch memory: a host stretch applies its operations, a region
   replaces its output array by what its write-backs leave and keeps every other buffer. -/
import proofs.«155734_j54030688584379_1_alg».proof.Proof.Gen.Kernel.Launch
import proofs.«155734_j54030688584379_1_alg».proof.Proof.Gen.Kernel.Skeleton
import proofs.«155734_j54030688584379_1_alg».proof.Proof.Gen.Kernel.Points
import proofs.«155734_j54030688584379_1_alg».proof.Proof.Gen.Kernel.Regions
import proofs.«155734_j54030688584379_1_alg».proof.Proof.KReg0
import proofs.«155734_j54030688584379_1_alg».proof.Proof.KReg1
import proofs.«155734_j54030688584379_1_alg».proof.Proof.KReg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the two index rows cut out of the edge list): region 0's entry. -/
abbrev W1 : Dev nD → Valuation τ sig (Elt F) := fun c => StableHlo.after hostOps0 (W0 m ρ c)
/-- The same read at the TensorCore's references. -/
abbrev E0 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (E0 m ρ) c).arrAt w cfg0.N
theorem W2_arr (c : Dev nD) (w : Fin cfg0.W) :
    W2 m ρ c (Proc.devRef .tc (Pipeline.arrRef spec0 w)) = (dat0 (E0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev X0 : (c : Dev nD) → (b : Ref sig .tc) → Buf (Elt F) ((c : Thread nD τ).loc b) := fun c b => W2 m ρ c b
theorem hF0 (c : Dev nD) (w : Fin cfg0.W) : (dat0 (E0 m ρ) c).arrAt w cfg0.N = X0 m ρ c (Pipeline.arrRef spec0 w) :=
  (W2_arr m ρ c w).symm
theorem hrest0 (c : Dev nD) : ∀ b, b ∉ Finset.univ.image (Pipeline.arrRef spec0) → X0 m ρ c b = E0 m ρ c b :=
  fun b hb => W2_of_ne m ρ c b fun w e => hb (Finset.mem_image.mpr ⟨w, Finset.mem_univ _, e⟩)

/-- After the three host stretches between regions 0 and 1 (the aggregation and bias, the rectifier, the
    concatenated weights): region 1's entry. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev E1 : (c : Dev nD) → (b : Ref sig .tc) → Buf (Elt F) ((c : Thread nD τ).loc b) := fun c b => W5 m ρ c b
/-- At region 1's exit. -/
def W6 (c : Dev nD) : Valuation τ sig (Elt F) :=
  Pipeline.withArrays spec1 c (W5 m ρ c) fun w => (dat1 (E1 m ρ) c).arrAt w cfg1.N
theorem W6_arr (c : Dev nD) (w : Fin cfg1.W) :
    W6 m ρ c (Proc.devRef .tc (Pipeline.arrRef spec1 w)) = (dat1 (E1 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev X1 : (c : Dev nD) → (b : Ref sig .tc) → Buf (Elt F) ((c : Thread nD τ).loc b) := fun c b => W6 m ρ c b
theorem hF1 (c : Dev nD) (w : Fin cfg1.W) : (dat1 (E1 m ρ) c).arrAt w cfg1.N = X1 m ρ c (Pipeline.arrRef spec1 w) :=
  (W6_arr m ρ c w).symm
theorem hrest1 (c : Dev nD) : ∀ b, b ∉ Finset.univ.image (Pipeline.arrRef spec1) → X1 m ρ c b = E1 m ρ c b :=
  fun b hb => W6_of_ne m ρ c b fun w e => hb (Finset.mem_image.mpr ⟨w, Finset.mem_univ _, e⟩)

/-- After the host stretch between regions 1 and 2 (the second aggregation, the two column halves and their
    biases): region 2's entry. -/
abbrev W7 : Dev nD → Valuation τ sig (Elt F) := fun c => StableHlo.after hostOps2 (W6 m ρ c)
abbrev E2 : (c : Dev nD) → (b : Ref sig .tc) → Buf (Elt F) ((c : Thread nD τ).loc b) := fun c b => W7 m ρ c b

/-- At region 2's exit: its output array at what the write-backs leave, every other buffer as entered. -/
def W8 (c : Dev nD) : Valuation τ sig (Elt F) :=
  Function.update (W7 m ρ c) (Proc.devRef .tc main_v95) ((dat2 (E2 m ρ) c).arrAt 2 cfg2.N)

/-! ## The proof data family and the thread state -/

/-- The prefetched tables' admissible contents: no pipeline has a table. -/
abbrev admT : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admT p) c
  | ⟨0, _⟩ => fun c => dat0 (E0 m ρ) c
  | ⟨1, _⟩ => fun c => dat1 (E1 m ρ) c
  | ⟨2, _⟩ => fun c => dat2 (E2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    owed transfers, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed transfers: every unscoped buffer at the last boundary's contents, the
    generator register at some state. -/
abbrev Tₙ (c : Dev nD) : sProp 𝕄 := iprop(StableHlo.held (c : Thread nD τ) (Pipeline.ucRefs τ sig) (W8 m ρ c) ∗ ∃ r, prngReg c r)

end Cert.Kernel.Hand

end
-- ==== Proof.KRunRegs.lean ====
/- Regions 0 and 1 of @main as segments over the thread state "every unscoped buffer at the boundary's contents,
   the generator register at some state, nothing owed". -/
import proofs.«155734_j54030688584379_1_alg».proof.Proof.Gen.Kernel.Launch
import proofs.«155734_j54030688584379_1_alg».proof.Proof.Gen.Kernel.Skeleton
import proofs.«155734_j54030688584379_1_alg».proof.Proof.Gen.Kernel.Points
import proofs.«155734_j54030688584379_1_alg».proof.Proof.Gen.Kernel.Regions
import proofs.«155734_j54030688584379_1_alg».proof.Proof.KRunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 0 over the thread state: entered from every unscoped buffer at the boundary before it, left at the one
    after it. Its arrays are split out of the unscoped buffers and put back at the exit contents; the generator
    register goes into the kernel's invariant and comes back; nothing is owed; the kernel has no semaphore of its own. -/
def reg0 : Pipeline.RegionSeg (pcfgs (F := F)) admT (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) admT (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one
    after it. Its arrays are split out of the unscoped buffers and put back at the exit contents; the generator
    register goes into the kernel's invariant and comes back; nothing is owed; the kernel has no semaphore of its own. -/
def reg1 : Pipeline.RegionSeg (pcfgs (F := F)) admT (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) admT (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunKeep.lean ====
/- Which buffers each item of @main leaves alone, and with that: every argument array reaches the end holding its
   launch contents, and each value a later item reads is the one an earlier item left. -/
import proofs.«155734_j54030688584379_1_alg».proof.Proof.Gen.Kernel.Launch
import proofs.«155734_j54030688584379_1_alg».proof.Proof.Gen.Kernel.Skeleton
import proofs.«155734_j54030688584379_1_alg».proof.Proof.Gen.Kernel.Points
import proofs.«155734_j54030688584379_1_alg».proof.Proof.Gen.Kernel.Regions
import proofs.«155734_j54030688584379_1_alg».proof.Proof.KRunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One item at a time -/

theorem W1_keep (c : Dev nD) (b : Ref sig .tc) (h : b ∉ hostOps0_W) : W1 m ρ c (Proc.devRef .tc b) = W0 m ρ c (Proc.devRef .tc b) :=
  StableHlo.after_of_writes_sub hostOps0 _ hostOps0_writes h
theorem W2_keep (c : Dev nD) (b : Ref sig .tc) (h : ∀ w, Pipeline.arrRef spec0 w ≠ b) : W2 m ρ c (Proc.devRef .tc b) = W1 m ρ c (Proc.devRef .tc b) :=
  W2_of_ne m ρ c b h
theorem W3_keep (c : Dev nD) (b : Ref sig .tc) (h : b ∉ hostOps1_W) : W3 m ρ c (Proc.devRef .tc b) = W2 m ρ c (Proc.devRef .tc b) :=
  StableHlo.after_of_writes_sub hostOps1 _ hostOps1_writes h
theorem W4_keep (c : Dev nD) (b : Ref sig .tc) (h : b ∉ hostOps1_1_W) : W4 m ρ c (Proc.devRef .tc b) = W3 m ρ c (Proc.devRef .tc b) :=
  StableHlo.after_of_writes_sub hostOps1_1 _ hostOps1_1_writes h
theorem W5_keep (c : Dev nD) (b : Ref sig .tc) (h : b ∉ hostOps1_2_W) : W5 m ρ c (Proc.devRef .tc b) = W4 m ρ c (Proc.devRef .tc b) :=
  StableHlo.after_of_writes_sub hostOps1_2 _ hostOps1_2_writes h
theorem W6_keep (c : Dev nD) (b : Ref sig .tc) (h : ∀ w, Pipeline.arrRef spec1 w ≠ b) : W6 m ρ c (Proc.devRef .tc b) = W5 m ρ c (Proc.devRef .tc b) :=
  W6_of_ne m ρ c b h
theorem W7_keep (c : Dev nD) (b : Ref sig .tc) (h : b ∉ hostOps2_W) : W7 m ρ c (Proc.devRef .tc b) = W6 m ρ c (Proc.devRef .tc b) :=
  StableHlo.after_of_writes_sub hostOps2 _ hostOps2_writes h
theorem W8_keep (c : Dev nD) (b : Ref sig .tc) (h : b ≠ main_v95) : W8 m ρ c (Proc.devRef .tc b) = W7 m ρ c (Proc.devRef .tc b) := by
  unfold W8; exact Function.update_of_ne (StableHlo.devRef_ne_of_ne h) _ _

/-- Region 0 reads its two input arrays and leaves them as it found them. -/
theorem W2_in0 (c : Dev nD) : W2 m ρ c (Proc.devRef .tc main_arg0) = W1 m ρ c (Proc.devRef .tc main_arg0) :=
  (W2_arr m ρ c 0).trans (((dat0 (E0 m ρ) c).arrAt_in 0 rfl _).trans (A_eq0 (E0 m ρ) c 0))
theorem W2_in1 (c : Dev nD) : W2 m ρ c (Proc.devRef .tc main_arg2) = W1 m ρ c (Proc.devRef .tc main_arg2) :=
  (W2_arr m ρ c 1).trans (((dat0 (E0 m ρ) c).arrAt_in 1 rfl _).trans (A_eq0 (E0 m ρ) c 1))

/-! ## From the end back to the launch -/

/-- A buffer that no item between region 0's exit and region 2's entry writes holds at region 2's entry what it held
    at region 0's exit. -/
theorem W7_eq_W2 (c : Dev nD) (b : Ref sig .tc) (h2 : b ∉ hostOps2_W) (hr1 : ∀ w, Pipeline.arrRef spec1 w ≠ b)
    (h12 : b ∉ hostOps1_2_W) (h11 : b ∉ hostOps1_1_W) (h1 : b ∉ hostOps1_W) :
    W7 m ρ c (Proc.devRef .tc b) = W2 m ρ c (Proc.devRef .tc b) :=
  (W7_keep m ρ c b h2).trans <| (W6_keep m ρ c b hr1).trans <| (W5_keep m ρ c b h12).trans <|
    (W4_keep m ρ c b h11).trans (W3_keep m ρ c b h1)

theorem W7_main_arg0 (c : Dev nD) : W7 m ρ c (Proc.devRef .tc main_arg0) = m ((c : Thread nD τ).loc main_arg0) :=
  (W7_eq_W2 m ρ c main_arg0 (by decide) (by decide) (by decide) (by decide) (by decide)).trans <|
    (W2_in0 m ρ c).trans <| (W1_keep m ρ c main_arg0 (by decide)).trans rfl
theorem W7_main_arg2 (c : Dev nD) : W7 m ρ c (Proc.devRef .tc main_arg2) = m ((c : Thread nD τ).loc main_arg2) :=
  (W7_eq_W2 m ρ c main_arg2 (by decide) (by decide) (by decide) (by decide) (by decide)).trans <|
    (W2_in1 m ρ c).trans <| (W1_keep m ρ c main_arg2 (by decide)).trans rfl
theorem W7_main_arg1 (c : Dev nD) : W7 m ρ c (Proc.devRef .tc main_arg1) = m ((c : Thread nD τ).loc main_arg1) :=
  (W7_eq_W2 m ρ c main_arg1 (by decide) (by decide) (by decide) (by decide) (by decide)).trans <|
    (W2_keep m ρ c main_arg1 (by decide)).trans <| (W1_keep m ρ c main_arg1 (by decide)).trans rfl
theorem W7_main_arg3 (c : Dev nD) : W7 m ρ c (Proc.devRef .tc main_arg3) = m ((c : Thread nD τ).loc main_arg3) :=
  (W7_eq_W2 m ρ c main_arg3 (by decide) (by decide) (by decide) (by decide) (by decide)).trans <|
    (W2_keep m ρ c main_arg3 (by decide)).trans <| (W1_keep m ρ c main_arg3 (by decide)).trans rfl
theorem W7_main_arg4 (c : Dev nD) : W7 m ρ c (Proc.devRef .tc main_arg4) = m ((c : Thread nD τ).loc main_arg4) :=
  (W7_eq_W2 m ρ c main_arg4 (by decide) (by decide) (by decide) (by decide) (by decide)).trans <|
    (W2_keep m ρ c main_arg4 (by decide)).trans <| (W1_keep m ρ c main_arg4 (by decide)).trans rfl
theorem W7_main_arg5 (c : Dev nD) : W7 m ρ c (Proc.devRef .tc main_arg5) = m ((c : Thread nD τ).loc main_arg5) :=
  (W7_eq_W2 m ρ c main_arg5 (by decide) (by decide) (by decide) (by decide) (by decide)).trans <|
    (W2_keep m ρ c main_arg5 (by decide)).trans <| (W1_keep m ρ c main_arg5 (by decide)).trans rfl
theorem W7_main_arg6 (c : Dev nD) : W7 m ρ c (Proc.devRef .tc main_arg6) = m ((c : Thread nD τ).loc main_arg6) :=
  (W7_eq_W2 m ρ c main_arg6 (by decide) (by decide) (by decide) (by decide) (by decide)).trans <|
    (W2_keep m ρ c main_arg6 (by decide)).trans <| (W1_keep m ρ c main_arg6 (by decide)).trans rfl
theorem W7_main_arg7 (c : Dev nD) : W7 m ρ c (Proc.devRef .tc main_arg7) = m ((c : Thread nD τ).loc main_arg7) :=
  (W7_eq_W2 m ρ c main_arg7 (by decide) (by decide) (by decide) (by decide) (by decide)).trans <|
    (W2_keep m ρ c main_arg7 (by decide)).trans <| (W1_keep m ρ c main_arg7 (by decide)).trans rfl
theorem W8_main_arg0 (c : Dev nD) : W8 m ρ c (Proc.devRef .tc main_arg0) = m ((c : Thread nD τ).loc main_arg0) :=
  (W8_keep m ρ c main_arg0 (by decide)).trans (W7_main_arg0 m ρ c)
theorem W8_main_arg1 (c : Dev nD) : W8 m ρ c (Proc.devRef .tc main_arg1) = m ((c : Thread nD τ).loc main_arg1) :=
  (W8_keep m ρ c main_arg1 (by decide)).trans (W7_main_arg1 m ρ c)
theorem W8_main_arg2 (c : Dev nD) : W8 m ρ c (Proc.devRef .tc main_arg2) = m ((c : Thread nD τ).loc main_arg2) :=
  (W8_keep m ρ c main_arg2 (by decide)).trans (W7_main_arg2 m ρ c)
theorem W8_main_arg3 (c : Dev nD) : W8 m ρ c (Proc.devRef .tc main_arg3) = m ((c : Thread nD τ).loc main_arg3) :=
  (W8_keep m ρ c main_arg3 (by decide)).trans (W7_main_arg3 m ρ c)
theorem W8_main_arg4 (c : Dev nD) : W8 m ρ c (Proc.devRef .tc main_arg4) = m ((c : Thread nD τ).loc main_arg4) :=
  (W8_keep m ρ c main_arg4 (by decide)).trans (W7_main_arg4 m ρ c)
theorem W8_main_arg5 (c : Dev nD) : W8 m ρ c (Proc.devRef .tc main_arg5) = m ((c : Thread nD τ).loc main_arg5) :=
  (W8_keep m ρ c main_arg5 (by decide)).trans (W7_main_arg5 m ρ c)
theorem W8_main_arg6 (c : Dev nD) : W8 m ρ c (Proc.devRef .tc main_arg6) = m ((c : Thread nD τ).loc main_arg6) :=
  (W8_keep m ρ c main_arg6 (by decide)).trans (W7_main_arg6 m ρ c)
theorem W8_main_arg7 (c : Dev nD) : W8 m ρ c (Proc.devRef .tc main_arg7) = m ((c : Thread nD τ).loc main_arg7) :=
  (W8_keep m ρ c main_arg7 (by decide)).trans (W7_main_arg7 m ρ c)

end Cert.Kernel.Hand

end
-- ==== Proof.KReg2Body.lean ====
/-
  Region 2: what the body finds in each staging buffer, and the body obligation in its two forms.
-/
import proofs.«155734_j54030688584379_1_alg».proof.Proof.KReg2
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each staging buffer -/

/-- The first window (uncut, its block index the first grid coordinate) holds its block at every point, fetched
    there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)

/-- The second window is fetched at every point: its buffer holds the block on the rows inside the array and
    anything (`d`) on the rows past its end. -/
theorem before2_1 (c : Dev nD) (t : Fin cfg2.N) (d) :
    (dat2 V c).before 1 t d = (cfg2.win 1).fill (cfg2.grid.coords t) d (iblk2 V c 1 t) := by
  rw [(dat2 V c).before_fetched 1 t (fetch2_1 t) d]; unfold Dat.fetched Dat.blockOf iblk2; rw [A_eq2]

/-- The result window is written back at every point: the body finds its buffer at anything. -/
theorem before2_2 (c : Dev nD) (t : Fin cfg2.N) (d) : (dat2 V c).before 2 t d = d :=
  (dat2 V c).before_out_reset 2 rfl t (by
    by_cases h : t.val = 0
    · exact .inl h
    · exact .inr ⟨h, flush2_2 _⟩) d

/-- The whole-block store leaves its payload: the body's result is the payload of the two buffers. -/
theorem out2_2_eq (x0 : Vec F S1000x64 .f32) (x1 : Vec F S1024x64 .f32) : out2_2 x0 x1 = k2_pay1 x0 x1 := by
  have hz : (![0, 0] : Fin 2 → Nat) = fun _ => 0 := funext fun a => by fin_cases a <;> rfl
  unfold out2_2
  rw [View.canon_unit_zero hz, View.ld_unit_zero hz, View.ld_unit_zero hz]

/-- The rows inside the array of the filled-out block of 1024 rows are the block. -/
theorem cut_jblk2 (c : Dev nD) (t : Fin cfg2.N) : (cfg2.win 1).cut (cfg2.grid.coords t) (jblk2 V c t) = iblk2 V c 1 t :=
  (cfg2.win 1).cut_fill _ _ _

/-! ## The body obligation with the result window forgotten (any float model) -/

/-- The result window, and only it, is forgotten. -/
abbrev fgt2 : Fin cfg2.W → Bool := fun | ⟨0, _⟩ => false | ⟨1, _⟩ => false | ⟨2, _⟩ => true

/-- What the body is called with at point `t`, the result window's buffer at anything, -/
def bodyPre2f (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ X, owns (c : Thread nD τ) (st2_2 t) fullShare X))

/-- and what it returns: the first input's buffer at its block, the second's at its block on the rows inside the
    array, the result's at anything. -/
def bodyPost2f (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare ((cfg2.win 1).fill (cfg2.grid.coords t) d ((cfg2.win 1).cut (cfg2.grid.coords t) ((dat2 V c).after 1 t))))
    ∗ (∃ X, owns (c : Thread nD τ) (st2_2 t) fullShare X))

theorem sound_body2f (c : Dev nD) (t : Fin cfg2.N) :
    bodyPre2f V c t ⊢ wp frame (wpE (defs₀ (F := F)) Variants.none c none) Set.univ (bodyAt2 t) (fun _ => bodyPost2f V c t) := by
  unfold bodyPre2f bodyPost2f bodyAt2
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩⟩
  rw [before2_0 V c t d0, before2_1 V c t d1]
  iapply (sound_kernel2 (F := F) c Set.univ (grid2.coords t) _ _ _ _ _ _ (iblk2 V c 0 t)
    ((cfg2.win 1).fill (cfg2.grid.coords t) d1 (iblk2 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · rw [after2_0]; iexact H0
  isplitl [H1]
  · iexists d1
    rw [after2_1, cut_jblk2]
    iexact H1
  · iexists _; iexact H2

/-- The library's body obligation with the result window forgotten, at every point, for any float model. -/
theorem body_obligation2_fgt (c : Dev nD) : BodyObligationLoose (dat2 (F := F) V c) (defs₀ (F := F)) Variants.none () Set.univ fgt2 := fun t => by
  rw [bigSep_W2, bigSep_W2]
  exact sound_body2f V c t

/-! ## The exact body obligation, where an entry of the block product reads only its own row of the right factor -/

/-- The hypothesis: two second-window buffers that agree on the rows inside the array give results that agree on the
    columns inside the array (row `j` of the second buffer is column `j` of the result; the two windows are cut
    alike, both by the second grid coordinate). -/
def RowLocal2 (F : FTy → Type) [FloatOps F] : Prop :=
  ∀ (t : Fin cfg2.N) (x0 : Vec F S1000x64 .f32) (x1 x1' : Vec F S1024x64 .f32),
    (cfg2.win 1).cut (cfg2.grid.coords t) x1 = (cfg2.win 1).cut (cfg2.grid.coords t) x1' →
      (cfg2.win 2).cut (cfg2.grid.coords t) (k2_pay1 x0 x1) = (cfg2.win 2).cut (cfg2.grid.coords t) (k2_pay1 x0 x1')

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: each cut window's buffer stated on the part inside the array. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare ((cfg2.win 1).fill (cfg2.grid.coords t) d ((cfg2.win 1).cut (cfg2.grid.coords t) ((dat2 V c).after 1 t))))
    ∗ (∃ d, owns (c : Thread nD τ) (st2_2 t) fullShare ((cfg2.win 2).fill (cfg2.grid.coords t) d ((cfg2.win 2).cut (cfg2.grid.coords t) ((dat2 V c).after 2 t)))))

theorem sound_body2 (hloc : RowLocal2 F) (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩⟩
  rw [before2_0 V c t d0, before2_1 V c t d1]
  iapply (sound_kernel2 (F := F) c Set.univ (grid2.coords t) _ _ _ _ _ _ (iblk2 V c 0 t)
    ((cfg2.win 1).fill (cfg2.grid.coords t) d1 (iblk2 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · rw [after2_0]; iexact H0
  isplitl [H1]
  · iexists d1
    rw [after2_1, cut_jblk2]
    iexact H1
  · iexists (out2_2 (iblk2 V c 0 t) ((cfg2.win 1).fill (cfg2.grid.coords t) d1 (iblk2 V c 1 t)))
    rw [after2_2, (cfg2.win 2).fill_congr_cut (cfg2.grid.coords t) (by
      rw [out2_2_eq, out2_2_eq]
      exact hloc t _ _ _ (by rw [cut_jblk2]; exact (cfg2.win 1).cut_fill _ _ _))]
    iexact H2

/-- The library's body obligation, exact, at every point. -/
theorem body_obligation2 (hloc : RowLocal2 F) (c : Dev nD) : BodyObligationLoose (dat2 (F := F) V c) (defs₀ (F := F)) Variants.none () Set.univ := fun t => by
  rw [bigSep_W2, bigSep_W2]
  exact sound_body2 V hloc c t

end Cert.Kernel.Hand

end
-- ==== Proof.KReg2Seg.lean ====
/-
  Region 2 among @main's segments: its arrays split out of the core's unscoped buffers at entry, the input array half and half between its two windows, and put back at exit.
-/
import proofs.«155734_j54030688584379_1_alg».proof.Proof.KReg2Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (W : Dev nD → Valuation τ sig (Elt F))

/-- A valuation read at the TensorCore's references. -/
abbrev atTc : (c : Dev nD) → (b : Ref sig .tc) → Buf (Elt F) ((c : Thread nD τ).loc b) := fun c b => W c b

/-! ## The region's arrays as points-to assertions: the input array held half and half -/

/-- The proof data's arrays at contents `G`: the input array's two halves, one per window, and the result array whole. -/
theorem arrays_eq2 (c : Dev nD) (G : (w : Fin cfg2.W) → Buf (Elt F) ((cfg2.win w).arr.view.loc (c : Thread nD τ))) :
    ((dat2 V c).arrays G : sProp 𝕄)
      = iprop((((c : Thread nD τ).loc main_v90) ↦{fullShare.left} G 0) ∗ (((c : Thread nD τ).loc main_v90) ↦{fullShare.right} G 1)
          ∗ (((c : Thread nD τ).loc main_v95) ↦{fullShare} G 2)) := by
  unfold Dat.arrays
  rw [bigSep_W2, (arr_whole2 0).set_eq_univ, (arr_whole2 2).set_eq_univ]
  rfl

/-- The distinct buffers behind the windows' arrays: the input array and the result array. -/
theorem arrBufs_eq2 (c : Dev nD) (U : (b : Ref sig .tc) → Buf (Elt F) ((c : Thread nD τ).loc b)) :
    (Pipeline.arrBufs (Ix := Unit) (Name := ℕ) (U := UR sig nD τ) (Lvl := ℕ) spec2 c U : sProp 𝕄)
      = iprop((((c : Thread nD τ).loc main_v90) ↦{fullShare} U main_v90) ∗ (((c : Thread nD τ).loc main_v95) ↦{fullShare} U main_v95)) := by
  unfold Pipeline.arrBufs
  rw [bigSep_eq_bigSepL_of_eq [main_v90, main_v95] (by decide) (by decide)]
  rfl

/-- The unscoped buffers at a valuation: the two array buffers and the rest. -/
theorem held_split2 (c : Dev nD) (W' : Valuation τ sig (Elt F)) :
    (StableHlo.held (c : Thread nD τ) (Pipeline.ucRefs τ sig) W' : sProp 𝕄)
      = iprop(((((c : Thread nD τ).loc main_v90) ↦{fullShare} W' (Proc.devRef .tc main_v90)) ∗ (((c : Thread nD τ).loc main_v95) ↦{fullShare} W' (Proc.devRef .tc main_v95)))
          ∗ Pipeline.unscopedRest (Ix := Unit) (Name := ℕ) (U := UR sig nD τ) (Lvl := ℕ) spec2 c (fun b => W' (Proc.devRef .tc b))) := by
  rw [← Pipeline.unscopedBufs_held (Ix := Unit) (Name := ℕ) (U := UR sig nD τ) (Lvl := ℕ) c W',
    Pipeline.unscopedBufs_split₀ cfgs (2 : Fin 3) winFacts₀2.arr_unscoped c (fun b => W' (Proc.devRef .tc b))]
  change iprop((Pipeline.arrBufs (Ix := Unit) (Name := ℕ) (U := UR sig nD τ) (Lvl := ℕ) spec2 c (fun b => W' (Proc.devRef .tc b)) : sProp 𝕄) ∗ _) = _
  rw [arrBufs_eq2]
  rfl

/-- ENTRY, the arrays' part: every unscoped buffer at `W` is the region's arrays at the proof data's entry contents —
    the input array's full share dealt half and half to its two windows — and the unscoped rest. -/
theorem arrays_of_held2 (c : Dev nD) :
    (StableHlo.held (c : Thread nD τ) (Pipeline.ucRefs τ sig) (W c) : sProp 𝕄)
      ⊢ iprop((dat2 (atTc W) c).arrays ((dat2 (atTc W) c).arrAt · 0)
          ∗ Pipeline.unscopedRest (Ix := Unit) (Name := ℕ) (U := UR sig nD τ) (Lvl := ℕ) spec2 c (atTc W c)) := by
  rw [held_split2, arrays_eq2]
  iintro ⟨⟨Hx, Hy⟩, Hrest⟩
  ihave H := (pointsTo_share (PosShare.mem_left_op_right fullShare)).1 $$ Hx
  icases H with ⟨Hl, Hr⟩
  isplitr [Hrest]
  · isplitl [Hl]; · iexact Hl
    isplitl [Hr]; · iexact Hr
    iexact Hy
  iexact Hrest

/-- EXIT, the arrays' part: the input array's two halves as entered, the result array at `Y` and the unscoped rest
    as entered are every unscoped buffer at `W` with the result array's contents replaced by `Y`. -/
theorem held_of_parts2 (c : Dev nD) (Y : Buf (Elt F) ((c : Thread nD τ).loc main_v95)) :
    iprop(((((c : Thread nD τ).loc main_v90) ↦{fullShare.left} atTc W c main_v90) ∗ (((c : Thread nD τ).loc main_v90) ↦{fullShare.right} atTc W c main_v90)
          ∗ (((c : Thread nD τ).loc main_v95) ↦{fullShare} Y))
        ∗ Pipeline.unscopedRest (Ix := Unit) (Name := ℕ) (U := UR sig nD τ) (Lvl := ℕ) spec2 c (atTc W c))
      ⊢ (StableHlo.held (c : Thread nD τ) (Pipeline.ucRefs τ sig) (Function.update (W c) (Proc.devRef .tc main_v95) Y) : sProp 𝕄) := by
  rw [held_split2, Function.update_self,
    Function.update_of_ne (StableHlo.devRef_ne_of_ne (show main_v90 ≠ main_v95 by decide)) Y (W c)]
  have hrest : (Pipeline.unscopedRest (Ix := Unit) (Name := ℕ) (U := UR sig nD τ) (Lvl := ℕ) spec2 c
        (fun b => Function.update (W c) (Proc.devRef .tc main_v95) Y (Proc.devRef .tc b)) : sProp 𝕄)
      = Pipeline.unscopedRest (Ix := Unit) (Name := ℕ) (U := UR sig nD τ) (Lvl := ℕ) spec2 c (atTc W c) := by
    unfold Pipeline.unscopedRest
    exact bigSep_congr fun b hb => by
      have hne : b ≠ main_v95 := fun e => (Finset.mem_sdiff.mp hb).2 (Finset.mem_image.mpr ⟨2, Finset.mem_univ _, e.symm⟩)
      dsimp only
      rw [Function.update_of_ne (StableHlo.devRef_ne_of_ne hne) Y (W c)]
  rw [hrest]
  iintro ⟨⟨Hl, Hr, Hy⟩, Hrest⟩
  isplitr [Hrest]
  · isplitl [Hl Hr]
    · iapply (pointsTo_share (PosShare.mem_left_op_right fullShare)).2
      isplitl [Hl]; · iexact Hl
      iexact Hr
    iexact Hy
  iexact Hrest

/-- EXIT for the exact proof data: the arrays after every write-back (the inputs as entered) and the unscoped rest
    are every unscoped buffer at `W` with the result array at what the write-backs left. -/
theorem held_of_arrays2 (c : Dev nD) :
    iprop((dat2 (atTc W) c).arrays ((dat2 (atTc W) c).arrAt · cfg2.N)
        ∗ Pipeline.unscopedRest (Ix := Unit) (Name := ℕ) (U := UR sig nD τ) (Lvl := ℕ) spec2 c (atTc W c))
      ⊢ (StableHlo.held (c : Thread nD τ) (Pipeline.ucRefs τ sig)
          (Function.update (W c) (Proc.devRef .tc main_v95) ((dat2 (atTc W) c).arrAt 2 cfg2.N)) : sProp 𝕄) := by
  rw [arrays_eq2, (dat2 (atTc W) c).arrAt_in 0 rfl, (dat2 (atTc W) c).arrAt_in 1 rfl]
  exact held_of_parts2 W c _

end Cert.Kernel.Hand

end
-- ==== Proof.KReg2SegR.lean ====
/-
  Region 2 as the last of @main's segments, its result window forgotten: at exit its arrays, the result at contents unnamed, are put back among the core's unscoped buffers.
-/
import proofs.«155734_j54030688584379_1_alg».proof.Proof.KReg2Seg

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (W : Dev nD → Valuation τ sig (Elt F))

/-- What an input window's array may hold after the write-backs, the result window forgotten: what it held at entry. -/
theorem arrAt_forget_in2 (c : Dev nD) (w : Fin cfg2.W) (hw : fgt2 w = false) (hin : (cfg2.win w).isOut = false) (n : Nat)
    (G : Buf (Elt F) ((cfg2.win w).arr.view.loc (c : Thread nD τ))) (h : ((dat2 V c).toRForget fgt2).ArrAt w n G) : G = (dat2 V c).A w :=
  (((dat2 V c).toRForget_arrAt_iff hw n G).mp h).trans ((dat2 V c).arrAt_in w hin n)

/-- An input window's array at some contents it may hold after the write-backs is the array at its entry contents. -/
theorem arrAt_in_pt2 (c : Dev nD) (w : Fin cfg2.W) (hw : fgt2 w = false) (hin : (cfg2.win w).isOut = false) (n : Nat) :
    (iprop(∃ G, ⌜((dat2 V c).toRForget fgt2).ArrAt w n G⌝
        ∗ (cfg2.win w).arr.view.loc (c : Thread nD τ) ↦[(cfg2.win w).arr.view.set]{((dat2 V c).toRForget fgt2).share w} G) : sProp 𝕄)
      ⊢ ((cfg2.win w).arr.view.loc (c : Thread nD τ) ↦{(dat2 V c).share w} (dat2 V c).A w) := by
  rw [Dat.toRForget_share, (arr_whole2 w).set_eq_univ]
  iintro ⟨%G, %h, H⟩
  obtain rfl := arrAt_forget_in2 V c w hw hin n G h
  iexact H

/-- The forgotten result window's array at some contents it may hold after the write-backs: the array at some contents. -/
theorem arrAt_out_pt2 (c : Dev nD) (n : Nat) :
    (iprop(∃ G, ⌜((dat2 V c).toRForget fgt2).ArrAt 2 n G⌝
        ∗ (cfg2.win 2).arr.view.loc (c : Thread nD τ) ↦[(cfg2.win 2).arr.view.set]{((dat2 V c).toRForget fgt2).share 2} G) : sProp 𝕄)
      ⊢ iprop(∃ Y, ((c : Thread nD τ).loc main_v95) ↦{(dat2 V c).share 2} Y) := by
  rw [Dat.toRForget_share, (arr_whole2 2).set_eq_univ]
  iintro ⟨%G, -, H⟩
  iexists G
  iexact H

/-- The shares the proof data names. -/
theorem share2_0 (c : Dev nD) : (dat2 V c).share 0 = fullShare.left := rfl
theorem share2_1 (c : Dev nD) : (dat2 V c).share 1 = fullShare.right := rfl
theorem share2_2 (c : Dev nD) : (dat2 V c).share 2 = fullShare := rfl

/-- EXIT for the proof data read relationally with the result window forgotten: the arrays at some contents they
    may hold after the write-backs (the inputs as entered, the result at contents unnamed) and the unscoped rest are
    every unscoped buffer at `W` with the result array at SOME contents. -/
theorem held_of_arraysAt2 (c : Dev nD) :
    iprop(((dat2 (atTc W) c).toRForget fgt2).arraysAt cfg2.N
        ∗ Pipeline.unscopedRest (Ix := Unit) (Name := ℕ) (U := UR sig nD τ) (Lvl := ℕ) spec2 c (atTc W c))
      ⊢ (iprop(∃ Y, StableHlo.held (c : Thread nD τ) (Pipeline.ucRefs τ sig) (Function.update (W c) (Proc.devRef .tc main_v95) Y)) : sProp 𝕄) := by
  unfold Pipeline.RDat.arraysAt
  rw [bigSep_W2]
  iintro ⟨⟨H0, H1, H2⟩, Hrest⟩
  ihave H0' := (arrAt_in_pt2 (atTc W) c 0 rfl rfl cfg2.N) $$ H0
  ihave H1' := (arrAt_in_pt2 (atTc W) c 1 rfl rfl cfg2.N) $$ H1
  ihave H2' := (arrAt_out_pt2 (atTc W) c cfg2.N) $$ H2
  icases H2' with ⟨%Y, H2'⟩
  rw [share2_0, share2_1, share2_2]
  iexists Y
  iapply (held_of_parts2 W c Y)
  isplitr [Hrest]
  · isplitl [H0']; · iexact H0'
    isplitl [H1']; · iexact H1'
    iexact H2'
  iexact Hrest

end Cert.Kernel.Hand

end
-- ==== Proof.KRun.lean ====
/- The word-level program's @main as a list of segments over relational proof data — of what region 2 leaves in its
   result array nothing is said, since no later item reads it — and the frame: every weakly fair execution ends,
   without a fault, with the eight argument arrays as launched. -/
import proofs.«155734_j54030688584379_1_alg».proof.Proof.Gen.Kernel.Launch
import proofs.«155734_j54030688584379_1_alg».proof.Proof.Gen.Kernel.Skeleton
import proofs.«155734_j54030688584379_1_alg».proof.Proof.Gen.Kernel.Points
import proofs.«155734_j54030688584379_1_alg».proof.Proof.Gen.Kernel.Regions
import proofs.«155734_j54030688584379_1_alg».proof.Proof.KRunRegs
import proofs.«155734_j54030688584379_1_alg».proof.Proof.KRunKeep
import proofs.«155734_j54030688584379_1_alg».proof.Proof.KReg2SegR
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The relational proof data: regions 0 and 1 exact, region 2's result window forgotten -/

/-- Every pipeline's proof data as a relation between what the body finds and what it leaves: regions 0 and 1 name
    what they leave; of region 2's result window nothing is said. -/
def rdats : (p : Fin 3) → (c : Dev nD) → Pipeline.RDat τ (Elt F) Unit ℕ (UR sig nD τ) ℕ (Pipeline.pin (pcfgs (F := F)) admT p) c
  | ⟨0, _⟩ => fun c => (dat0 (E0 m ρ) c).toR
  | ⟨1, _⟩ => fun c => (dat1 (E1 m ρ) c).toR
  | ⟨2, _⟩ => fun c => (dat2 (E2 m ρ) c).toRForget fgt2

/-- The last thread state without the owed transfers: every unscoped buffer at region 2's entry contents except the
    result array, which holds contents nothing names; the generator register at some state. -/
abbrev TₙR (c : Dev nD) : sProp 𝕄 :=
  iprop((∃ Y, StableHlo.held (c : Thread nD τ) (Pipeline.ucRefs τ sig) (Function.update (W7 m ρ c) (Proc.devRef .tc main_v95) Y)) ∗ ∃ r, prngReg c r)

set_option backward.isDefEq.respectTransparency.types false in
/-- Region 0 over the relational proof data: the exact record read relationally — the same layout, thread states
    and entailments; the body obligation read as a relation, the exit fed the arrays at the contents the exact data
    names. -/
def reg0R : Pipeline.RDat.RegionSeg (pcfgs (F := F)) admT (rdats m ρ) () defs₀ 𝒱₀ L lv 0 where
  win := (reg0 m ρ).win
  block_pos := (reg0 m ρ).block_pos
  stage_whole := (reg0 m ρ).stage_whole
  K := PEmpty
  osem k := k.elim
  ho := Pipeline.OwnSemFacts.none _
  hbody c := ((reg0 m ρ).hbody c).toR
  hwaits := Pipeline.RDat.hwaits_of_owed_zero _ _ _ _ L lv 0 fun _ _ => rfl
  pre := (reg0 m ρ).pre
  post := (reg0 m ρ).post
  X := (reg0 m ρ).X
  Y := (reg0 m ρ).Y
  Z := (reg0 m ρ).Z
  hentry := (reg0 m ρ).hentry
  hin := (reg0 m ρ).hin
  hout := (reg0 m ρ).hout
  hexit c := (sep_mono (Entails.of_eq ((pdats m ρ 0 c).toR_arraysAt_eq (Pipeline.pin (pcfgs (F := F)) admT 0).N)) .rfl).trans ((reg0 m ρ).hexit c)

set_option backward.isDefEq.respectTransparency.types false in
/-- Region 1 over the relational proof data: the exact record read relationally — the same layout, thread states
    and entailments; the body obligation read as a relation, the exit fed the arrays at the contents the exact data
    names. -/
def reg1R : Pipeline.RDat.RegionSeg (pcfgs (F := F)) admT (rdats m ρ) () defs₀ 𝒱₀ L lv 1 where
  win := (reg1 m ρ).win
  block_pos := (reg1 m ρ).block_pos
  stage_whole := (reg1 m ρ).stage_whole
  K := PEmpty
  osem k := k.elim
  ho := Pipeline.OwnSemFacts.none _
  hbody c := ((reg1 m ρ).hbody c).toR
  hwaits := Pipeline.RDat.hwaits_of_owed_zero _ _ _ _ L lv 1 fun _ _ => rfl
  pre := (reg1 m ρ).pre
  post := (reg1 m ρ).post
  X := (reg1 m ρ).X
  Y := (reg1 m ρ).Y
  Z := (reg1 m ρ).Z
  hentry := (reg1 m ρ).hentry
  hin := (reg1 m ρ).hin
  hout := (reg1 m ρ).hout
  hexit c := (sep_mono (Entails.of_eq ((pdats m ρ 1 c).toR_arraysAt_eq (Pipeline.pin (pcfgs (F := F)) admT 1).N)) .rfl).trans ((reg1 m ρ).hexit c)

set_option backward.isDefEq.respectTransparency.types false in
/-- Region 2 over the relational proof data, its result window forgotten: entered from every unscoped buffer at the
    boundary before it, left with the result array at contents nothing names. -/
def reg2R : Pipeline.RDat.RegionSeg (pcfgs (F := F)) admT (rdats m ρ) () defs₀ 𝒱₀ L lv 2 where
  win := winFacts₀2
  block_pos := block_pos2
  stage_whole := stage_whole2
  K := PEmpty
  osem k := k.elim
  ho := Pipeline.OwnSemFacts.none _
  hbody c := (body_obligation2_fgt (E2 m ρ) c).toRForget
  hwaits := Pipeline.RDat.hwaits_of_owed_zero _ _ _ _ L lv 2 fun _ _ => rfl
  pre c := iprop(StableHlo.held (c : Thread nD τ) (Pipeline.ucRefs τ sig) (W7 m ρ c) ∗ R c)
  post c := iprop(TₙR m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit : (StableHlo.held (c : Thread nD τ) (Pipeline.ucRefs τ sig) (W7 m ρ c) : sProp 𝕄)
        ⊢ iprop((rdats m ρ 2 c).arrays (rdats m ρ 2 c).A
            ∗ Pipeline.unscopedRest (Ix := Unit) (Name := ℕ) (U := UR sig nD τ) (Lvl := ℕ) spec2 c (E2 m ρ c)) :=
      arrays_of_held2 (W7 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((rdats m ρ 2 c).arraysAt cfg2.N
          ∗ Pipeline.unscopedRest (Ix := Unit) (Name := ℕ) (U := UR sig nD τ) (Lvl := ℕ) spec2 c (E2 m ρ c))
        ⊢ (iprop(∃ Y, StableHlo.held (c : Thread nD τ) (Pipeline.ucRefs τ sig) (Function.update (W7 m ρ c) (Proc.devRef .tc main_v95) Y)) : sProp 𝕄) :=
      held_of_arraysAt2 (W7 m ρ) c
    iintro ⟨Ha, HO, HY, Hrest⟩
    imodintro
    isplitl [Ha Hrest HY]
    · isplitl [Ha Hrest]
      · iapply hjoin
        isplitl [Ha]; · iexact Ha
        iexact Hrest
      iexact HY
    unfold Pipeline.RDat.owesAt Pipeline.owesWithin
    icases HO with ⟨%W, -, HO⟩; iexists W; iexact HO

/-! ## @main as segments, and the launch -/

abbrev segsR : List (Pipeline.RDat.Seg (pcfgs (F := F)) admT (rdats m ρ) () defs₀ 𝒱₀ L lv) :=
  [ .host (hseg hostOps0 hostOps0_sub hostOps0_fresh (W0 m ρ)),
    .region (reg0R m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1R m ρ),
    .host (hseg hostOps2 hostOps2_sub hostOps2_fresh (W6 m ρ)),
    .region (reg2R m ρ) ]
/-- @main is the run of those segments. -/
theorem main_runR (c : Dev nD) : main (F := F) c = Pipeline.RDat.Seg.run (segsR m ρ) := (main_chain c).trans (by chain_rfl)

set_option backward.isDefEq.respectTransparency.types false in
/-- THE FRAME: at the compiled mesh, from any memory with zero counters, every weakly fair execution of @main on the
    TensorCores terminates, nothing faulting, and every final state has the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.RDat.θ_run_regions_kit (pcfgs (F := F)) admT (rdats m ρ) () cellOf_inj emb₁ defs₀ 𝒱₀ L lv m ρ main (segsR m ρ)
    (fun c Q => by rw [main_runR m ρ c])
    (by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := TₙR m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∃ Y, ∀ b ∈ Pipeline.ucRefs τ sig, s.mem (((c : Thread nD τ)).1, b) = Function.update (W7 m ρ c) (Proc.devRef .tc main_v95) Y b)
    (hfin := fun c s' => by
      iintro ⟨⟨⟨%Y, Hh⟩, -⟩, HSI⟩
      unfold StableHlo.held
      ihave Hr := (pointsTo_read_all (Pipeline.ucRefs τ sig) (fun b => (((c : Thread nD τ)).1, b)) (Function.update (W7 m ρ c) (Proc.devRef .tc main_v95) Y) s') $$ [Hh HSI]
      · isplitl [Hh] <;> iassumption
      icases Hr with ⟨%h, HSI⟩
      imodintro
      isplitr
      · ipureintro; exact ⟨Y, h⟩
      · iexact HSI)
    (hQ := fun s h c => by
      obtain ⟨Y, hY⟩ := h c
      have key : ∀ (b : Ref sig .tc) (hu : ¬ (Proc.devRef .tc b : DevRef τ sig).isScoped) (hne : b ≠ main_v95),
          s.mem ((c.tc : Thread nD τ).loc b) = W7 m ρ c (Proc.devRef .tc b) := fun b hu hne =>
        (hY _ (mem_uc b hu)).trans (Function.update_of_ne (StableHlo.devRef_ne_of_ne hne) _ _)
      exact ⟨(key main_arg0 (by decide) (by decide)).trans (W7_main_arg0 m ρ c), (key main_arg1 (by decide) (by decide)).trans (W7_main_arg1 m ρ c),
        (key main_arg2 (by decide) (by decide)).trans (W7_main_arg2 m ρ c), (key main_arg3 (by decide) (by decide)).trans (W7_main_arg3 m ρ c),
        (key main_arg4 (by decide) (by decide)).trans (W7_main_arg4 m ρ c), (key main_arg5 (by decide) (by decide)).trans (W7_main_arg5 m ρ c),
        (key main_arg6 (by decide) (by decide)).trans (W7_main_arg6 m ρ c), (key main_arg7 (by decide) (by decide)).trans (W7_main_arg7 m ρ c)⟩)

end Cert.Kernel.Hand

end
-- ==== Proof.Reg0.lean ====
/- The frame half of region 0 of @main (the pallas_call `cc0_kernel`), stated at a parameter `V`: the
   TensorCore's buffer contents when the region is entered. Each window's block at a grid point, what the body
   leaves in the output window's buffer as a function of the two input blocks, the body's triple, the
   pipeline's proof data over `V`, and the body obligation at every point. -/
import proofs.«155734_j54030688584379_1_alg».proof.Proof.Gen.KernelIdeal.Launch
import proofs.«155734_j54030688584379_1_alg».proof.Proof.Gen.KernelIdeal.Skeleton
import proofs.«155734_j54030688584379_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the window's view of its array, read off the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a band of 1000 rows, a new band at every point): its current staging buffer holds the band at
    every point, for any proof data whose array is `V`'s and whose body leaves the band in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole right factor, the same block at every point, so fetched once): its staging buffer
    holds the block at every point all the same — where it is not fetched the block index has not moved and the
    body left the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1000x512 := Rect.unit (s := S1000x512) ![0, 0] S1000x512.size inb_S1000x512_S1000x512_0_0
abbrev r0_1 : Rect S512x256 := Rect.unit (s := S512x256) ![0, 0] S512x256.size inb_S512x256_S512x256_0_0
abbrev r0_2 : Rect S1000x256 := Rect.unit (s := S1000x256) ![0, 0] S1000x256.size inb_S1000x256_S1000x256_0_0

/-! ## What the body leaves in the output window's buffer -/

/-- The output window's staging buffer after the body, from the two input blocks: its one store (of the whole
    buffer) of the product payload of the two whole loads. -/
def out0_2 (x0 : Vec F S1000x512 .f32) (x1 : Vec F S512x256 .f32) : Vec F S1000x256 .f32 :=
  View.canon [⟨r0_2, k0_pay1 (View.ld x0 r0_0) (View.ld x1 r0_1)⟩]

/-- The one store is of the whole buffer, so it covers it. -/
theorem cover0_2 (p0 : Vec F S1000x256 .f32) (y : S1000x256.Idx) :
    ∃ pc ∈ ([⟨r0_2, p0⟩] : List (View.Piece (Elt F) S1000x256 .f32)), y ∈ pc.1.set :=
  View.cover_of_tiled [⟨r0_2, p0⟩] S1000x256.size (by rfl) y

/-! ## The body's triple -/

set_option maxHeartbeats 1000000 in
/-- The kernel body on whole staging memrefs — the inputs' at read contents `x0`, `x1`, the output's at anything —
    runs to the continuation holding the inputs' as they were and the output's at `out0_2 x0 x1`. -/
theorem sound_kernel0 (c : Dev nD) (E : Set ℕ) (i : grid0.Coords) (arg1 : Memref sig .tc .vmem S1000x512 .f32) (harg1 : arg1.IsWhole) (arg2 : Memref sig .tc .vmem S512x256 .f32) (harg2 : arg2.IsWhole) (arg3 : Memref sig .tc .vmem S1000x256 .f32) (harg3 : arg3.IsWhole)
    (x0 : Vec F S1000x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region's pipeline on core `c`: the arrays as the region finds them (`V`); after the body
    at point `t` each input's buffer at its block and the output's at `out0_2` of the two input blocks; the
    invariant keeps the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's owed transfers pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Reg1.lean ====
/- The frame half of region 1 of @main (the pallas_call `cc1_kernel`), stated at a parameter `V`: the
   TensorCore's buffer contents when the region is entered. Each window's block at a grid point, what the body
   leaves in the output window's buffer as a function of the two input blocks, the body's triple, the
   pipeline's proof data over `V`, and the body obligation at every point. -/
import proofs.«155734_j54030688584379_1_alg».proof.Proof.Gen.KernelIdeal.Launch
import proofs.«155734_j54030688584379_1_alg».proof.Proof.Gen.KernelIdeal.Skeleton
import proofs.«155734_j54030688584379_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the window's view of its array, read off the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (a band of 1000 rows, a new band at every point): its current staging buffer holds the band at
    every point, for any proof data whose array is `V`'s and whose body leaves the band in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole right factor, the same block at every point, so fetched once): its staging buffer
    holds the block at every point all the same — where it is not fetched the block index has not moved and the
    body left the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1000x256 := Rect.unit (s := S1000x256) ![0, 0] S1000x256.size inb_S1000x256_S1000x256_0_0
abbrev r1_1 : Rect S256x128 := Rect.unit (s := S256x128) ![0, 0] S256x128.size inb_S256x128_S256x128_0_0
abbrev r1_2 : Rect S1000x128 := Rect.unit (s := S1000x128) ![0, 0] S1000x128.size inb_S1000x128_S1000x128_0_0

/-! ## What the body leaves in the output window's buffer -/

/-- The output window's staging buffer after the body, from the two input blocks: its one store (of the whole
    buffer) of the product payload of the two whole loads. -/
def out1_2 (x0 : Vec F S1000x256 .f32) (x1 : Vec F S256x128 .f32) : Vec F S1000x128 .f32 :=
  View.canon [⟨r1_2, k1_pay1 (View.ld x0 r1_0) (View.ld x1 r1_1)⟩]

/-- The one store is of the whole buffer, so it covers it. -/
theorem cover1_2 (p0 : Vec F S1000x128 .f32) (y : S1000x128.Idx) :
    ∃ pc ∈ ([⟨r1_2, p0⟩] : List (View.Piece (Elt F) S1000x128 .f32)), y ∈ pc.1.set :=
  View.cover_of_tiled [⟨r1_2, p0⟩] S1000x128.size (by rfl) y

/-! ## The body's triple -/

set_option maxHeartbeats 1000000 in
/-- The kernel body on whole staging memrefs — the inputs' at read contents `x0`, `x1`, the output's at anything —
    runs to the continuation holding the inputs' as they were and the output's at `out1_2 x0 x1`. -/
theorem sound_kernel1 (c : Dev nD) (E : Set ℕ) (i : grid1.Coords) (arg1 : Memref sig .tc .vmem S1000x256 .f32) (harg1 : arg1.IsWhole) (arg2 : Memref sig .tc .vmem S256x128 .f32) (harg2 : arg2.IsWhole) (arg3 : Memref sig .tc .vmem S1000x128 .f32) (harg3 : arg3.IsWhole)
    (x0 : Vec F S1000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region's pipeline on core `c`: the arrays as the region finds them (`V`); after the body
    at point `t` each input's buffer at its block and the output's at `out1_2` of the two input blocks; the
    invariant keeps the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's owed transfers pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Reg2.lean ====
/-
  Region 2 of @main, the third pipelined kernel (grid [10,10]): each point reads a block of 1000 rows and a block of
  1024 rows of ONE array of 10000 rows of 64 entries, and writes the entrywise logistic of the product of the first
  with the transpose of the second into the matching 1000 × 1024 block of a 10000 × 10000 array.  The last block of
  1024 rows overhangs the array (10 · 1024 > 10000), and so does the last block of 1024 columns of the result: of
  such a block only the part inside the array is moved, and the staging buffer's remaining rows hold words that
  nothing names.  Stated here, at the buffer contents `V` the region is entered from: the blocks, what the body
  leaves, the body's triple, the proof data (the one input array shared half and half between its two windows), and
  the body obligation in two forms — with the result window forgotten (any float model), and exact, under the
  hypothesis that an entry of the block product reads only its own row of the right factor.
-/
import proofs.«155734_j54030688584379_1_alg».proof.Proof.Gen.KernelIdeal.Launch
import proofs.«155734_j54030688584379_1_alg».proof.Proof.Gen.KernelIdeal.Skeleton
import proofs.«155734_j54030688584379_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region2
-- the TensorCore's buffer contents when region 2 is entered
variable (V : (c : Dev nD) → (b : Ref sig .tc) → Buf (Elt F) ((c : Thread nD τ).loc b))

/-! ## The windows' blocks -/

/-- Window `w`'s block at point `t`, its part inside the array, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of 1024 rows filled out to the whole staging buffer: the rows inside the array, and the zero word
    on the rows past its end (which nothing reads back). -/
def jblk2 (c : Dev nD) (t : Fin cfg2.N) : S1024x64.Idx → Elt F .f32 :=
  (cfg2.win 1).fill (cfg2.grid.coords t) (fun _ => Scalar.ofBits .f32 0#32) (iblk2 V c 1 t)

/-! ## The body's accesses -/

abbrev r2_0 : Rect S1000x64 := Rect.unit (s := S1000x64) ![0, 0] S1000x64.size inb_S1000x64_S1000x64_0_0
abbrev r2_1 : Rect S1024x64 := Rect.unit (s := S1024x64) ![0, 0] S1024x64.size inb_S1024x64_S1024x64_0_0
abbrev r2_2 : Rect S1000x1024 := Rect.unit (s := S1000x1024) ![0, 0] S1000x1024.size inb_S1000x1024_S1000x1024_0_0

/-! ## What the body leaves in the result window's buffer -/

/-- The result window's staging buffer after the body, from the two input buffers: its one whole-block store. -/
def out2_2 (x0 : Vec F S1000x64 .f32) (x1 : Vec F S1024x64 .f32) : Vec F S1000x1024 .f32 :=
  View.canon [⟨r2_2, k2_pay1 (View.ld x0 r2_0) (View.ld x1 r2_1)⟩]

/-- The store covers the buffer. -/
theorem cover2_2 (p0 : Vec F S1000x1024 .f32) (y : S1000x1024.Idx) :
    ∃ pc ∈ ([⟨r2_2, p0⟩] : List (View.Piece (Elt F) S1000x1024 .f32)), y ∈ pc.1.set :=
  View.cover_of_tiled [⟨r2_2, p0⟩] S1000x1024.size (by rfl) y

/-! ## The body's triple -/

set_option maxHeartbeats 1000000 in
/-- The body on whole staging memrefs, the two inputs' at contents `x0`, `x1` and the result's at anything, runs to
    the continuation holding the inputs' as they were and the result's at `out2_2 x0 x1`. -/
theorem sound_kernel2 (c : Dev nD) (E : Set ℕ) (i : grid2.Coords) (arg0 : Memref sig .tc .vmem S1000x64 .f32) (harg0 : arg0.IsWhole)
    (arg1 : Memref sig .tc .vmem S1024x64 .f32) (harg1 : arg1.IsWhole) (arg2 : Memref sig .tc .vmem S1000x1024 .f32) (harg2 : arg2.IsWhole)
    (x0 : Vec F S1000x64 .f32) (x1 : Vec F S1024x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2_kernel i arg0 harg0 arg1 harg1 arg2 harg2) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of region 2 on core `c`: the arrays as the region finds them; after the body at point `t` the
    block of 1000 rows in the first window's buffer, the block of 1024 rows (filled out) in the second's, and what
    the body computes from those two in the result's; the class invariant; nothing owed; the input array, which two
    windows read, held half and half. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => jblk2 V c t
    | ⟨2, _⟩ => out2_2 (iblk2 V c 0 t) (jblk2 V c t)
  Φ _ := Pipeline.ΦA spec2 c
  q w := match w with
    | ⟨0, _⟩ => fullShare.left
    | ⟨1, _⟩ => fullShare.right
    | ⟨2, _⟩ => fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = jblk2 V c t := by dsimp only [dat2]
theorem after2_2 (c : Dev nD) (t : Fin cfg2.N) : (dat2 V c).after 2 t = out2_2 (iblk2 V c 0 t) (jblk2 V c t) := by dsimp only [dat2]

end Region2

end Cert.KernelIdeal.Hand

end
-- ==== Proof.RunDefs.lean ====
/- The contents of the TensorCore's buffers at each boundary between the items of @main — host stretches and the
   three kernel regions — as a fold from the launch memory: a host stretch applies its operations, a region
   replaces its output array by what its write-backs leave and keeps every other buffer. -/
import proofs.«155734_j54030688584379_1_alg».proof.Proof.Gen.KernelIdeal.Launch
import proofs.«155734_j54030688584379_1_alg».proof.Proof.Gen.KernelIdeal.Skeleton
import proofs.«155734_j54030688584379_1_alg».proof.Proof.Gen.KernelIdeal.Points
import proofs.«155734_j54030688584379_1_alg».proof.Proof.Gen.KernelIdeal.Regions
import proofs.«155734_j54030688584379_1_alg».proof.Proof.Reg0
import proofs.«155734_j54030688584379_1_alg».proof.Proof.Reg1
import proofs.«155734_j54030688584379_1_alg».proof.Proof.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the two index rows cut out of the edge list): region 0's entry. -/
abbrev W1 : Dev nD → Valuation τ sig (Elt F) := fun c => StableHlo.after hostOps0 (W0 m ρ c)
/-- The same read at the TensorCore's references. -/
abbrev E0 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (E0 m ρ) c).arrAt w cfg0.N
theorem W2_arr (c : Dev nD) (w : Fin cfg0.W) :
    W2 m ρ c (Proc.devRef .tc (Pipeline.arrRef spec0 w)) = (dat0 (E0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev X0 : (c : Dev nD) → (b : Ref sig .tc) → Buf (Elt F) ((c : Thread nD τ).loc b) := fun c b => W2 m ρ c b
theorem hF0 (c : Dev nD) (w : Fin cfg0.W) : (dat0 (E0 m ρ) c).arrAt w cfg0.N = X0 m ρ c (Pipeline.arrRef spec0 w) :=
  (W2_arr m ρ c w).symm
theorem hrest0 (c : Dev nD) : ∀ b, b ∉ Finset.univ.image (Pipeline.arrRef spec0) → X0 m ρ c b = E0 m ρ c b :=
  fun b hb => W2_of_ne m ρ c b fun w e => hb (Finset.mem_image.mpr ⟨w, Finset.mem_univ _, e⟩)

/-- After the three host stretches between regions 0 and 1 (the aggregation and bias, the rectifier, the
    concatenated weights): region 1's entry. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev E1 : (c : Dev nD) → (b : Ref sig .tc) → Buf (Elt F) ((c : Thread nD τ).loc b) := fun c b => W5 m ρ c b
/-- At region 1's exit. -/
def W6 (c : Dev nD) : Valuation τ sig (Elt F) :=
  Pipeline.withArrays spec1 c (W5 m ρ c) fun w => (dat1 (E1 m ρ) c).arrAt w cfg1.N
theorem W6_arr (c : Dev nD) (w : Fin cfg1.W) :
    W6 m ρ c (Proc.devRef .tc (Pipeline.arrRef spec1 w)) = (dat1 (E1 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev X1 : (c : Dev nD) → (b : Ref sig .tc) → Buf (Elt F) ((c : Thread nD τ).loc b) := fun c b => W6 m ρ c b
theorem hF1 (c : Dev nD) (w : Fin cfg1.W) : (dat1 (E1 m ρ) c).arrAt w cfg1.N = X1 m ρ c (Pipeline.arrRef spec1 w) :=
  (W6_arr m ρ c w).symm
theorem hrest1 (c : Dev nD) : ∀ b, b ∉ Finset.univ.image (Pipeline.arrRef spec1) → X1 m ρ c b = E1 m ρ c b :=
  fun b hb => W6_of_ne m ρ c b fun w e => hb (Finset.mem_image.mpr ⟨w, Finset.mem_univ _, e⟩)

/-- After the host stretch between regions 1 and 2 (the second aggregation, the two column halves and their
    biases): region 2's entry. -/
abbrev W7 : Dev nD → Valuation τ sig (Elt F) := fun c => StableHlo.after hostOps2 (W6 m ρ c)
abbrev E2 : (c : Dev nD) → (b : Ref sig .tc) → Buf (Elt F) ((c : Thread nD τ).loc b) := fun c b => W7 m ρ c b

/-- At region 2's exit: its output array at what the write-backs leave, every other buffer as entered. -/
def W8 (c : Dev nD) : Valuation τ sig (Elt F) :=
  Function.update (W7 m ρ c) (Proc.devRef .tc main_v95) ((dat2 (E2 m ρ) c).arrAt 2 cfg2.N)

/-! ## The proof data family and the thread state -/

/-- The prefetched tables' admissible contents: no pipeline has a table. -/
abbrev admT : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admT p) c
  | ⟨0, _⟩ => fun c => dat0 (E0 m ρ) c
  | ⟨1, _⟩ => fun c => dat1 (E1 m ρ) c
  | ⟨2, _⟩ => fun c => dat2 (E2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    owed transfers, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed transfers: every unscoped buffer at the last boundary's contents, the
    generator register at some state. -/
abbrev Tₙ (c : Dev nD) : sProp 𝕄 := iprop(StableHlo.held (c : Thread nD τ) (Pipeline.ucRefs τ sig) (W8 m ρ c) ∗ ∃ r, prngReg c r)

end Cert.KernelIdeal.Hand

end
-- ==== Proof.RunRegs.lean ====
/- Regions 0 and 1 of @main as segments over the thread state "every unscoped buffer at the boundary's contents,
   the generator register at some state, nothing owed". -/
import proofs.«155734_j54030688584379_1_alg».proof.Proof.Gen.KernelIdeal.Launch
import proofs.«155734_j54030688584379_1_alg».proof.Proof.Gen.KernelIdeal.Skeleton
import proofs.«155734_j54030688584379_1_alg».proof.Proof.Gen.KernelIdeal.Points
import proofs.«155734_j54030688584379_1_alg».proof.Proof.Gen.KernelIdeal.Regions
import proofs.«155734_j54030688584379_1_alg».proof.Proof.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 0 over the thread state: entered from every unscoped buffer at the boundary before it, left at the one
    after it. Its arrays are split out of the unscoped buffers and put back at the exit contents; the generator
    register goes into the kernel's invariant and comes back; nothing is owed; the kernel has no semaphore of its own. -/
def reg0 : Pipeline.RegionSeg (pcfgs (F := F)) admT (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) admT (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one
    after it. Its arrays are split out of the unscoped buffers and put back at the exit contents; the generator
    register goes into the kernel's invariant and comes back; nothing is owed; the kernel has no semaphore of its own. -/
def reg1 : Pipeline.RegionSeg (pcfgs (F := F)) admT (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) admT (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg2Body.lean ====
/-
  Region 2: what the body finds in each staging buffer, and the body obligation in its two forms.
-/
import proofs.«155734_j54030688584379_1_alg».proof.Proof.Reg2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each staging buffer -/

/-- The first window (uncut, its block index the first grid coordinate) holds its block at every point, fetched
    there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)

/-- The second window is fetched at every point: its buffer holds the block on the rows inside the array and
    anything (`d`) on the rows past its end. -/
theorem before2_1 (c : Dev nD) (t : Fin cfg2.N) (d) :
    (dat2 V c).before 1 t d = (cfg2.win 1).fill (cfg2.grid.coords t) d (iblk2 V c 1 t) := by
  rw [(dat2 V c).before_fetched 1 t (fetch2_1 t) d]; unfold Dat.fetched Dat.blockOf iblk2; rw [A_eq2]

/-- The result window is written back at every point: the body finds its buffer at anything. -/
theorem before2_2 (c : Dev nD) (t : Fin cfg2.N) (d) : (dat2 V c).before 2 t d = d :=
  (dat2 V c).before_out_reset 2 rfl t (by
    by_cases h : t.val = 0
    · exact .inl h
    · exact .inr ⟨h, flush2_2 _⟩) d

/-- The whole-block store leaves its payload: the body's result is the payload of the two buffers. -/
theorem out2_2_eq (x0 : Vec F S1000x64 .f32) (x1 : Vec F S1024x64 .f32) : out2_2 x0 x1 = k2_pay1 x0 x1 := by
  have hz : (![0, 0] : Fin 2 → Nat) = fun _ => 0 := funext fun a => by fin_cases a <;> rfl
  unfold out2_2
  rw [View.canon_unit_zero hz, View.ld_unit_zero hz, View.ld_unit_zero hz]

/-- The rows inside the array of the filled-out block of 1024 rows are the block. -/
theorem cut_jblk2 (c : Dev nD) (t : Fin cfg2.N) : (cfg2.win 1).cut (cfg2.grid.coords t) (jblk2 V c t) = iblk2 V c 1 t :=
  (cfg2.win 1).cut_fill _ _ _

/-! ## The body obligation with the result window forgotten (any float model) -/

/-- The result window, and only it, is forgotten. -/
abbrev fgt2 : Fin cfg2.W → Bool := fun | ⟨0, _⟩ => false | ⟨1, _⟩ => false | ⟨2, _⟩ => true

/-- What the body is called with at point `t`, the result window's buffer at anything, -/
def bodyPre2f (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ X, owns (c : Thread nD τ) (st2_2 t) fullShare X))

/-- and what it returns: the first input's buffer at its block, the second's at its block on the rows inside the
    array, the result's at anything. -/
def bodyPost2f (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare ((cfg2.win 1).fill (cfg2.grid.coords t) d ((cfg2.win 1).cut (cfg2.grid.coords t) ((dat2 V c).after 1 t))))
    ∗ (∃ X, owns (c : Thread nD τ) (st2_2 t) fullShare X))

theorem sound_body2f (c : Dev nD) (t : Fin cfg2.N) :
    bodyPre2f V c t ⊢ wp frame (wpE (defs₀ (F := F)) Variants.none c none) Set.univ (bodyAt2 t) (fun _ => bodyPost2f V c t) := by
  unfold bodyPre2f bodyPost2f bodyAt2
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩⟩
  rw [before2_0 V c t d0, before2_1 V c t d1]
  iapply (sound_kernel2 (F := F) c Set.univ (grid2.coords t) _ _ _ _ _ _ (iblk2 V c 0 t)
    ((cfg2.win 1).fill (cfg2.grid.coords t) d1 (iblk2 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · rw [after2_0]; iexact H0
  isplitl [H1]
  · iexists d1
    rw [after2_1, cut_jblk2]
    iexact H1
  · iexists _; iexact H2

/-- The library's body obligation with the result window forgotten, at every point, for any float model. -/
theorem body_obligation2_fgt (c : Dev nD) : BodyObligationLoose (dat2 (F := F) V c) (defs₀ (F := F)) Variants.none () Set.univ fgt2 := fun t => by
  rw [bigSep_W2, bigSep_W2]
  exact sound_body2f V c t

/-! ## The exact body obligation, where an entry of the block product reads only its own row of the right factor -/

/-- The hypothesis: two second-window buffers that agree on the rows inside the array give results that agree on the
    columns inside the array (row `j` of the second buffer is column `j` of the result; the two windows are cut
    alike, both by the second grid coordinate). -/
def RowLocal2 (F : FTy → Type) [FloatOps F] : Prop :=
  ∀ (t : Fin cfg2.N) (x0 : Vec F S1000x64 .f32) (x1 x1' : Vec F S1024x64 .f32),
    (cfg2.win 1).cut (cfg2.grid.coords t) x1 = (cfg2.win 1).cut (cfg2.grid.coords t) x1' →
      (cfg2.win 2).cut (cfg2.grid.coords t) (k2_pay1 x0 x1) = (cfg2.win 2).cut (cfg2.grid.coords t) (k2_pay1 x0 x1')

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: each cut window's buffer stated on the part inside the array. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare ((cfg2.win 1).fill (cfg2.grid.coords t) d ((cfg2.win 1).cut (cfg2.grid.coords t) ((dat2 V c).after 1 t))))
    ∗ (∃ d, owns (c : Thread nD τ) (st2_2 t) fullShare ((cfg2.win 2).fill (cfg2.grid.coords t) d ((cfg2.win 2).cut (cfg2.grid.coords t) ((dat2 V c).after 2 t)))))

theorem sound_body2 (hloc : RowLocal2 F) (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩⟩
  rw [before2_0 V c t d0, before2_1 V c t d1]
  iapply (sound_kernel2 (F := F) c Set.univ (grid2.coords t) _ _ _ _ _ _ (iblk2 V c 0 t)
    ((cfg2.win 1).fill (cfg2.grid.coords t) d1 (iblk2 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · rw [after2_0]; iexact H0
  isplitl [H1]
  · iexists d1
    rw [after2_1, cut_jblk2]
    iexact H1
  · iexists (out2_2 (iblk2 V c 0 t) ((cfg2.win 1).fill (cfg2.grid.coords t) d1 (iblk2 V c 1 t)))
    rw [after2_2, (cfg2.win 2).fill_congr_cut (cfg2.grid.coords t) (by
      rw [out2_2_eq, out2_2_eq]
      exact hloc t _ _ _ (by rw [cut_jblk2]; exact (cfg2.win 1).cut_fill _ _ _))]
    iexact H2

/-- The library's body obligation, exact, at every point. -/
theorem body_obligation2 (hloc : RowLocal2 F) (c : Dev nD) : BodyObligationLoose (dat2 (F := F) V c) (defs₀ (F := F)) Variants.none () Set.univ := fun t => by
  rw [bigSep_W2, bigSep_W2]
  exact sound_body2 V hloc c t

end Cert.KernelIdeal.Hand

end
-- ==== Proof.Reg2Seg.lean ====
/-
  Region 2 among @main's segments: its arrays split out of the core's unscoped buffers at entry, the input array half and half between its two windows, and put back at exit.
-/
import proofs.«155734_j54030688584379_1_alg».proof.Proof.Reg2Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (W : Dev nD → Valuation τ sig (Elt F))

/-- A valuation read at the TensorCore's references. -/
abbrev atTc : (c : Dev nD) → (b : Ref sig .tc) → Buf (Elt F) ((c : Thread nD τ).loc b) := fun c b => W c b

/-! ## The region's arrays as points-to assertions: the input array held half and half -/

/-- The proof data's arrays at contents `G`: the input array's two halves, one per window, and the result array whole. -/
theorem arrays_eq2 (c : Dev nD) (G : (w : Fin cfg2.W) → Buf (Elt F) ((cfg2.win w).arr.view.loc (c : Thread nD τ))) :
    ((dat2 V c).arrays G : sProp 𝕄)
      = iprop((((c : Thread nD τ).loc main_v90) ↦{fullShare.left} G 0) ∗ (((c : Thread nD τ).loc main_v90) ↦{fullShare.right} G 1)
          ∗ (((c : Thread nD τ).loc main_v95) ↦{fullShare} G 2)) := by
  unfold Dat.arrays
  rw [bigSep_W2, (arr_whole2 0).set_eq_univ, (arr_whole2 2).set_eq_univ]
  rfl

/-- The distinct buffers behind the windows' arrays: the input array and the result array. -/
theorem arrBufs_eq2 (c : Dev nD) (U : (b : Ref sig .tc) → Buf (Elt F) ((c : Thread nD τ).loc b)) :
    (Pipeline.arrBufs (Ix := Unit) (Name := ℕ) (U := UR sig nD τ) (Lvl := ℕ) spec2 c U : sProp 𝕄)
      = iprop((((c : Thread nD τ).loc main_v90) ↦{fullShare} U main_v90) ∗ (((c : Thread nD τ).loc main_v95) ↦{fullShare} U main_v95)) := by
  unfold Pipeline.arrBufs
  rw [bigSep_eq_bigSepL_of_eq [main_v90, main_v95] (by decide) (by decide)]
  rfl

/-- The unscoped buffers at a valuation: the two array buffers and the rest. -/
theorem held_split2 (c : Dev nD) (W' : Valuation τ sig (Elt F)) :
    (StableHlo.held (c : Thread nD τ) (Pipeline.ucRefs τ sig) W' : sProp 𝕄)
      = iprop(((((c : Thread nD τ).loc main_v90) ↦{fullShare} W' (Proc.devRef .tc main_v90)) ∗ (((c : Thread nD τ).loc main_v95) ↦{fullShare} W' (Proc.devRef .tc main_v95)))
          ∗ Pipeline.unscopedRest (Ix := Unit) (Name := ℕ) (U := UR sig nD τ) (Lvl := ℕ) spec2 c (fun b => W' (Proc.devRef .tc b))) := by
  rw [← Pipeline.unscopedBufs_held (Ix := Unit) (Name := ℕ) (U := UR sig nD τ) (Lvl := ℕ) c W',
    Pipeline.unscopedBufs_split₀ cfgs (2 : Fin 3) winFacts₀2.arr_unscoped c (fun b => W' (Proc.devRef .tc b))]
  change iprop((Pipeline.arrBufs (Ix := Unit) (Name := ℕ) (U := UR sig nD τ) (Lvl := ℕ) spec2 c (fun b => W' (Proc.devRef .tc b)) : sProp 𝕄) ∗ _) = _
  rw [arrBufs_eq2]
  rfl

/-- ENTRY, the arrays' part: every unscoped buffer at `W` is the region's arrays at the proof data's entry contents —
    the input array's full share dealt half and half to its two windows — and the unscoped rest. -/
theorem arrays_of_held2 (c : Dev nD) :
    (StableHlo.held (c : Thread nD τ) (Pipeline.ucRefs τ sig) (W c) : sProp 𝕄)
      ⊢ iprop((dat2 (atTc W) c).arrays ((dat2 (atTc W) c).arrAt · 0)
          ∗ Pipeline.unscopedRest (Ix := Unit) (Name := ℕ) (U := UR sig nD τ) (Lvl := ℕ) spec2 c (atTc W c)) := by
  rw [held_split2, arrays_eq2]
  iintro ⟨⟨Hx, Hy⟩, Hrest⟩
  ihave H := (pointsTo_share (PosShare.mem_left_op_right fullShare)).1 $$ Hx
  icases H with ⟨Hl, Hr⟩
  isplitr [Hrest]
  · isplitl [Hl]; · iexact Hl
    isplitl [Hr]; · iexact Hr
    iexact Hy
  iexact Hrest

/-- EXIT, the arrays' part: the input array's two halves as entered, the result array at `Y` and the unscoped rest
    as entered are every unscoped buffer at `W` with the result array's contents replaced by `Y`. -/
theorem held_of_parts2 (c : Dev nD) (Y : Buf (Elt F) ((c : Thread nD τ).loc main_v95)) :
    iprop(((((c : Thread nD τ).loc main_v90) ↦{fullShare.left} atTc W c main_v90) ∗ (((c : Thread nD τ).loc main_v90) ↦{fullShare.right} atTc W c main_v90)
          ∗ (((c : Thread nD τ).loc main_v95) ↦{fullShare} Y))
        ∗ Pipeline.unscopedRest (Ix := Unit) (Name := ℕ) (U := UR sig nD τ) (Lvl := ℕ) spec2 c (atTc W c))
      ⊢ (StableHlo.held (c : Thread nD τ) (Pipeline.ucRefs τ sig) (Function.update (W c) (Proc.devRef .tc main_v95) Y) : sProp 𝕄) := by
  rw [held_split2, Function.update_self,
    Function.update_of_ne (StableHlo.devRef_ne_of_ne (show main_v90 ≠ main_v95 by decide)) Y (W c)]
  have hrest : (Pipeline.unscopedRest (Ix := Unit) (Name := ℕ) (U := UR sig nD τ) (Lvl := ℕ) spec2 c
        (fun b => Function.update (W c) (Proc.devRef .tc main_v95) Y (Proc.devRef .tc b)) : sProp 𝕄)
      = Pipeline.unscopedRest (Ix := Unit) (Name := ℕ) (U := UR sig nD τ) (Lvl := ℕ) spec2 c (atTc W c) := by
    unfold Pipeline.unscopedRest
    exact bigSep_congr fun b hb => by
      have hne : b ≠ main_v95 := fun e => (Finset.mem_sdiff.mp hb).2 (Finset.mem_image.mpr ⟨2, Finset.mem_univ _, e.symm⟩)
      dsimp only
      rw [Function.update_of_ne (StableHlo.devRef_ne_of_ne hne) Y (W c)]
  rw [hrest]
  iintro ⟨⟨Hl, Hr, Hy⟩, Hrest⟩
  isplitr [Hrest]
  · isplitl [Hl Hr]
    · iapply (pointsTo_share (PosShare.mem_left_op_right fullShare)).2
      isplitl [Hl]; · iexact Hl
      iexact Hr
    iexact Hy
  iexact Hrest

/-- EXIT for the exact proof data: the arrays after every write-back (the inputs as entered) and the unscoped rest
    are every unscoped buffer at `W` with the result array at what the write-backs left. -/
theorem held_of_arrays2 (c : Dev nD) :
    iprop((dat2 (atTc W) c).arrays ((dat2 (atTc W) c).arrAt · cfg2.N)
        ∗ Pipeline.unscopedRest (Ix := Unit) (Name := ℕ) (U := UR sig nD τ) (Lvl := ℕ) spec2 c (atTc W c))
      ⊢ (StableHlo.held (c : Thread nD τ) (Pipeline.ucRefs τ sig)
          (Function.update (W c) (Proc.devRef .tc main_v95) ((dat2 (atTc W) c).arrAt 2 cfg2.N)) : sProp 𝕄) := by
  rw [arrays_eq2, (dat2 (atTc W) c).arrAt_in 0 rfl, (dat2 (atTc W) c).arrAt_in 1 rfl]
  exact held_of_parts2 W c _

end Cert.KernelIdeal.Hand

end
-- ==== Proof.Run.lean ====
/- @main of the three-kernel program as a list of segments, and its run: every weakly fair execution ends, without
   a fault, with every unscoped buffer at the contents the fold through @main names. -/
import proofs.«155734_j54030688584379_1_alg».proof.Proof.Gen.KernelIdeal.Launch
import proofs.«155734_j54030688584379_1_alg».proof.Proof.Gen.KernelIdeal.Skeleton
import proofs.«155734_j54030688584379_1_alg».proof.Proof.Gen.KernelIdeal.Points
import proofs.«155734_j54030688584379_1_alg».proof.Proof.Gen.KernelIdeal.Regions
import proofs.«155734_j54030688584379_1_alg».proof.Proof.RunRegs
import proofs.«155734_j54030688584379_1_alg».proof.Proof.Reg2Seg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 2 over the thread state: entered from every unscoped buffer at the boundary before it, left with the
    result array at what the write-backs leave. The input array, read by two windows, is dealt to them half and half
    at entry and put together again at exit. -/
def reg2 (hloc : RowLocal2 F) : Pipeline.RegionSeg (pcfgs (F := F)) admT (pdats m ρ) () defs₀ 𝒱₀ L lv 2 where
  win := winFacts₀2
  block_pos := block_pos2
  stage_whole := stage_whole2
  K := PEmpty
  osem k := k.elim
  ho := Pipeline.OwnSemFacts.none _
  hbody c := body_obligation2 (E2 m ρ) hloc c
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := arrays_of_held2 (W7 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := held_of_arrays2 (W7 m ρ) c
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's eight items in order: a host segment per stretch from its boundary's contents, a region per kernel. -/
abbrev segs (hloc : RowLocal2 F) : List (Pipeline.Seg (pcfgs (F := F)) admT (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ hloc) ]
/-- @main is the run of those segments. -/
theorem main_run (hloc : RowLocal2 F) (c : Dev nD) : main (F := F) c = Pipeline.Seg.run (segs m ρ hloc) := (main_chain c).trans (by chain_rfl)

set_option backward.isDefEq.respectTransparency.types false in
/-- THE RUN: at the compiled mesh, from any memory with zero counters, every weakly fair execution of @main on the
    TensorCores terminates, nothing faulting, and in every final state each unscoped buffer holds the last boundary's
    contents. -/
theorem run_all (hloc : RowLocal2 F) : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) admT (pdats m ρ) () cellOf_inj emb₁ defs₀ 𝒱₀ L lv m ρ main (segs m ρ hloc)
    (fun c Q => by rw [main_run m ρ hloc c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Hand

end
-- ==== Proof.RunKeep.lean ====
/- Which buffers each item of @main leaves alone, and with that: every argument array reaches the end holding its
   launch contents, and each value a later item reads is the one an earlier item left. -/
import proofs.«155734_j54030688584379_1_alg».proof.Proof.Gen.KernelIdeal.Launch
import proofs.«155734_j54030688584379_1_alg».proof.Proof.Gen.KernelIdeal.Skeleton
import proofs.«155734_j54030688584379_1_alg».proof.Proof.Gen.KernelIdeal.Points
import proofs.«155734_j54030688584379_1_alg».proof.Proof.Gen.KernelIdeal.Regions
import proofs.«155734_j54030688584379_1_alg».proof.Proof.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One item at a time -/

theorem W1_keep (c : Dev nD) (b : Ref sig .tc) (h : b ∉ hostOps0_W) : W1 m ρ c (Proc.devRef .tc b) = W0 m ρ c (Proc.devRef .tc b) :=
  StableHlo.after_of_writes_sub hostOps0 _ hostOps0_writes h
theorem W2_keep (c : Dev nD) (b : Ref sig .tc) (h : ∀ w, Pipeline.arrRef spec0 w ≠ b) : W2 m ρ c (Proc.devRef .tc b) = W1 m ρ c (Proc.devRef .tc b) :=
  W2_of_ne m ρ c b h
theorem W3_keep (c : Dev nD) (b : Ref sig .tc) (h : b ∉ hostOps1_W) : W3 m ρ c (Proc.devRef .tc b) = W2 m ρ c (Proc.devRef .tc b) :=
  StableHlo.after_of_writes_sub hostOps1 _ hostOps1_writes h
theorem W4_keep (c : Dev nD) (b : Ref sig .tc) (h : b ∉ hostOps1_1_W) : W4 m ρ c (Proc.devRef .tc b) = W3 m ρ c (Proc.devRef .tc b) :=
  StableHlo.after_of_writes_sub hostOps1_1 _ hostOps1_1_writes h
theorem W5_keep (c : Dev nD) (b : Ref sig .tc) (h : b ∉ hostOps1_2_W) : W5 m ρ c (Proc.devRef .tc b) = W4 m ρ c (Proc.devRef .tc b) :=
  StableHlo.after_of_writes_sub hostOps1_2 _ hostOps1_2_writes h
theorem W6_keep (c : Dev nD) (b : Ref sig .tc) (h : ∀ w, Pipeline.arrRef spec1 w ≠ b) : W6 m ρ c (Proc.devRef .tc b) = W5 m ρ c (Proc.devRef .tc b) :=
  W6_of_ne m ρ c b h
theorem W7_keep (c : Dev nD) (b : Ref sig .tc) (h : b ∉ hostOps2_W) : W7 m ρ c (Proc.devRef .tc b) = W6 m ρ c (Proc.devRef .tc b) :=
  StableHlo.after_of_writes_sub hostOps2 _ hostOps2_writes h
theorem W8_keep (c : Dev nD) (b : Ref sig .tc) (h : b ≠ main_v95) : W8 m ρ c (Proc.devRef .tc b) = W7 m ρ c (Proc.devRef .tc b) := by
  unfold W8; exact Function.update_of_ne (StableHlo.devRef_ne_of_ne h) _ _

/-- Region 0 reads its two input arrays and leaves them as it found them. -/
theorem W2_in0 (c : Dev nD) : W2 m ρ c (Proc.devRef .tc main_arg0) = W1 m ρ c (Proc.devRef .tc main_arg0) :=
  (W2_arr m ρ c 0).trans (((dat0 (E0 m ρ) c).arrAt_in 0 rfl _).trans (A_eq0 (E0 m ρ) c 0))
theorem W2_in1 (c : Dev nD) : W2 m ρ c (Proc.devRef .tc main_arg2) = W1 m ρ c (Proc.devRef .tc main_arg2) :=
  (W2_arr m ρ c 1).trans (((dat0 (E0 m ρ) c).arrAt_in 1 rfl _).trans (A_eq0 (E0 m ρ) c 1))

/-! ## From the end back to the launch -/

/-- A buffer that no item between region 0's exit and region 2's entry writes holds at region 2's entry what it held
    at region 0's exit. -/
theorem W7_eq_W2 (c : Dev nD) (b : Ref sig .tc) (h2 : b ∉ hostOps2_W) (hr1 : ∀ w, Pipeline.arrRef spec1 w ≠ b)
    (h12 : b ∉ hostOps1_2_W) (h11 : b ∉ hostOps1_1_W) (h1 : b ∉ hostOps1_W) :
    W7 m ρ c (Proc.devRef .tc b) = W2 m ρ c (Proc.devRef .tc b) :=
  (W7_keep m ρ c b h2).trans <| (W6_keep m ρ c b hr1).trans <| (W5_keep m ρ c b h12).trans <|
    (W4_keep m ρ c b h11).trans (W3_keep m ρ c b h1)

theorem W7_main_arg0 (c : Dev nD) : W7 m ρ c (Proc.devRef .tc main_arg0) = m ((c : Thread nD τ).loc main_arg0) :=
  (W7_eq_W2 m ρ c main_arg0 (by decide) (by decide) (by decide) (by decide) (by decide)).trans <|
    (W2_in0 m ρ c).trans <| (W1_keep m ρ c main_arg0 (by decide)).trans rfl
theorem W7_main_arg2 (c : Dev nD) : W7 m ρ c (Proc.devRef .tc main_arg2) = m ((c : Thread nD τ).loc main_arg2) :=
  (W7_eq_W2 m ρ c main_arg2 (by decide) (by decide) (by decide) (by decide) (by decide)).trans <|
    (W2_in1 m ρ c).trans <| (W1_keep m ρ c main_arg2 (by decide)).trans rfl
theorem W7_main_arg1 (c : Dev nD) : W7 m ρ c (Proc.devRef .tc main_arg1) = m ((c : Thread nD τ).loc main_arg1) :=
  (W7_eq_W2 m ρ c main_arg1 (by decide) (by decide) (by decide) (by decide) (by decide)).trans <|
    (W2_keep m ρ c main_arg1 (by decide)).trans <| (W1_keep m ρ c main_arg1 (by decide)).trans rfl
theorem W7_main_arg3 (c : Dev nD) : W7 m ρ c (Proc.devRef .tc main_arg3) = m ((c : Thread nD τ).loc main_arg3) :=
  (W7_eq_W2 m ρ c main_arg3 (by decide) (by decide) (by decide) (by decide) (by decide)).trans <|
    (W2_keep m ρ c main_arg3 (by decide)).trans <| (W1_keep m ρ c main_arg3 (by decide)).trans rfl
theorem W7_main_arg4 (c : Dev nD) : W7 m ρ c (Proc.devRef .tc main_arg4) = m ((c : Thread nD τ).loc main_arg4) :=
  (W7_eq_W2 m ρ c main_arg4 (by decide) (by decide) (by decide) (by decide) (by decide)).trans <|
    (W2_keep m ρ c main_arg4 (by decide)).trans <| (W1_keep m ρ c main_arg4 (by decide)).trans rfl
theorem W7_main_arg5 (c : Dev nD) : W7 m ρ c (Proc.devRef .tc main_arg5) = m ((c : Thread nD τ).loc main_arg5) :=
  (W7_eq_W2 m ρ c main_arg5 (by decide) (by decide) (by decide) (by decide) (by decide)).trans <|
    (W2_keep m ρ c main_arg5 (by decide)).trans <| (W1_keep m ρ c main_arg5 (by decide)).trans rfl
theorem W7_main_arg6 (c : Dev nD) : W7 m ρ c (Proc.devRef .tc main_arg6) = m ((c : Thread nD τ).loc main_arg6) :=
  (W7_eq_W2 m ρ c main_arg6 (by decide) (by decide) (by decide) (by decide) (by decide)).trans <|
    (W2_keep m ρ c main_arg6 (by decide)).trans <| (W1_keep m ρ c main_arg6 (by decide)).trans rfl
theorem W7_main_arg7 (c : Dev nD) : W7 m ρ c (Proc.devRef .tc main_arg7) = m ((c : Thread nD τ).loc main_arg7) :=
  (W7_eq_W2 m ρ c main_arg7 (by decide) (by decide) (by decide) (by decide) (by decide)).trans <|
    (W2_keep m ρ c main_arg7 (by decide)).trans <| (W1_keep m ρ c main_arg7 (by decide)).trans rfl
theorem W8_main_arg0 (c : Dev nD) : W8 m ρ c (Proc.devRef .tc main_arg0) = m ((c : Thread nD τ).loc main_arg0) :=
  (W8_keep m ρ c main_arg0 (by decide)).trans (W7_main_arg0 m ρ c)
theorem W8_main_arg1 (c : Dev nD) : W8 m ρ c (Proc.devRef .tc main_arg1) = m ((c : Thread nD τ).loc main_arg1) :=
  (W8_keep m ρ c main_arg1 (by decide)).trans (W7_main_arg1 m ρ c)
theorem W8_main_arg2 (c : Dev nD) : W8 m ρ c (Proc.devRef .tc main_arg2) = m ((c : Thread nD τ).loc main_arg2) :=
  (W8_keep m ρ c main_arg2 (by decide)).trans (W7_main_arg2 m ρ c)
theorem W8_main_arg3 (c : Dev nD) : W8 m ρ c (Proc.devRef .tc main_arg3) = m ((c : Thread nD τ).loc main_arg3) :=
  (W8_keep m ρ c main_arg3 (by decide)).trans (W7_main_arg3 m ρ c)
theorem W8_main_arg4 (c : Dev nD) : W8 m ρ c (Proc.devRef .tc main_arg4) = m ((c : Thread nD τ).loc main_arg4) :=
  (W8_keep m ρ c main_arg4 (by decide)).trans (W7_main_arg4 m ρ c)
theorem W8_main_arg5 (c : Dev nD) : W8 m ρ c (Proc.devRef .tc main_arg5) = m ((c : Thread nD τ).loc main_arg5) :=
  (W8_keep m ρ c main_arg5 (by decide)).trans (W7_main_arg5 m ρ c)
theorem W8_main_arg6 (c : Dev nD) : W8 m ρ c (Proc.devRef .tc main_arg6) = m ((c : Thread nD τ).loc main_arg6) :=
  (W8_keep m ρ c main_arg6 (by decide)).trans (W7_main_arg6 m ρ c)
theorem W8_main_arg7 (c : Dev nD) : W8 m ρ c (Proc.devRef .tc main_arg7) = m ((c : Thread nD τ).loc main_arg7) :=
  (W8_keep m ρ c main_arg7 (by decide)).trans (W7_main_arg7 m ρ c)

end Cert.KernelIdeal.Hand

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«155734_j54030688584379_1_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.Reg0Value.lean ====
/- Region 0's output array after its run, as one function of the two arrays the region reads: the matrix product
   of the whole left array (10000 rows) with the right factor. Each grid point writes back a band of 1000 rows of that
   product, since a band of rows of a product is the product of the band; the ten bands tile the array. -/
import proofs.«155734_j54030688584379_1_alg».proof.Proof.Reg0
import proofs.«155734_j54030688584379_1_alg».proof.Proof.LibMatProd
import Idealize.ShloMosaic.Lib.Pipeline.Value

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx Cert.LibMatProd

variable (V : (c : Dev nD) → (b : Ref sig .tc) → Buf (Elt Ideal) ((c : Thread nD τ).loc b))

theorem hz0 : (![0, 0] : Fin 2 → Nat) = fun _ => 0 := funext fun a => by fin_cases a <;> rfl

/-- The body's payload is the matrix product of the two loaded blocks: the operands narrowed to bf16 and
    accumulated into zeros, at exact values. -/
theorem pay0_eq (x0 : Vec Ideal S1000x512 .f32) (x1 : Vec Ideal S512x256 .f32) :
    k0_pay1 x0 x1 = matProd (M := 1000) (K := 512) (N := 256) x0 x1 :=
  matmul_eq dot_S1000x512_S512x256_S1000x256_1_0_0_1_n_n rfl rfl rfl rfl rfl rfl x0 x1 bitsLt_bf16_f32

/-- The printed index maps, decided over the grid: the left window and the output window are on the same band of
    rows, at column block 0; the right window is on its one block. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val ∧ t.val < 10 :=
  (by decide +kernel : ∀ t : Fin grid0.N, _)

/-- What point `t` writes back is block `t` of the product of the two arrays as the region finds them. -/
theorem flushed0_eq (c : Dev nD) (t : Fin cfg0.N) :
    (dat0 (F := Ideal) V c).flushed 2 t
      = ((cfg0.win 2).blk t).view.read (Elt Ideal) (matProd (M := 10000) (K := 512) (N := 256) (V c main_arg0) (V c main_arg2)) := by
  show (cfg0.win 2).cut (grid0.coords t) ((dat0 (F := Ideal) V c).after 2 t) = _
  rw [after0_2]
  unfold out0_2
  rw [View.canon_unit_zero hz0]
  simp only [View.ld_unit_zero (S := S1000x512) hz0, View.ld_unit_zero (S := S512x256) hz0]
  rw [pay0_eq]
  obtain ⟨e0, e1, e2, e3, e4, e5, e6⟩ := idx_facts0 t
  funext j
  show matProd (M := 1000) (K := 512) (N := 256) (iblk0 V c 0 t) (iblk0 V c 1 t) j
    = matProd (M := 10000) (K := 512) (N := 256) (V c main_arg0) (V c main_arg2) (((cfg0.win 2).blk t).view.emb j)
  refine matProd_rows (V c main_arg0) (V c main_arg2) _ _ (win0_2.index t (0 : Fin 2) * 1000) ?_ ?_ j _ ?_ ?_
  · intro p k hp
    show V c main_arg0 (((cfg0.win 0).blk t).view.emb (ix2 p k)) = _
    congr 1
    funext a; apply Fin.ext
    match a with
    | ⟨0, _⟩ => show win0_0.index t (0 : Fin 2) * 1000 + 1 * p.val = win0_2.index t (0 : Fin 2) * 1000 + p.val; omega
    | ⟨1, _⟩ => show win0_0.index t (1 : Fin 2) * 512 + 1 * k.val = k.val; omega
  · intro z
    show V c main_arg2 (((cfg0.win 1).blk t).view.emb z) = _
    congr 1
    funext a; apply Fin.ext
    match a with
    | ⟨0, _⟩ => show win0_1.index t (0 : Fin 2) * 512 + 1 * (z 0).val = (z 0).val; omega
    | ⟨1, _⟩ => show win0_1.index t (1 : Fin 2) * 256 + 1 * (z 1).val = (z 1).val; omega
  · show win0_2.index t (0 : Fin 2) * 1000 + 1 * (j 0).val = win0_2.index t (0 : Fin 2) * 1000 + (j 0).val; omega
  · show win0_2.index t (1 : Fin 2) * 256 + 1 * (j 1).val = (j 1).val; omega

/-- An index of the array is in point `t`'s block iff each coordinate is in the block's range on its axis. -/
theorem mem_blk0 (t : Fin cfg0.N) (i : S10000x256.Idx) :
    i ∈ ((cfg0.win 2).blk t).view.set ↔ ∀ a : Fin 2, win0_2.index t a * S1000x256.size a ≤ (i a).val ∧ (i a).val < win0_2.index t a * S1000x256.size a + S1000x256.size a := by
  show i ∈ ((View.whole main_v4).slice (win0_2.rect t)).set ↔ _
  rw [View.set_slice_whole, Rect.mem_set_unit]
  exact Iff.rfl

/-- Every block of the output is some point's: band `q` is point `q`'s. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- Every index of the output array is in some point's block: row `r` is in band `r / 1000`. -/
theorem covered0 (i : S10000x256.Idx) :
    ∃ t : Fin cfg0.N, (cfg0.win 2).flush t = true ∧ i ∈ ((cfg0.win 2).blk t).view.set := by
  have hi0 : (i 0).val < 10000 := (i 0).isLt
  have hi1 : (i 1).val < 256 := (i 1).isLt
  obtain ⟨t, ht⟩ := idx_onto0 ⟨(i 0).val / 1000, by omega⟩
  have q0 : win0_2.index t (0 : Fin 2) = (i 0).val / 1000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 256 ≤ (i 1).val ∧ (i 1).val < win0_2.index t (1 : Fin 2) * 256 + 256; omega

/-- The region's output array after the run: the product of the two arrays it reads, as the region finds them. -/
theorem final0 (c : Dev nD) :
    (dat0 (F := Ideal) V c).arrAt 2 cfg0.N
      = matProd (M := 10000) (K := 512) (N := 256) (V c main_arg0) (V c main_arg2) :=
  (dat0 (F := Ideal) V c).arrAt_eq_of_cover 2 _ (fun t _ => flushed0_eq V c t) (covered0)

end Cert.KernelIdeal.HandValue

end
-- ==== Proof.Reg1Value.lean ====
/- Region 1's output array after its run, as one function of the two arrays the region reads: the matrix product
   of the whole left array (10000 rows) with the right factor. Each grid point writes back a band of 1000 rows of that
   product, since a band of rows of a product is the product of the band; the ten bands tile the array. -/
import proofs.«155734_j54030688584379_1_alg».proof.Proof.Reg1
import proofs.«155734_j54030688584379_1_alg».proof.Proof.LibMatProd
import Idealize.ShloMosaic.Lib.Pipeline.Value

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx Cert.LibMatProd

variable (V : (c : Dev nD) → (b : Ref sig .tc) → Buf (Elt Ideal) ((c : Thread nD τ).loc b))

theorem hz1 : (![0, 0] : Fin 2 → Nat) = fun _ => 0 := funext fun a => by fin_cases a <;> rfl

/-- The body's payload is the matrix product of the two loaded blocks: the operands (each under a shape cast to its own shape, which changes nothing)
    narrowed to bf16 and accumulated into zeros, at exact values. -/
theorem pay1_eq (x0 : Vec Ideal S1000x256 .f32) (x1 : Vec Ideal S256x128 .f32) :
    k1_pay1 x0 x1 = matProd (M := 1000) (K := 256) (N := 128) x0 x1 :=
  by
  unfold k1_pay1
  simp only [shapeCast_self]
  exact matmul_eq dot_S1000x256_S256x128_S1000x128_1_0_0_1_n_n rfl rfl rfl rfl rfl rfl x0 x1 bitsLt_bf16_f32

/-- The printed index maps, decided over the grid: the left window and the output window are on the same band of
    rows, at column block 0; the right window is on its one block. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val ∧ t.val < 10 :=
  (by decide +kernel : ∀ t : Fin grid1.N, _)

/-- What point `t` writes back is block `t` of the product of the two arrays as the region finds them. -/
theorem flushed1_eq (c : Dev nD) (t : Fin cfg1.N) :
    (dat1 (F := Ideal) V c).flushed 2 t
      = ((cfg1.win 2).blk t).view.read (Elt Ideal) (matProd (M := 10000) (K := 256) (N := 128) (V c main_v46) (V c main_v47)) := by
  show (cfg1.win 2).cut (grid1.coords t) ((dat1 (F := Ideal) V c).after 2 t) = _
  rw [after1_2]
  unfold out1_2
  rw [View.canon_unit_zero hz1]
  simp only [View.ld_unit_zero (S := S1000x256) hz1, View.ld_unit_zero (S := S256x128) hz1]
  rw [pay1_eq]
  obtain ⟨e0, e1, e2, e3, e4, e5, e6⟩ := idx_facts1 t
  funext j
  show matProd (M := 1000) (K := 256) (N := 128) (iblk1 V c 0 t) (iblk1 V c 1 t) j
    = matProd (M := 10000) (K := 256) (N := 128) (V c main_v46) (V c main_v47) (((cfg1.win 2).blk t).view.emb j)
  refine matProd_rows (V c main_v46) (V c main_v47) _ _ (win1_2.index t (0 : Fin 2) * 1000) ?_ ?_ j _ ?_ ?_
  · intro p k hp
    show V c main_v46 (((cfg1.win 0).blk t).view.emb (ix2 p k)) = _
    congr 1
    funext a; apply Fin.ext
    match a with
    | ⟨0, _⟩ => show win1_0.index t (0 : Fin 2) * 1000 + 1 * p.val = win1_2.index t (0 : Fin 2) * 1000 + p.val; omega
    | ⟨1, _⟩ => show win1_0.index t (1 : Fin 2) * 256 + 1 * k.val = k.val; omega
  · intro z
    show V c main_v47 (((cfg1.win 1).blk t).view.emb z) = _
    congr 1
    funext a; apply Fin.ext
    match a with
    | ⟨0, _⟩ => show win1_1.index t (0 : Fin 2) * 256 + 1 * (z 0).val = (z 0).val; omega
    | ⟨1, _⟩ => show win1_1.index t (1 : Fin 2) * 128 + 1 * (z 1).val = (z 1).val; omega
  · show win1_2.index t (0 : Fin 2) * 1000 + 1 * (j 0).val = win1_2.index t (0 : Fin 2) * 1000 + (j 0).val; omega
  · show win1_2.index t (1 : Fin 2) * 128 + 1 * (j 1).val = (j 1).val; omega

/-- An index of the array is in point `t`'s block iff each coordinate is in the block's range on its axis. -/
theorem mem_blk1 (t : Fin cfg1.N) (i : S10000x128.Idx) :
    i ∈ ((cfg1.win 2).blk t).view.set ↔ ∀ a : Fin 2, win1_2.index t a * S1000x128.size a ≤ (i a).val ∧ (i a).val < win1_2.index t a * S1000x128.size a + S1000x128.size a := by
  show i ∈ ((View.whole main_v48).slice (win1_2.rect t)).set ↔ _
  rw [View.set_slice_whole, Rect.mem_set_unit]
  exact Iff.rfl

/-- Every block of the output is some point's: band `q` is point `q`'s. -/
theorem idx_onto1 : ∀ q0 : Fin 10, ∃ t : Fin cfg1.N, win1_2.index t = ![q0.val, 0] :=
  (by decide +kernel : ∀ q0 : Fin 10, ∃ t : Fin grid1.N, win1_2.index t = ![q0.val, 0])

/-- Every index of the output array is in some point's block: row `r` is in band `r / 1000`. -/
theorem covered1 (i : S10000x128.Idx) :
    ∃ t : Fin cfg1.N, (cfg1.win 2).flush t = true ∧ i ∈ ((cfg1.win 2).blk t).view.set := by
  have hi0 : (i 0).val < 10000 := (i 0).isLt
  have hi1 : (i 1).val < 128 := (i 1).isLt
  obtain ⟨t, ht⟩ := idx_onto1 ⟨(i 0).val / 1000, by omega⟩
  have q0 : win1_2.index t (0 : Fin 2) = (i 0).val / 1000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 128 ≤ (i 1).val ∧ (i 1).val < win1_2.index t (1 : Fin 2) * 128 + 128; omega

/-- The region's output array after the run: the product of the two arrays it reads, as the region finds them. -/
theorem final1 (c : Dev nD) :
    (dat1 (F := Ideal) V c).arrAt 2 cfg1.N
      = matProd (M := 10000) (K := 256) (N := 128) (V c main_v46) (V c main_v47) :=
  (dat1 (F := Ideal) V c).arrAt_eq_of_cover 2 _ (fun t _ => flushed1_eq V c t) (covered1)

end Cert.KernelIdeal.HandValue

end
-- ==== Proof.Spec.lean ====
/-
  The functions both programs compute at the ideal instance, index by index, over extended reals:
  the product of two matrices and the entrywise logistic of a Gram matrix.  No program is imported here.
-/
import Idealize.ShloMosaic.PureOps.Ideal
import Idealize.ShloMosaic.Lib.ValueIdx

noncomputable section

namespace Cert.Spec

open Idealize.ShloMosaic Idealize.ShloMosaic.ValueIdx

/-- The product of an `M×K` matrix by a `K×N` matrix of extended reals: entry `(r, c)` is `∑ k, a (r, k) * b (k, c)`. -/
def mm (M K N : Nat) (a : (⟨2, ![M, K]⟩ : Shape).Idx → EReal) (b : (⟨2, ![K, N]⟩ : Shape).Idx → EReal) :
    (⟨2, ![M, N]⟩ : Shape).Idx → EReal :=
  fun i => ∑ k : Fin K, a (ix2 (i 0) k) * b (ix2 k (i 1))

/-- The entrywise logistic of the Gram matrix of an `M×K` matrix: entry `(r, c)` is
    `logistic (∑ k, z (r, k) * z (c, k))`. -/
def sigGram (M K : Nat) (z : (⟨2, ![M, K]⟩ : Shape).Idx → EReal) : (⟨2, ![M, M]⟩ : Shape).Idx → EReal :=
  fun i => Ideal.logistic (∑ k : Fin K, z (ix2 (i 0) k) * z (ix2 (i 1) k))

end Cert.Spec

end
-- ==== Proof.LibDotNT.lean ====
/-
  The product of an `[M, K]` matrix with the TRANSPOSE of an `[N, K]` matrix — a `tpu.matmul` that contracts the last
  axis of both operands, no batch axis — into the zero accumulator, read at `(p, j)` at the ideal values: the sum over
  the shared axis of the products of row `p` of the left operand with row `j` of the right. (A similarity matrix
  `q kᵀ` of two blocks of row vectors is this product.)
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibDotNT

open Idealize.ShloMosaic Idealize.ShloMosaic.ValueIdx

/-- Rows against rows: `(A Bᵀ)(p, j) = ∑ k, A (p, k) * B (j, k)`. -/
theorem matmulNT_apply {M K N : ℕ} {φ₁ φ₂ : FTy}
    (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision)
    (lhs : FVec Ideal ⟨2, ![M, K]⟩ φ₁) (rhs : FVec Ideal ⟨2, ![N, K]⟩ φ₂) (p : Fin M) (j : Fin N) :
    matmul D prec lhs rhs (constant ⟨2, ![M, N]⟩ .f32 0x00000000#32) (ix2 p j)
      = ∑ k : Fin K, lhs (ix2 p k) * rhs (ix2 j k) := by
  obtain ⟨lc, rc, ln, rn, lb, rb, wf⟩ := D
  dsimp only at hlc hrc hln hrn hlb hrb
  subst hlc hrc hln hrn hlb hrb
  set D : DotDims ⟨2, ![M, K]⟩ ⟨2, ![N, K]⟩ ⟨2, ![M, N]⟩ := ⟨[1], [1], [0], [0], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 j k := funext fun a => Fin.ext (by
    match a with
    | ⟨0, _⟩ =>
      show (D.rhsIdx (ix2 p j) _ 0).val = j.val
      unfold DotDims.rhsIdx
      rw [dif_neg (show ¬(0 : Fin (⟨2, ![N, K]⟩ : Shape).rank) ∈ D.rhsBatch from List.not_mem_nil),
        dif_pos (show (0 : Fin (⟨2, ![N, K]⟩ : Shape).rank) ∈ D.rhsNonContracting from List.mem_singleton.mpr rfl)]
      rfl
    | ⟨1, _⟩ => exact (D.rhsIdx_val_of_single rfl (ix2 p j) _).trans hk)
  rw [el, er]

end Cert.LibDotNT

end
-- ==== Proof.Reg2Cover.lean ====
/-
  The blocks of the third region's result cover the result array. The array is 10000 by 10000; its blocks are 1000 rows
  by 1024 columns, indexed by the grid point's two coordinates, ten by ten. The last column block starts at column 9216
  and would end at 10240: it is cut at the array's edge, 784 columns wide. An entry (r, q) lies in the block of the
  point whose coordinates are (r / 1000, q / 1024), whether that block is cut or not.
-/
import proofs.«155734_j54030688584379_1_alg».proof.Proof.Reg2Body

noncomputable section

namespace Cert.KernelIdeal.HandValue

open Cert.KernelIdeal Cert.KernelIdeal.Gen Cert.KernelIdeal.Hand
open Idealize.ShloMosaic Idealize.ShloMosaic.TcCoe
open Idealize.SL Idealize.SL.Sem
open Idealize.ShloMosaic.Pipeline (Dat Cfg Window)

/-- An entry of the array is in point `t`'s block iff each coordinate is at or past the block's start and before the
    start plus the block's extent there, the extent cut at the array's edge. -/
theorem mem_blk2 (t : Fin cfg2.N) (i : S10000x10000.Idx) :
    i ∈ ((cfg2.win 2).blk t).view.set ↔ ∀ a : Fin 2, win2_2.index t a * S1000x1024.size a ≤ (i a).val
      ∧ (i a).val < win2_2.index t a * S1000x1024.size a + win2_2.xsize (grid2.coords t) a := by
  show i ∈ ((View.whole main_v95).slice (win2_2.rect t)).set ↔ _
  rw [View.set_slice_whole, Rect.mem_set_unit]
  exact Iff.rfl

/-- The extents of every point's block: all 1000 rows; 1024 columns, or what is left of the array past the block's start. -/
theorem blk_facts2 : ∀ t : Fin cfg2.N, win2_2.xsize (grid2.coords t) (0 : Fin 2) = 1000
    ∧ win2_2.xsize (grid2.coords t) (1 : Fin 2) = min 1024 (10000 - win2_2.index t (1 : Fin 2) * 1024) :=
  (by decide +kernel : ∀ t : Fin grid2.N, _)

/-- Every pair of block indices below ten is some point's. -/
theorem idx_onto2 : ∀ (q0 q1 : Fin 10), ∃ t : Fin cfg2.N, win2_2.index t = ![q0.val, q1.val] :=
  (by decide +kernel : ∀ (q0 q1 : Fin 10), ∃ t : Fin grid2.N, win2_2.index t = ![q0.val, q1.val])

/-- Every entry of the array is in the block of a point that writes its block back. -/
theorem cover2 (i : S10000x10000.Idx) :
    ∃ t : Fin cfg2.N, (cfg2.win 2).flush t = true ∧ i ∈ ((cfg2.win 2).blk t).view.set := by
  have hi0 : (i 0).val < 10000 := (i 0).isLt
  have hi1 : (i 1).val < 10000 := (i 1).isLt
  obtain ⟨t, ht⟩ := idx_onto2 ⟨(i 0).val / 1000, by omega⟩ ⟨(i 1).val / 1024, by omega⟩
  have q0 : win2_2.index t (0 : Fin 2) = (i 0).val / 1000 := congrFun ht 0
  have q1 : win2_2.index t (1 : Fin 2) = (i 1).val / 1024 := congrFun ht 1
  obtain ⟨x0, x1⟩ := blk_facts2 t
  refine ⟨t, flush2_2 t, ?_⟩
  rw [mem_blk2]
  intro a
  match a with
  | ⟨0, _⟩ =>
    show win2_2.index t (0 : Fin 2) * 1000 ≤ (i 0).val
      ∧ (i 0).val < win2_2.index t (0 : Fin 2) * 1000 + win2_2.xsize (grid2.coords t) (0 : Fin 2)
    rw [x0]; omega
  | ⟨1, _⟩ =>
    show win2_2.index t (1 : Fin 2) * 1024 ≤ (i 1).val
      ∧ (i 1).val < win2_2.index t (1 : Fin 2) * 1024 + win2_2.xsize (grid2.coords t) (1 : Fin 2)
    rw [x1]; omega

end Cert.KernelIdeal.HandValue

end
-- ==== Proof.Reg2Final.lean ====
/-
  What the third region writes back, and the result array after it. A point's block of the result is the payload of
  its block of 1000 rows and its block of 1024 rows of one array z of 10000 rows of 64 entries; entry (p, q) of the
  payload is the logistic of the inner product of row p of the first block with row q of the second, and those rows are
  rows (1000 · first coordinate + p) and (1024 · second coordinate + q) of z: so the entry is the logistic of the inner
  product of two rows of z, the entry of the logistic Gram matrix of z at the place the block's entry lands. The blocks
  cover the array, so the array ends holding that matrix.
-/
import proofs.«155734_j54030688584379_1_alg».proof.Proof.Reg2Body
import proofs.«155734_j54030688584379_1_alg».proof.Proof.Reg2Cover
import proofs.«155734_j54030688584379_1_alg».proof.Proof.Spec

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-- The printed index maps, decided over the grid: the block of 1000 rows moves with the result's row blocks, the block
    of 1024 rows with the result's column blocks and is cut where they are, and both span the 64 entries of a row. -/
theorem idx_facts2 : ∀ t : Fin cfg2.N, win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_1.xsize (grid2.coords t) (0 : Fin 2) = win2_2.xsize (grid2.coords t) (1 : Fin 2)
    ∧ win2_1.xsize (grid2.coords t) (1 : Fin 2) = 64 :=
  (by decide +kernel : ∀ t : Fin grid2.N, _)

/-- An entry of the payload whose two rows are rows of `z` is the entry of the logistic Gram matrix of `z` at those rows. -/
theorem pay2_at
    (hpay : ∀ (x0 : Vec Ideal S1000x64 .f32) (x1 : Vec Ideal S1024x64 .f32) (p : Fin 1000) (q : Fin 1024),
      k2_pay1 x0 x1 (ix2 p q) = Ideal.logistic (∑ k : Fin 64, x0 (ix2 p k) * x1 (ix2 q k)))
    (z : (⟨2, ![10000, 64]⟩ : Shape).Idx → EReal) (x0 : Vec Ideal S1000x64 .f32) (x1 : Vec Ideal S1024x64 .f32)
    (p : Fin 1000) (q : Fin 1024) (i : (⟨2, ![10000, 10000]⟩ : Shape).Idx)
    (h0 : ∀ k : Fin 64, x0 (ix2 p k) = z (ix2 (i 0) k)) (h1 : ∀ k : Fin 64, x1 (ix2 q k) = z (ix2 (i 1) k)) :
    k2_pay1 x0 x1 (ix2 p q) = Cert.Spec.sigGram 10000 64 z i := by
  rw [hpay]
  unfold Cert.Spec.sigGram
  exact congrArg Ideal.logistic (Finset.sum_congr rfl fun k _ => by rw [h0, h1])

section
variable (hpay : ∀ (x0 : Vec Ideal S1000x64 .f32) (x1 : Vec Ideal S1024x64 .f32) (p : Fin 1000) (q : Fin 1024),
  k2_pay1 x0 x1 (ix2 p q) = Ideal.logistic (∑ k : Fin 64, x0 (ix2 p k) * x1 (ix2 q k)))
variable (V : (c : Dev nD) → (b : Ref sig .tc) → Buf (Elt Ideal) ((c : Thread nD τ).loc b))

include hpay in
/-- What point `t` writes back is block `t` of the logistic Gram matrix of the array the region reads. -/
theorem flushed2_eq (c : Dev nD) (t : Fin cfg2.N) :
    (dat2 (F := Ideal) V c).flushed 2 t
      = ((cfg2.win 2).blk t).view.read (Elt Ideal) (Cert.Spec.sigGram 10000 64 (V c main_v90)) := by
  show (cfg2.win 2).cut (cfg2.grid.coords t) ((dat2 (F := Ideal) V c).after 2 t) = _
  rw [after2_2, out2_2_eq]
  obtain ⟨e0, e1, e2, e3, e4, e5⟩ := idx_facts2 t
  funext j
  have hj0 : (j 0).val < 1000 := Nat.lt_of_lt_of_le (j 0).isLt ((cfg2.win 2).xsize_le (cfg2.grid.coords t) 0)
  have hj1 : (j 1).val < 1024 := Nat.lt_of_lt_of_le (j 1).isLt ((cfg2.win 2).xsize_le (cfg2.grid.coords t) 1)
  have hj1x : (j 1).val < win2_2.xsize (grid2.coords t) (1 : Fin 2) := (j 1).isLt
  show k2_pay1 (iblk2 V c 0 t) (jblk2 V c t) (ix2 (⟨(j 0).val, hj0⟩ : Fin 1000) (⟨(j 1).val, hj1⟩ : Fin 1024))
    = Cert.Spec.sigGram 10000 64 (V c main_v90) (((cfg2.win 2).blk t).view.emb j)
  refine pay2_at hpay (V c main_v90) (iblk2 V c 0 t) (jblk2 V c t) ⟨(j 0).val, hj0⟩ ⟨(j 1).val, hj1⟩
    (((cfg2.win 2).blk t).view.emb j) (fun k => ?_) (fun k => ?_)
  · show V c main_v90 (((cfg2.win 0).blk t).view.emb (ix2 (⟨(j 0).val, hj0⟩ : Fin 1000) k))
      = V c main_v90 (ix2 ((((cfg2.win 2).blk t).view.emb j) 0) k)
    refine congrArg (V c main_v90) (funext fun a => Fin.ext ?_)
    match a with
    | ⟨0, _⟩ =>
      show win2_0.index t (0 : Fin 2) * 1000 + 1 * (j 0).val = win2_2.index t (0 : Fin 2) * 1000 + 1 * (j 0).val
      omega
    | ⟨1, _⟩ =>
      show win2_0.index t (1 : Fin 2) * 64 + 1 * k.val = k.val
      omega
  · have hk : k.val < win2_1.xsize (grid2.coords t) (1 : Fin 2) := by rw [e5]; exact k.isLt
    have hq : (j 1).val < win2_1.xsize (grid2.coords t) (0 : Fin 2) := by rw [e4]; exact hj1x
    have hx : (ix2 (⟨(j 1).val, hj1⟩ : Fin 1024) k : S1024x64.Idx)
        = (cfg2.win 1).xinj (cfg2.grid.coords t) (fun a => match a with
            | ⟨0, _⟩ => ⟨(j 1).val, hq⟩
            | ⟨1, _⟩ => ⟨k.val, hk⟩) :=
      funext fun a => match a with
        | ⟨0, _⟩ => rfl
        | ⟨1, _⟩ => rfl
    rw [hx]
    unfold jblk2
    rw [Window.fill_xinj]
    show V c main_v90 (((cfg2.win 1).blk t).view.emb _) = V c main_v90 (ix2 ((((cfg2.win 2).blk t).view.emb j) 1) k)
    refine congrArg (V c main_v90) (funext fun a => Fin.ext ?_)
    match a with
    | ⟨0, _⟩ =>
      show win2_1.index t (0 : Fin 2) * 1024 + 1 * (j 1).val = win2_2.index t (1 : Fin 2) * 1024 + 1 * (j 1).val
      omega
    | ⟨1, _⟩ =>
      show win2_1.index t (1 : Fin 2) * 64 + 1 * k.val = k.val
      omega

include hpay in
/-- The result array after the region: the logistic Gram matrix of the array the region reads. -/
theorem final2_of (c : Dev nD) :
    (dat2 (F := Ideal) V c).arrAt 2 cfg2.N = Cert.Spec.sigGram 10000 64 (V c main_v90) :=
  (dat2 (F := Ideal) V c).arrAt_eq_of_cover 2 _ (fun t _ => flushed2_eq hpay V c t) cover2

end

end Cert.KernelIdeal.HandValue

end
-- ==== Proof.Reg2Value.lean ====
/-
  Region 2 at the ideal values: an entry of the body's result is the logistic of the dot product of a row of the
  first block with a row of the second; so it reads only its own row of the second block, and the result array ends
  holding the entrywise logistic of the Gram matrix of the array the region reads.
-/
import proofs.«155734_j54030688584379_1_alg».proof.Proof.Reg2Body
import proofs.«155734_j54030688584379_1_alg».proof.Proof.Spec
import proofs.«155734_j54030688584379_1_alg».proof.Proof.LibDotNT
import proofs.«155734_j54030688584379_1_alg».proof.Proof.Reg2Final
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window BodyObligationLoose)
open scoped BigOperators

/-! ## The payload at an entry -/

/-- Entry `(p, q)` of the body's result: the logistic of the dot product of row `p` of the first buffer with row `q`
    of the second. -/
theorem pay2_apply (x0 : Vec Ideal S1000x64 .f32) (x1 : Vec Ideal S1024x64 .f32) (p : Fin 1000) (q : Fin 1024) :
    k2_pay1 x0 x1 (ix2 p q) = Ideal.logistic (∑ k : Fin 64, x0 (ix2 p k) * x1 (ix2 q k)) := by
  unfold k2_pay1
  unfold Idealize.ShloMosaic.logistic
  rw [Ideal.logistic_def, Cert.LibDotNT.matmulNT_apply dot_S1000x64_S1024x64_S1000x1024_1_1_0_0_n_n rfl rfl rfl rfl rfl rfl]
  simp only [truncf_apply, shapeCast_self]

/-! ## The cuts of the second window and of the result window -/

/-- Decided over the grid: the second window keeps all 64 entries of a row and as many rows as the result window
    keeps columns; the result window keeps all 1000 rows. -/
theorem xsize_facts : ∀ t : Fin cfg2.N, win2_1.xsize (grid2.coords t) (1 : Fin 2) = 64
    ∧ win2_1.xsize (grid2.coords t) (0 : Fin 2) = win2_2.xsize (grid2.coords t) (1 : Fin 2)
    ∧ win2_2.xsize (grid2.coords t) (0 : Fin 2) = 1000 :=
  (by decide +kernel : ∀ t : Fin grid2.N, _)

/-- An entry of the body's result reads only its own row of the second buffer. -/
theorem rowLocal2 : RowLocal2 Ideal := fun t x0 x1 x1' h => by
  obtain ⟨e1, e0, -⟩ := xsize_facts t
  have key : ∀ (p : Fin 1000) (q : Fin 1024), q.val < win2_2.xsize (grid2.coords t) (1 : Fin 2) →
      k2_pay1 x0 x1 (ix2 p q) = k2_pay1 x0 x1' (ix2 p q) := by
    intro p q hq
    rw [pay2_apply, pay2_apply]
    refine congrArg Ideal.logistic (Finset.sum_congr rfl fun k _ => congrArg _ ?_)
    -- row `q` of the second buffer lies inside the array: both buffers hold the array's row there
    have hm : (cfg2.win 1).moved (cfg2.grid.coords t) (ix2 q k) = true :=
      ((cfg2.win 1).moved_iff _ _).mpr fun a => by
        match a with
        | ⟨0, _⟩ => show (q.val : Nat) < win2_1.xsize (grid2.coords t) (0 : Fin 2); rw [e0]; exact hq
        | ⟨1, _⟩ => show (k.val : Nat) < win2_1.xsize (grid2.coords t) (1 : Fin 2); rw [e1]; exact k.isLt
    calc x1 (ix2 q k)
        = (cfg2.win 1).fill (cfg2.grid.coords t) x1 ((cfg2.win 1).cut (cfg2.grid.coords t) x1) (ix2 q k) := by rw [(cfg2.win 1).fill_cut]
      _ = (cfg2.win 1).fill (cfg2.grid.coords t) x1' ((cfg2.win 1).cut (cfg2.grid.coords t) x1') (ix2 q k) := by
          rw [h]; unfold Window.fill; rw [dif_pos hm, dif_pos hm]
      _ = x1' (ix2 q k) := by rw [(cfg2.win 1).fill_cut]
  funext j
  have e : (cfg2.win 2).xinj (cfg2.grid.coords t) j
      = ix2 (n0 := 1000) (n1 := 1024) ((cfg2.win 2).xinj (cfg2.grid.coords t) j 0) ((cfg2.win 2).xinj (cfg2.grid.coords t) j 1) := eq_ix2 _
  exact (congrArg (k2_pay1 x0 x1) e).trans ((key _ _ (j 1).isLt).trans (congrArg (k2_pay1 x0 x1') e).symm)

/-- The exact body obligation at the ideal values. -/
theorem body_obligation2_ideal (V : (c : Dev nD) → (b : Ref sig .tc) → Buf (Elt Ideal) ((c : Thread nD τ).loc b)) (c : Dev nD) :
    BodyObligationLoose (dat2 (F := Ideal) V c) (defs₀ (F := Ideal)) Variants.none () Set.univ :=
  body_obligation2 V rowLocal2 c

/-! ## The result array after the region -/

/-- After region 2 the result array holds the entrywise logistic of the Gram matrix of the array the region reads:
    every flushed block is that function's block (the part of it inside the array), and the blocks cover the array. -/
theorem final2 (V : (c : Dev nD) → (b : Ref sig .tc) → Buf (Elt Ideal) ((c : Thread nD τ).loc b)) (c : Dev nD) :
    (dat2 (F := Ideal) V c).arrAt 2 cfg2.N = Cert.Spec.sigGram 10000 64 (V c main_v90) :=
  final2_of pay2_apply V c

end Cert.KernelIdeal.HandValue

end
-- ==== Proof.BridgeStages.lean ====
/-
  The host operations of the program between its three matrix products, as functions of the arrays they read, at the
  exact extended reals: the two rows of the edge list; the weighted sum over each node's in-neighbours (edges followed by
  one self-loop per node, each edge weighted by the product of its end nodes' inverse square-root degrees); the bias
  added on every row; the rectifier; two weight matrices side by side; and the two halves of the columns of an aggregate.
  Each stretch of host operations leaves, in the array it ends at, the corresponding function of the arrays it started from.
-/
import proofs.«155734_j54030688584379_1_alg».proof.Proof.Gen.KernelIdeal.Launch
import Idealize.ShloMosaic.PureOps.Ideal
import Idealize.ShloMosaic.Lib.StableHlo.Run

noncomputable section

namespace Cert.Bridge

open Idealize.ShloMosaic Idealize.ShloMosaic.TcCoe Idealize.SL.Sem Idealize.ShloMosaic.StableHlo
open Cert.KernelIdeal Cert.KernelIdeal.Gen

/-- The contents of an array of shape `S` and element type `e` over the extended reals. -/
abbrev CI (S : Shape) (e : EltTy) : Type := (⟨S, e⟩ : BufTy).Contents (Elt Ideal)

/-- Row 0 of the edge list: the source node of each edge. -/
def srcOf (ei : CI S2x320000 .i32) : CI S320000 .i32 :=
  shapeCast _ (extractStridedSlice S1x320000 ![0, 0] ei slices_S2x320000_S1x320000_0_0) shapeCasts_S1x320000_S320000

/-- Row 1 of the edge list: the target node of each edge. -/
def dstOf (ei : CI S2x320000 .i32) : CI S320000 .i32 :=
  shapeCast _ (extractStridedSlice S1x320000 ![1, 0] ei slices_S2x320000_S1x320000_1_0) shapeCasts_S1x320000_S320000

/-- The edges followed by one self-loop per node. -/
def withLoops (v : CI S320000 .i32) : CI S330000 .i32 :=
  concatenate S330000 0 [⟨S320000, v⟩, ⟨S10000, iotaInDim S10000 32 0⟩] concatenates_S320000_S10000_S330000_d0

/-- A list of node numbers as a column. -/
def col (d : CI S330000 .i32) : CI S330000x1 .i32 :=
  broadcastInDim S330000x1 ![0] bcast_S330000_S330000x1_0 d

/-- A list of node numbers with the negative ones moved up by the number of nodes, as a column. -/
def wrapCol (s : CI S330000 .i32) : CI S330000x1 .i32 :=
  col (select (cmpi .slt s (broadcastInDim S330000 ![] bcast_S_S330000 (constantI S_ 32 0#32)))
    (addi s (broadcastInDim S330000 ![] bcast_S_S330000 (constantI S_ 32 10000#32))) s)

/-- One over the square root of each node's in-degree (self-loop included), the degree kept above a small positive constant. -/
def dinvOf (d : CI S330000 .i32) : CI S10000 .f32 :=
  Host.rsqrt (F := Ideal) (maximumf
    (Host.scatterAdd (F := Ideal) scatter_S10000_S330000x1_S330000_n_0_0_1
      (broadcastInDim S10000 ![] bcast_S_S10000 (constant (F := Ideal) S_ .f32 0x00000000#32)) (col d)
      (broadcastInDim S330000 ![] bcast_S_S330000 (constant (F := Ideal) S_ .f32 0x3F800000#32)))
    (broadcastInDim S10000 ![] bcast_S_S10000 (constant (F := Ideal) S_ .f32 0x2B8CBCCC#32)))

/-- The weight of each edge: the product of the two end nodes' inverse square-root degrees. -/
def normOf (s d : CI S330000 .i32) : CI S330000 .f32 :=
  mulf (F := Ideal) (φ := .f32) (Host.gather gather_S10000_S330000x1_S330000_n_0_n_n_0_1_1 (dinvOf d) (wrapCol s))
    (Host.gather gather_S10000_S330000x1_S330000_n_0_n_n_0_1_1 (dinvOf d) (wrapCol d))

/-- Each node's weighted sum of its in-neighbours' rows, 256 columns. -/
def agg256 (s d : CI S330000 .i32) (h : CI S10000x256 .f32) : CI S10000x256 .f32 :=
  Host.scatterAdd (F := Ideal) scatter_S10000x256_S330000x1_S330000x256_1_0_0_1
    (broadcastInDim S10000x256 ![] bcast_S_S10000x256 (constant (F := Ideal) S_ .f32 0x00000000#32)) (col d)
    (mulf (F := Ideal) (φ := .f32) (Host.gather gather_S10000x256_S330000x1_S330000x256_1_0_n_n_0_1_1256 h (wrapCol s))
      (broadcastInDim S330000x256 ![0, 1] bcast_S330000x1_S330000x256_0_1
        (broadcastInDim S330000x1 ![0] bcast_S330000_S330000x1_0 (normOf s d))))

/-- Each node's weighted sum of its in-neighbours' rows, 128 columns. -/
def agg128 (s d : CI S330000 .i32) (h : CI S10000x128 .f32) : CI S10000x128 .f32 :=
  Host.scatterAdd (F := Ideal) scatter_S10000x128_S330000x1_S330000x128_1_0_0_1
    (broadcastInDim S10000x128 ![] bcast_S_S10000x128 (constant (F := Ideal) S_ .f32 0x00000000#32)) (col d)
    (mulf (F := Ideal) (φ := .f32) (Host.gather gather_S10000x128_S330000x1_S330000x128_1_0_n_n_0_1_1128 h (wrapCol s))
      (broadcastInDim S330000x128 ![0, 1] bcast_S330000x1_S330000x128_0_1
        (broadcastInDim S330000x1 ![0] bcast_S330000_S330000x1_0 (normOf s d))))

/-- The first layer before its rectifier: the aggregate of the 256-column product plus the bias on every row. -/
def stage45 (v1 v3 : CI S320000 .i32) (v4 : CI S10000x256 .f32) (b1 : CI S256 .f32) : CI S10000x256 .f32 :=
  addf (F := Ideal) (φ := .f32) (agg256 (withLoops v1) (withLoops v3) v4)
    (broadcastInDim S10000x256 ![0, 1] bcast_S1x256_S10000x256_0_1 (broadcastInDim S1x256 ![1] bcast_S256_S1x256_1 b1))

/-- The rectifier: the entrywise maximum with zero. -/
def stage46 (v45 : CI S10000x256 .f32) : CI S10000x256 .f32 :=
  maximumf (F := Ideal) (φ := .f32) v45 (broadcastInDim S10000x256 ![] bcast_S_S10000x256 (constant (F := Ideal) S_ .f32 0x00000000#32))

/-- Two 64-column weight matrices side by side. -/
def stage47 (wmu wlv : CI S256x64 .f32) : CI S256x128 .f32 :=
  concatenate S256x128 1 [⟨S256x64, wmu⟩, ⟨S256x64, wlv⟩] concatenates_S256x64_S256x64_S256x128_d1

/-- Columns 0 … 63 of the aggregate of the 128-column product, plus the bias on every row. -/
def stage90 (v1 v3 : CI S320000 .i32) (v48 : CI S10000x128 .f32) (bmu : CI S64 .f32) : CI S10000x64 .f32 :=
  addf (F := Ideal) (φ := .f32) (extractStridedSlice S10000x64 ![0, 0] (agg128 (withLoops v1) (withLoops v3) v48) slices_S10000x128_S10000x64_0_0)
    (broadcastInDim S10000x64 ![0, 1] bcast_S1x64_S10000x64_0_1 (broadcastInDim S1x64 ![1] bcast_S64_S1x64_1 bmu))

/-- Columns 64 … 127 of the aggregate of the 128-column product, plus the bias on every row. -/
def stage94 (v1 v3 : CI S320000 .i32) (v48 : CI S10000x128 .f32) (blv : CI S64 .f32) : CI S10000x64 .f32 :=
  addf (F := Ideal) (φ := .f32) (extractStridedSlice S10000x64 ![0, 64] (agg128 (withLoops v1) (withLoops v3) v48) slices_S10000x128_S10000x64_0_64)
    (broadcastInDim S10000x64 ![0, 1] bcast_S1x64_S10000x64_0_1 (broadcastInDim S1x64 ![1] bcast_S64_S1x64_1 blv))

theorem after_hostOps0_v1 (W : Valuation τ sig (Elt Ideal)) :
    StableHlo.after (hostOps0 (F := Ideal)) W (Proc.devRef .tc main_v1) = srcOf (W (Proc.devRef .tc main_arg1)) := by
  after_results; rfl

theorem after_hostOps0_v3 (W : Valuation τ sig (Elt Ideal)) :
    StableHlo.after (hostOps0 (F := Ideal)) W (Proc.devRef .tc main_v3) = dstOf (W (Proc.devRef .tc main_arg1)) := by
  after_results; rfl

theorem after_hostOps1_1_v46 (W : Valuation τ sig (Elt Ideal)) :
    StableHlo.after (hostOps1_1 (F := Ideal)) W (Proc.devRef .tc main_v46) = stage46 (W (Proc.devRef .tc main_v45)) := by
  after_results; rfl

theorem after_hostOps1_2_v47 (W : Valuation τ sig (Elt Ideal)) :
    StableHlo.after (hostOps1_2 (F := Ideal)) W (Proc.devRef .tc main_v47)
      = stage47 (W (Proc.devRef .tc main_arg4)) (W (Proc.devRef .tc main_arg6)) := by
  after_results; rfl

end Cert.Bridge

end
-- ==== Proof.BridgeStages45.lean ====
/-
  The host operations after the first matrix product leave the aggregate of that product plus the bias.
-/
import proofs.«155734_j54030688584379_1_alg».proof.Proof.BridgeStages

noncomputable section

namespace Cert.Bridge

open Idealize.ShloMosaic Idealize.ShloMosaic.TcCoe Idealize.SL.Sem Idealize.ShloMosaic.StableHlo
open Cert.KernelIdeal Cert.KernelIdeal.Gen

set_option maxRecDepth 8192 in
set_option maxHeartbeats 4000000 in
theorem after_hostOps1_v45 (W : Valuation τ sig (Elt Ideal)) :
    StableHlo.after (hostOps1 (F := Ideal)) W (Proc.devRef .tc main_v45)
      = stage45 (W (Proc.devRef .tc main_v1)) (W (Proc.devRef .tc main_v3)) (W (Proc.devRef .tc main_v4))
          (W (Proc.devRef .tc main_arg3)) := by
  after_results_simp; rfl

end Cert.Bridge

end
-- ==== Proof.BridgeStages90.lean ====
/-
  The host operations after the second matrix product leave, in the first result, columns 0 … 63 of the aggregate of that product plus the first bias.
-/
import proofs.«155734_j54030688584379_1_alg».proof.Proof.BridgeStages

noncomputable section

namespace Cert.Bridge

open Idealize.ShloMosaic Idealize.ShloMosaic.TcCoe Idealize.SL.Sem Idealize.ShloMosaic.StableHlo
open Cert.KernelIdeal Cert.KernelIdeal.Gen

set_option maxRecDepth 8192 in
set_option maxHeartbeats 4000000 in
theorem after_hostOps2_v90 (W : Valuation τ sig (Elt Ideal)) :
    StableHlo.after (hostOps2 (F := Ideal)) W (Proc.devRef .tc main_v90)
      = stage90 (W (Proc.devRef .tc main_v1)) (W (Proc.devRef .tc main_v3)) (W (Proc.devRef .tc main_v48))
          (W (Proc.devRef .tc main_arg5)) := by
  after_results_simp; rfl

end Cert.Bridge

end
-- ==== Proof.BridgeStages94.lean ====
/-
  The host operations after the second matrix product leave, in the second result, columns 64 … 127 of the aggregate of that product plus the second bias.
-/
import proofs.«155734_j54030688584379_1_alg».proof.Proof.BridgeStages

noncomputable section

namespace Cert.Bridge

open Idealize.ShloMosaic Idealize.ShloMosaic.TcCoe Idealize.SL.Sem Idealize.ShloMosaic.StableHlo
open Cert.KernelIdeal Cert.KernelIdeal.Gen

set_option maxRecDepth 8192 in
set_option maxHeartbeats 4000000 in
theorem after_hostOps2_v94 (W : Valuation τ sig (Elt Ideal)) :
    StableHlo.after (hostOps2 (F := Ideal)) W (Proc.devRef .tc main_v94)
      = stage94 (W (Proc.devRef .tc main_v1)) (W (Proc.devRef .tc main_v3)) (W (Proc.devRef .tc main_v48))
          (W (Proc.devRef .tc main_arg7)) := by
  after_results_simp; rfl

end Cert.Bridge

end
-- ==== Proof.BridgeDefs.lean ====
/-
  The three results of the program as functions of its eight argument arrays, each matrix product standing where the
  program computes it in blocks: the hidden layer is the rectified aggregate of x times W1 plus its bias; the two means
  are the two halves of the columns of the aggregate of the hidden layer times the two weight matrices side by side, each
  plus its bias; the last result is the entrywise logistic of the Gram matrix of the first mean.
-/
import proofs.«155734_j54030688584379_1_alg».proof.Proof.BridgeStages
import proofs.«155734_j54030688584379_1_alg».proof.Proof.LibMatProd
import proofs.«155734_j54030688584379_1_alg».proof.Proof.Spec

noncomputable section

namespace Cert.Bridge

open Idealize.ShloMosaic Idealize.ShloMosaic.TcCoe Idealize.SL.Sem
open Cert.KernelIdeal Cert.KernelIdeal.Gen

/-- The hidden layer: the rectified aggregate of `x` times `w1`, plus the bias. -/
def kH (x : CI S10000x512 .f32) (ei : CI S2x320000 .i32) (w1 : CI S512x256 .f32) (b1 : CI S256 .f32) : CI S10000x256 .f32 :=
  stage46 (stage45 (srcOf ei) (dstOf ei) (Cert.LibMatProd.matProd (M := 10000) (K := 512) (N := 256) x w1) b1)

/-- The first mean: columns 0 … 63 of the aggregate of the hidden layer times the two weight matrices side by side, plus its bias. -/
def kMu (x : CI S10000x512 .f32) (ei : CI S2x320000 .i32) (w1 : CI S512x256 .f32) (b1 : CI S256 .f32)
    (wmu : CI S256x64 .f32) (bmu : CI S64 .f32) (wlv : CI S256x64 .f32) : CI S10000x64 .f32 :=
  stage90 (srcOf ei) (dstOf ei)
    (Cert.LibMatProd.matProd (M := 10000) (K := 256) (N := 128) (kH x ei w1 b1) (stage47 wmu wlv)) bmu

/-- The second mean: columns 64 … 127 of the same aggregate, plus its bias. -/
def kLv (x : CI S10000x512 .f32) (ei : CI S2x320000 .i32) (w1 : CI S512x256 .f32) (b1 : CI S256 .f32)
    (wmu wlv : CI S256x64 .f32) (blv : CI S64 .f32) : CI S10000x64 .f32 :=
  stage94 (srcOf ei) (dstOf ei)
    (Cert.LibMatProd.matProd (M := 10000) (K := 256) (N := 128) (kH x ei w1 b1) (stage47 wmu wlv)) blv

/-- The last result: the entrywise logistic of the Gram matrix of the first mean. -/
def kAdj (x : CI S10000x512 .f32) (ei : CI S2x320000 .i32) (w1 : CI S512x256 .f32) (b1 : CI S256 .f32)
    (wmu : CI S256x64 .f32) (bmu : CI S64 .f32) (wlv : CI S256x64 .f32) : CI S10000x10000 .f32 :=
  Cert.Spec.sigGram 10000 64 (kMu x ei w1 b1 wmu bmu wlv)

end Cert.Bridge

end
-- ==== Proof.RunVals.lean ====
/- The values the fold through @main names, at the ideal instance: the two aggregated halves and the logistic Gram
   matrix as functions of the eight argument arrays — each kernel region's array by its closed form, each host
   stretch by its read-back stage. -/
import proofs.«155734_j54030688584379_1_alg».proof.Proof.RunKeep
import proofs.«155734_j54030688584379_1_alg».proof.Proof.Reg0Value
import proofs.«155734_j54030688584379_1_alg».proof.Proof.Reg1Value
import proofs.«155734_j54030688584379_1_alg».proof.Proof.Reg2Value
import proofs.«155734_j54030688584379_1_alg».proof.Proof.Reg2Final
import proofs.«155734_j54030688584379_1_alg».proof.Proof.BridgeStages45
import proofs.«155734_j54030688584379_1_alg».proof.Proof.BridgeStages90
import proofs.«155734_j54030688584379_1_alg».proof.Proof.BridgeStages94
import proofs.«155734_j54030688584379_1_alg».proof.Proof.BridgeDefs

set_option maxRecDepth 16384

noncomputable section

namespace Cert.KernelIdeal.HandValue

open Cert.KernelIdeal Cert.KernelIdeal.Gen Cert.KernelIdeal.Hand Cert.Bridge
open Idealize.ShloMosaic Idealize.ShloMosaic.TcCoe Idealize.SL.Sem

variable (m : (ℓ : Loc nD τ sig) → Buf (Elt Ideal) ℓ) (ρ : Dev nD → PrngReg)

/-! ## Buffers carried unchanged between items -/

theorem W2_of_W0 (c : Dev nD) (b : Ref sig .tc) (hr0 : ∀ w, Pipeline.arrRef spec0 w ≠ b) (h0 : b ∉ hostOps0_W) :
    W2 m ρ c (Proc.devRef .tc b) = m ((c : Thread nD τ).loc b) :=
  (W2_keep m ρ c b hr0).trans ((W1_keep m ρ c b h0).trans rfl)
theorem W4_of_W2 (c : Dev nD) (b : Ref sig .tc) (h11 : b ∉ hostOps1_1_W) (h1 : b ∉ hostOps1_W) :
    W4 m ρ c (Proc.devRef .tc b) = W2 m ρ c (Proc.devRef .tc b) :=
  (W4_keep m ρ c b h11).trans (W3_keep m ρ c b h1)
theorem W6_of_W4 (c : Dev nD) (b : Ref sig .tc) (hr1 : ∀ w, Pipeline.arrRef spec1 w ≠ b) (h12 : b ∉ hostOps1_2_W) :
    W6 m ρ c (Proc.devRef .tc b) = W4 m ρ c (Proc.devRef .tc b) :=
  (W6_keep m ρ c b hr1).trans (W5_keep m ρ c b h12)

/-! ## The two index rows -/

theorem W1_v1 (c : Dev nD) : W1 m ρ c (Proc.devRef .tc main_v1) = srcOf (m ((c : Thread nD τ).loc main_arg1)) :=
  after_hostOps0_v1 (W0 m ρ c)
theorem W1_v3 (c : Dev nD) : W1 m ρ c (Proc.devRef .tc main_v3) = dstOf (m ((c : Thread nD τ).loc main_arg1)) :=
  after_hostOps0_v3 (W0 m ρ c)
theorem W2_v1 (c : Dev nD) : W2 m ρ c (Proc.devRef .tc main_v1) = srcOf (m ((c : Thread nD τ).loc main_arg1)) :=
  (W2_keep m ρ c main_v1 (by decide)).trans (W1_v1 m ρ c)
theorem W2_v3 (c : Dev nD) : W2 m ρ c (Proc.devRef .tc main_v3) = dstOf (m ((c : Thread nD τ).loc main_arg1)) :=
  (W2_keep m ρ c main_v3 (by decide)).trans (W1_v3 m ρ c)
theorem W6_v1 (c : Dev nD) : W6 m ρ c (Proc.devRef .tc main_v1) = srcOf (m ((c : Thread nD τ).loc main_arg1)) :=
  (W6_of_W4 m ρ c main_v1 (by decide) (by decide)).trans ((W4_of_W2 m ρ c main_v1 (by decide) (by decide)).trans (W2_v1 m ρ c))
theorem W6_v3 (c : Dev nD) : W6 m ρ c (Proc.devRef .tc main_v3) = dstOf (m ((c : Thread nD τ).loc main_arg1)) :=
  (W6_of_W4 m ρ c main_v3 (by decide) (by decide)).trans ((W4_of_W2 m ρ c main_v3 (by decide) (by decide)).trans (W2_v3 m ρ c))

/-! ## The first layer -/

/-- Region 0 leaves the product of the features with the first weights. -/
theorem W2_v4 (c : Dev nD) : W2 m ρ c (Proc.devRef .tc main_v4)
    = Cert.LibMatProd.matProd (M := 10000) (K := 512) (N := 256) (m ((c : Thread nD τ).loc main_arg0)) (m ((c : Thread nD τ).loc main_arg2)) := by
  refine (W2_arr m ρ c 2).trans ((final0 (E0 m ρ) c).trans ?_)
  rw [show E0 m ρ c main_arg0 = m ((c : Thread nD τ).loc main_arg0) from (W1_keep m ρ c main_arg0 (by decide)).trans rfl,
    show E0 m ρ c main_arg2 = m ((c : Thread nD τ).loc main_arg2) from (W1_keep m ρ c main_arg2 (by decide)).trans rfl]

/-- The hidden layer: aggregate, add the bias, rectify. -/
theorem W5_v46 (c : Dev nD) : W5 m ρ c (Proc.devRef .tc main_v46)
    = kH (m ((c : Thread nD τ).loc main_arg0)) (m ((c : Thread nD τ).loc main_arg1)) (m ((c : Thread nD τ).loc main_arg2)) (m ((c : Thread nD τ).loc main_arg3)) := by
  refine (W5_keep m ρ c main_v46 (by decide)).trans ((after_hostOps1_1_v46 (W3 m ρ c)).trans ?_)
  rw [show W3 m ρ c (Proc.devRef .tc main_v45) = _ from after_hostOps1_v45 (W2 m ρ c), W2_v1, W2_v3, W2_v4,
    W2_of_W0 m ρ c main_arg3 (by decide) (by decide)]
  rfl

/-- The two second-layer weight matrices side by side. -/
theorem W5_v47 (c : Dev nD) : W5 m ρ c (Proc.devRef .tc main_v47)
    = stage47 (m ((c : Thread nD τ).loc main_arg4)) (m ((c : Thread nD τ).loc main_arg6)) := by
  refine (after_hostOps1_2_v47 (W4 m ρ c)).trans ?_
  rw [W4_of_W2 m ρ c main_arg4 (by decide) (by decide), W4_of_W2 m ρ c main_arg6 (by decide) (by decide),
    W2_of_W0 m ρ c main_arg4 (by decide) (by decide), W2_of_W0 m ρ c main_arg6 (by decide) (by decide)]

/-! ## The second layer -/

/-- Region 1 leaves the product of the hidden layer with the two weight matrices side by side. -/
theorem W6_v48 (c : Dev nD) : W6 m ρ c (Proc.devRef .tc main_v48)
    = Cert.LibMatProd.matProd (M := 10000) (K := 256) (N := 128)
        (kH (m ((c : Thread nD τ).loc main_arg0)) (m ((c : Thread nD τ).loc main_arg1)) (m ((c : Thread nD τ).loc main_arg2)) (m ((c : Thread nD τ).loc main_arg3)))
        (stage47 (m ((c : Thread nD τ).loc main_arg4)) (m ((c : Thread nD τ).loc main_arg6))) := by
  refine (W6_arr m ρ c 2).trans ((final1 (E1 m ρ) c).trans ?_)
  rw [show E1 m ρ c main_v46 = _ from W5_v46 m ρ c, show E1 m ρ c main_v47 = _ from W5_v47 m ρ c]

theorem W6_arg (c : Dev nD) (b : Ref sig .tc) (hr1 : ∀ w, Pipeline.arrRef spec1 w ≠ b) (h12 : b ∉ hostOps1_2_W) (h11 : b ∉ hostOps1_1_W)
    (h1 : b ∉ hostOps1_W) (hr0 : ∀ w, Pipeline.arrRef spec0 w ≠ b) (h0 : b ∉ hostOps0_W) :
    W6 m ρ c (Proc.devRef .tc b) = m ((c : Thread nD τ).loc b) :=
  (W6_of_W4 m ρ c b hr1 h12).trans ((W4_of_W2 m ρ c b h11 h1).trans (W2_of_W0 m ρ c b hr0 h0))

/-- The first result: the mean half. -/
theorem W8_v90 (c : Dev nD) : W8 m ρ c (Proc.devRef .tc main_v90)
    = kMu (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (W8_keep m ρ c main_v90 (by decide)).trans ((after_hostOps2_v90 (W6 m ρ c)).trans ?_)
  rw [W6_v1, W6_v3, W6_v48, W6_arg m ρ c main_arg5 (by decide) (by decide) (by decide) (by decide) (by decide) (by decide)]
  rfl

/-- The second result: the log-variance half. -/
theorem W8_v94 (c : Dev nD) : W8 m ρ c (Proc.devRef .tc main_v94)
    = kLv (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg6)) (m ((c : Thread nD τ).loc main_arg7)) := by
  refine (W8_keep m ρ c main_v94 (by decide)).trans ((after_hostOps2_v94 (W6 m ρ c)).trans ?_)
  rw [W6_v1, W6_v3, W6_v48, W6_arg m ρ c main_arg7 (by decide) (by decide) (by decide) (by decide) (by decide) (by decide)]
  rfl

/-- The last result: region 2 leaves the entrywise logistic of the mean half's Gram matrix. -/
theorem W8_v95 (c : Dev nD) : W8 m ρ c (Proc.devRef .tc main_v95)
    = kAdj (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  unfold W8
  rw [Function.update_self]
  refine (final2_of (fun x0 x1 p q => pay2_apply x0 x1 p q) (E2 m ρ) c).trans ?_
  rw [show E2 m ρ c main_v90 = _ from (W8_keep m ρ c main_v90 (by decide)).symm.trans (W8_v90 m ρ c)]
  rfl

end Cert.KernelIdeal.HandValue

end
-- ==== Proof.BridgeRef.lean ====
/-
  The reference program's host operations read in the vocabulary of the other program. The reference computes the
  aggregate three times, each time rebuilding the edge columns and the edge weights from the edge list; every rebuilt
  column and weight is the same function of the edge list, and the first aggregate, its bias and its rectifier are the
  same functions of the first matrix product. That product, a host contraction of rows with columns, is the matrix
  product entry by entry; so the reference's hidden layer is the hidden layer of the other program.
-/
import proofs.«155734_j54030688584379_1_alg».proof.Proof.BridgeDefs
import proofs.«155734_j54030688584379_1_alg».proof.Proof.Gen.ReferenceIdeal.Read

noncomputable section

namespace Cert.Bridge

open Idealize.ShloMosaic Idealize.ShloMosaic.TcCoe Idealize.SL.Sem
open Cert.KernelIdeal Cert.KernelIdeal.Gen
open Cert.ReferenceIdeal.Read (val_main_v1 val_main_v3 val_main_v4 val_main_v45 val_main_v46 val_main_v49 val_main_v50 val_main_v72 val_main_v78 val_main_v84 val_main_v91 val_main_v92 val_main_v114 val_main_v120 val_main_v126)

theorem ref_v1 (x1 : CI S2x320000 .i32) : val_main_v1 (F := Ideal) x1 = srcOf x1 := rfl
theorem ref_v3 (x1 : CI S2x320000 .i32) : val_main_v3 (F := Ideal) x1 = dstOf x1 := rfl
theorem ref_v49 (x1 : CI S2x320000 .i32) : val_main_v49 (F := Ideal) x1 = withLoops (srcOf x1) := rfl
theorem ref_v50 (x1 : CI S2x320000 .i32) : val_main_v50 (F := Ideal) x1 = withLoops (dstOf x1) := rfl
theorem ref_v91 (x1 : CI S2x320000 .i32) : val_main_v91 (F := Ideal) x1 = withLoops (srcOf x1) := rfl
theorem ref_v92 (x1 : CI S2x320000 .i32) : val_main_v92 (F := Ideal) x1 = withLoops (dstOf x1) := rfl
theorem ref_v78 (x1 : CI S2x320000 .i32) : val_main_v78 (F := Ideal) x1 = wrapCol (withLoops (srcOf x1)) := rfl
theorem ref_v84 (x1 : CI S2x320000 .i32) : val_main_v84 (F := Ideal) x1 = col (withLoops (dstOf x1)) := rfl
theorem ref_v120 (x1 : CI S2x320000 .i32) : val_main_v120 (F := Ideal) x1 = wrapCol (withLoops (srcOf x1)) := rfl
theorem ref_v126 (x1 : CI S2x320000 .i32) : val_main_v126 (F := Ideal) x1 = col (withLoops (dstOf x1)) := rfl
theorem ref_v72 (x1 : CI S2x320000 .i32) :
    val_main_v72 (F := Ideal) x1 = normOf (withLoops (srcOf x1)) (withLoops (dstOf x1)) := rfl
theorem ref_v114 (x1 : CI S2x320000 .i32) :
    val_main_v114 (F := Ideal) x1 = normOf (withLoops (srcOf x1)) (withLoops (dstOf x1)) := rfl
theorem ref_v45 (x0 : CI S10000x512 .f32) (x1 : CI S2x320000 .i32) (x2 : CI S512x256 .f32) (x3 : CI S256 .f32) :
    val_main_v45 (F := Ideal) x0 x1 x2 x3 = stage45 (srcOf x1) (dstOf x1) (val_main_v4 (F := Ideal) x0 x2) x3 := rfl
theorem ref_v46 (x0 : CI S10000x512 .f32) (x1 : CI S2x320000 .i32) (x2 : CI S512x256 .f32) (x3 : CI S256 .f32) :
    val_main_v46 (F := Ideal) x0 x1 x2 x3 = stage46 (val_main_v45 (F := Ideal) x0 x1 x2 x3) := rfl

/-- The reference's hidden layer is the rectified aggregate of the matrix product of `x0` and `x2`, plus the bias. -/
theorem ref_hidden (x0 : CI S10000x512 .f32) (x1 : CI S2x320000 .i32) (x2 : CI S512x256 .f32) (x3 : CI S256 .f32) :
    val_main_v46 (F := Ideal) x0 x1 x2 x3 = kH x0 x1 x2 x3 := by
  rw [ref_v46, ref_v45]
  unfold kH
  have e : val_main_v4 (F := Ideal) x0 x2 = Cert.LibMatProd.matProd (M := 10000) (K := 512) (N := 256) x0 x2 := by
    unfold Cert.ReferenceIdeal.Read.val_main_v4
    exact Cert.LibMatProd.host_dot_eq _ rfl rfl rfl rfl rfl rfl x0 x2
  rw [e]

end Cert.Bridge

end
-- ==== Proof.LibSegment.lean ====
/-
  Rows picked out of an array by a column of integer indices, and rows added into an array at a column of
  integer indices, read at an index.

  A column `idx : [M, 1]` of integers names, for each of `M` edges, one of `N` rows.
  * Picking (`x[idx]`, a `stablehlo.gather` with one collapsed axis): edge `e` reads row `idx[e, 0]`, the integer
    taken signed and clamped into `[0, N - 1]` — for a flat array `[N]` (`gather_entries_apply`) and for an array
    of rows `[N, D]` (`gather_rows_apply`).
  * Adding (`zeros.at[idx].add(upd)`, a `stablehlo.scatter` whose body adds): at the exact extended reals, row `n`
    of the result is the operand's row plus the sum of the updates of exactly those edges whose integer, taken
    signed and NOT clamped, is `n`; an edge whose integer is outside `[0, N)` contributes nowhere — for a flat
    array (`scatterAdd_entries_apply`) and for rows (`scatterAdd_rows_apply`).
  Both are stated for any extents, over the dimension numbers spelt out as `entryDims`, `rowDims`, `entryAddDims`,
  `rowAddDims`; a program's own record of the same numbers is one of these by `rfl`.
-/
import Idealize.ShloMosaic.PureOps.Ideal
import Idealize.ShloMosaic.Lib.ValueIdx

noncomputable section

open scoped BigOperators

namespace Cert.LibSegment

open Idealize.ShloMosaic Idealize.ShloMosaic.ValueIdx

variable {α : Type}

/-- The entry `(e, 0)` of a column `[M, 1]`. -/
abbrev colIdx {M : Nat} (e : Fin M) : (⟨2, ![M, 1]⟩ : Shape).Idx := ix2 e (⟨0, Nat.one_pos⟩ : Fin 1)

/-- An integer word taken signed and clamped into `[0, N - 1]`: the row a gather reads. -/
def clampRow (N : Nat) (hN : 0 < N) {w : Nat} (v : BitVec w) : Fin N := ⟨min v.toInt.toNat (N - 1), by omega⟩

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-! ## Picking entries of a flat array -/

/-- The dimension numbers of `x[idx]` for `x : [N]`, `idx : [M, 1]`, result `[M]`. -/
abbrev entryDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Edge `e` of `x[idx]` is `x` at the clamped integer `idx[e, 0]`. -/
theorem gather_entries_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (entryDims N M wf) x idx (ix1 e) = x (ix1 (clampRow N hN (idx (colIdx e)))) := by
  unfold Host.gather
  congr 1
  funext a
  obtain rfl : a = 0 := Subsingleton.elim _ _
  refine Fin.ext ?_
  show (entryDims N M wf).start (ix1 e) idx 0 + (entryDims N M wf).batchCoord (ix1 e) 0
    + (entryDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N M wf).startIndexMap from List.mem_singleton.mpr rfl)]
  have hsi : (entryDims N M wf).siIdx (ix1 e) ⟨List.idxOf (0 : Fin 1) (entryDims N M wf).startIndexMap,
      List.idxOf_lt_length_iff.2 (List.mem_singleton.mpr rfl)⟩ = colIdx e := by
    funext b; refine Fin.ext ?_
    match b with
    | ⟨0, _⟩ => rfl
    | ⟨1, _⟩ => rfl
  rw [hsi]
  rfl

/-! ## Picking rows -/

/-- The dimension numbers of `x[idx]` for `x : [N, D]`, `idx : [M, 1]`, result `[M, D]`: whole rows. -/
abbrev rowDims (N D M : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry `(e, j)` of the picked rows is `x` at row (the clamped integer `idx[e, 0]`), column `j`. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (j : Fin D) :
    Host.gather (rowDims N D M wf) x idx (ix2 e j) = x (ix2 (clampRow N hN (idx (colIdx e))) j) := by
  unfold Host.gather
  congr 1
  funext a
  refine Fin.ext ?_
  match a with
  | ⟨0, _⟩ =>
    show (rowDims N D M wf).start (ix2 e j) idx 0 + (rowDims N D M wf).batchCoord (ix2 e j) 0
      + (rowDims N D M wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 e j) ⟨List.idxOf (0 : Fin 2) (rowDims N D M wf).startIndexMap,
        List.idxOf_lt_length_iff.2 (List.mem_singleton.mpr rfl)⟩ = colIdx e := by
      funext b; refine Fin.ext ?_
      match b with
      | ⟨0, _⟩ => rfl
      | ⟨1, _⟩ => rfl
    rw [hsi]
    rfl
  | ⟨1, _⟩ =>
    show (rowDims N D M wf).start (ix2 e j) idx 1 + (rowDims N D M wf).batchCoord (ix2 e j) 1
      + (rowDims N D M wf).offCoord (ix2 e j) 1 = j.val
    rw [GatherDims.batchCoord_eq_zero _ _ _ List.not_mem_nil]
    have hs : (rowDims N D M wf).start (ix2 e j) idx 1 = 0 := by
      unfold GatherDims.start
      rw [dif_neg (show (1 : Fin 2) ∉ [(0 : Fin 2)] from by decide)]
    have hk : (1 : Fin 2) ∈ (rowDims N D M wf).sKept :=
      show (1 : Fin 2) ∈ (List.finRange 2).filter (· ∉ [(0 : Fin 2)] ++ []) from by decide
    rw [hs]
    unfold GatherDims.offCoord
    rw [dif_pos hk]
    simp only [Nat.zero_add, Nat.add_zero]
    rfl

/-! ## Adding entries into a flat array -/

/-- The dimension numbers of `x.at[idx].add(upd)` for `x : [N]`, `idx : [M, 1]`, `upd : [M]`. -/
abbrev entryAddDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where edge `e`'s update lands: at its integer, signed. -/
theorem entryAdd_pos {N M w : Nat} (wf : ScatterDims.WF ⟨1, ![N]⟩ ⟨2, ![M, 1]⟩ ⟨1, ![M]⟩ [] [0] [0] 1)
    (idx : IVec ⟨2, ![M, 1]⟩ w) (e : Fin M) (a : Fin 1) :
    (entryAddDims N M wf).start (ix1 e) idx a + ((entryAddDims N M wf).window (ix1 e) a : Int)
      = (idx (colIdx e)).toInt := by
  obtain rfl : a = 0 := Subsingleton.elim _ _
  have hw : (entryAddDims N M wf).window (ix1 e) 0 = 0 := by
    unfold ScatterDims.window
    have hk : (0 : Fin 1) ∉ (entryAddDims N M wf).sKept :=
      show (0 : Fin 1) ∉ (List.finRange 1).filter (· ∉ [(0 : Fin 1)]) from by decide
    rw [dif_neg hk]
  rw [hw]
  unfold ScatterDims.start
  rw [dif_pos (show (0 : Fin 1) ∈ (entryAddDims N M wf).scatterDimsToOperandDims from List.mem_singleton.mpr rfl)]
  have hsi : (entryAddDims N M wf).siIdx (ix1 e) ⟨List.idxOf (0 : Fin 1) (entryAddDims N M wf).scatterDimsToOperandDims,
      List.idxOf_lt_length_iff.2 (List.mem_singleton.mpr rfl)⟩ = colIdx e := by
    funext b; refine Fin.ext ?_
    match b with
    | ⟨0, _⟩ => rfl
    | ⟨1, _⟩ => rfl
  rw [hsi]
  simp

/-- Edge `e`'s update lands on entry `n` exactly when its integer, signed, is `n`. -/
theorem entryAdd_resultIdx_iff {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (entryAddDims N M wf).resultIdx? (ix1 e) idx = some (ix1 n) ↔ (idx (colIdx e)).toInt = (n.val : Int) := by
  unfold ScatterDims.resultIdx?
  constructor
  · intro h
    split at h
    · next hb =>
      have h0 := congrArg Fin.val (congrFun (Option.some.inj h) 0)
      have h1 := (hb 0).1
      simp only [entryAdd_pos] at h0 h1
      have h2 : (idx (colIdx e)).toInt.toNat = n.val := h0
      omega
    · exact absurd h (by simp)
  · intro h
    have hb : ∀ a, 0 ≤ (entryAddDims N M wf).start (ix1 e) idx a + ((entryAddDims N M wf).window (ix1 e) a : Int)
        ∧ (entryAddDims N M wf).start (ix1 e) idx a + ((entryAddDims N M wf).window (ix1 e) a : Int)
          < ((⟨1, ![N]⟩ : Shape).size a : Int) := by
      intro a
      obtain rfl : a = 0 := Subsingleton.elim _ _
      rw [entryAdd_pos, h]
      exact ⟨Int.natCast_nonneg _, by exact_mod_cast n.isLt⟩
    rw [dif_pos hb]
    congr 1
    funext a
    obtain rfl : a = 0 := Subsingleton.elim _ _
    refine Fin.ext ?_
    show ((entryAddDims N M wf).start (ix1 e) idx 0 + ((entryAddDims N M wf).window (ix1 e) 0 : Int)).toNat = n.val
    rw [entryAdd_pos, h]
    simp

/-- Entry `n` after the additions: the operand's entry plus the updates of the edges whose integer is `n`. -/
theorem scatterAdd_entries_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (n : Fin N) :
    Ideal.hostScatterAdd (entryAddDims N M wf) x idx upd (ix1 n)
      = x (ix1 n) + ∑ e ∈ Finset.univ.filter (fun e : Fin M => (idx (colIdx e)).toInt = (n.val : Int)), upd (ix1 e) := by
  unfold Ideal.hostScatterAdd
  congr 1
  rw [Finset.sum_filter, Finset.sum_filter]
  refine Fintype.sum_equiv idxEquiv1 _ _ (fun i => ?_)
  rw [eq_ix1 i]
  exact if_congr (entryAdd_resultIdx_iff wf idx (i 0) n) rfl rfl

/-- The same for the host operation as a program prints it. -/
theorem hostScatterAdd_entries_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (n : Fin N) :
    Host.scatterAdd (F := Ideal) (entryAddDims N M wf) x idx upd (ix1 n)
      = x (ix1 n) + ∑ e ∈ Finset.univ.filter (fun e : Fin M => (idx (colIdx e)).toInt = (n.val : Int)), upd (ix1 e) := by
  unfold Host.scatterAdd
  rw [Ideal.hostScatterAdd_def]
  exact scatterAdd_entries_apply wf x idx upd n

/-! ## Adding rows -/

/-- The dimension numbers of `x.at[idx].add(upd)` for `x : [N, D]`, `idx : [M, 1]`, `upd : [M, D]`: whole rows. -/
abbrev rowAddDims (N D M : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where entry `(e, c)` of the updates lands, row coordinate: at edge `e`'s integer, signed. -/
theorem rowAdd_pos0 {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) :
    (rowAddDims N D M wf).start (ix2 e c) idx 0 + ((rowAddDims N D M wf).window (ix2 e c) 0 : Int)
      = (idx (colIdx e)).toInt := by
  have hw : (rowAddDims N D M wf).window (ix2 e c) 0 = 0 := by
    unfold ScatterDims.window
    have hk : (0 : Fin 2) ∉ (rowAddDims N D M wf).sKept :=
      show (0 : Fin 2) ∉ (List.finRange 2).filter (· ∉ [(0 : Fin 2)]) from by decide
    rw [dif_neg hk]
  rw [hw]
  unfold ScatterDims.start
  rw [dif_pos (show (0 : Fin 2) ∈ (rowAddDims N D M wf).scatterDimsToOperandDims from List.mem_singleton.mpr rfl)]
  have hsi : (rowAddDims N D M wf).siIdx (ix2 e c) ⟨List.idxOf (0 : Fin 2) (rowAddDims N D M wf).scatterDimsToOperandDims,
      List.idxOf_lt_length_iff.2 (List.mem_singleton.mpr rfl)⟩ = colIdx e := by
    funext b; refine Fin.ext ?_
    match b with
    | ⟨0, _⟩ => rfl
    | ⟨1, _⟩ => rfl
  rw [hsi]
  simp

/-- Where entry `(e, c)` of the updates lands, column coordinate: at `c`. -/
theorem rowAdd_pos1 {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) :
    (rowAddDims N D M wf).start (ix2 e c) idx 1 + ((rowAddDims N D M wf).window (ix2 e c) 1 : Int) = (c.val : Int) := by
  have hs : (rowAddDims N D M wf).start (ix2 e c) idx 1 = 0 := by
    unfold ScatterDims.start
    rw [dif_neg (show (1 : Fin 2) ∉ [(0 : Fin 2)] from by decide)]
  have hw : (rowAddDims N D M wf).window (ix2 e c) 1 = c.val := by
    unfold ScatterDims.window
    have hk : (1 : Fin 2) ∈ (rowAddDims N D M wf).sKept :=
      show (1 : Fin 2) ∈ (List.finRange 2).filter (· ∉ [(0 : Fin 2)]) from by decide
    rw [dif_pos hk]
    rfl
  rw [hs, hw]
  simp

/-- Entry `(e, c)` of the updates lands on `(n, j)` exactly when edge `e`'s integer, signed, is `n` and `c = j`. -/
theorem rowAdd_resultIdx_iff {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) (n : Fin N) (j : Fin D) :
    (rowAddDims N D M wf).resultIdx? (ix2 e c) idx = some (ix2 n j)
      ↔ (idx (colIdx e)).toInt = (n.val : Int) ∧ c = j := by
  unfold ScatterDims.resultIdx?
  constructor
  · intro h
    split at h
    · next hb =>
      have h0 := congrArg Fin.val (congrFun (Option.some.inj h) 0)
      have h1 := congrArg Fin.val (congrFun (Option.some.inj h) 1)
      have h2 := (hb 0).1
      simp only [rowAdd_pos0] at h0 h2
      simp only [rowAdd_pos1] at h1
      have h3 : (idx (colIdx e)).toInt.toNat = n.val := h0
      have h4 : ((c.val : Int)).toNat = j.val := h1
      refine ⟨by omega, Fin.ext (by simpa using h4)⟩
    · exact absurd h (by simp)
  · rintro ⟨h, rfl⟩
    have hb : ∀ a, 0 ≤ (rowAddDims N D M wf).start (ix2 e c) idx a + ((rowAddDims N D M wf).window (ix2 e c) a : Int)
        ∧ (rowAddDims N D M wf).start (ix2 e c) idx a + ((rowAddDims N D M wf).window (ix2 e c) a : Int)
          < ((⟨2, ![N, D]⟩ : Shape).size a : Int) := by
      intro a
      match a with
      | ⟨0, _⟩ =>
        show 0 ≤ (rowAddDims N D M wf).start (ix2 e c) idx 0 + ((rowAddDims N D M wf).window (ix2 e c) 0 : Int)
          ∧ (rowAddDims N D M wf).start (ix2 e c) idx 0 + ((rowAddDims N D M wf).window (ix2 e c) 0 : Int) < (N : Int)
        rw [rowAdd_pos0, h]
        exact ⟨Int.natCast_nonneg _, by exact_mod_cast n.isLt⟩
      | ⟨1, _⟩ =>
        show 0 ≤ (rowAddDims N D M wf).start (ix2 e c) idx 1 + ((rowAddDims N D M wf).window (ix2 e c) 1 : Int)
          ∧ (rowAddDims N D M wf).start (ix2 e c) idx 1 + ((rowAddDims N D M wf).window (ix2 e c) 1 : Int) < (D : Int)
        rw [rowAdd_pos1]
        exact ⟨Int.natCast_nonneg _, by exact_mod_cast c.isLt⟩
    rw [dif_pos hb]
    congr 1
    funext a
    refine Fin.ext ?_
    match a with
    | ⟨0, _⟩ =>
      show ((rowAddDims N D M wf).start (ix2 e c) idx 0 + ((rowAddDims N D M wf).window (ix2 e c) 0 : Int)).toNat = n.val
      rw [rowAdd_pos0, h]; simp
    | ⟨1, _⟩ =>
      show ((rowAddDims N D M wf).start (ix2 e c) idx 1 + ((rowAddDims N D M wf).window (ix2 e c) 1 : Int)).toNat = c.val
      rw [rowAdd_pos1]; simp

/-- Entry `(n, j)` after the additions: the operand's entry plus column `j` of the updates of the edges whose
    integer is `n`. -/
theorem scatterAdd_rows_apply {N D M w : Nat} (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (n : Fin N) (j : Fin D) :
    Ideal.hostScatterAdd (rowAddDims N D M wf) x idx upd (ix2 n j)
      = x (ix2 n j) + ∑ e ∈ Finset.univ.filter (fun e : Fin M => (idx (colIdx e)).toInt = (n.val : Int)), upd (ix2 e j) := by
  unfold Ideal.hostScatterAdd
  congr 1
  rw [Finset.sum_filter, Finset.sum_filter, sum_idx2]
  refine Finset.sum_congr rfl (fun e _ => ?_)
  by_cases hA : (idx (colIdx e)).toInt = (n.val : Int)
  · rw [if_pos hA]
    rw [Finset.sum_eq_single j]
    · rw [if_pos ((rowAdd_resultIdx_iff wf idx e j n j).mpr ⟨hA, rfl⟩)]
    · intro c _ hc
      rw [if_neg (fun h => hc ((rowAdd_resultIdx_iff wf idx e c n j).mp h).2)]
    · intro h; exact absurd (Finset.mem_univ j) h
  · rw [if_neg hA]
    refine Finset.sum_eq_zero (fun c _ => ?_)
    rw [if_neg (fun h => hA ((rowAdd_resultIdx_iff wf idx e c n j).mp h).1)]

/-- The same for the host operation as a program prints it. -/
theorem hostScatterAdd_rows_apply {N D M w : Nat} {φ : FTy}
    (wf : ScatterDims.WF ⟨2, ![N, D]⟩ ⟨2, ![M, 1]⟩ ⟨2, ![M, D]⟩ [1] [0] [0] 1)
    (x : FVec Ideal ⟨2, ![N, D]⟩ φ) (idx : IVec ⟨2, ![M, 1]⟩ w) (upd : FVec Ideal ⟨2, ![M, D]⟩ φ) (n : Fin N) (j : Fin D) :
    Host.scatterAdd (F := Ideal) (rowAddDims N D M wf) x idx upd (ix2 n j)
      = x (ix2 n j) + ∑ e ∈ Finset.univ.filter (fun e : Fin M => (idx (colIdx e)).toInt = (n.val : Int)), upd (ix2 e j) := by
  unfold Host.scatterAdd
  rw [Ideal.hostScatterAdd_def]
  exact scatterAdd_rows_apply wf x idx upd n j

end Cert.LibSegment

end
-- ==== Proof.BridgeAgg.lean ====
/-
  One node's aggregate, entry by entry. For a column of source nodes, a column of target nodes and a weight per edge,
  entry (n, j) of the array obtained by picking the source rows of h, scaling each picked row by its edge's weight and
  adding the scaled rows into an array of zeros at the target nodes is zero plus the sum, over the edges whose target is
  n, of h (source, j) times the edge's weight. The sum is named, so that two aggregates are compared edge by edge.
-/
import proofs.«155734_j54030688584379_1_alg».proof.Proof.LibSegment
import Idealize.ShloMosaic.Lib.Pipeline.Value
import Idealize.ShloMosaic.Lib.ValueIdx

noncomputable section

open scoped BigOperators

namespace Cert.Bridge

open Idealize.ShloMosaic Idealize.ShloMosaic.ValueIdx Cert.LibSegment

/-- The sum, over the edges whose target is `n`, of `h (source, j)` times the edge's weight. -/
def aggSum {N M D : Nat} (hN : 0 < N) (scol dcol : IVec ⟨2, ![M, 1]⟩ 32) (nrm : FVec Ideal ⟨1, ![M]⟩ .f32)
    (h : FVec Ideal ⟨2, ![N, D]⟩ .f32) (n : Fin N) (j : Fin D) : EReal :=
  ∑ e ∈ Finset.univ.filter (fun e : Fin M => (dcol (colIdx e)).toInt = (n.val : Int)),
    h (ix2 (clampRow N hN (scol (colIdx e))) j) * nrm (ix1 e)

/-- Two aggregates over the same edges agree at an entry when the arrays aggregated agree on every row at the two columns. -/
theorem aggSum_congr {N M D D' : Nat} (hN : 0 < N) (scol dcol : IVec ⟨2, ![M, 1]⟩ 32) (nrm : FVec Ideal ⟨1, ![M]⟩ .f32)
    (h : FVec Ideal ⟨2, ![N, D]⟩ .f32) (h' : FVec Ideal ⟨2, ![N, D']⟩ .f32) (n : Fin N) (j : Fin D) (j' : Fin D')
    (hh : ∀ r : Fin N, h (ix2 r j) = h' (ix2 r j')) :
    aggSum hN scol dcol nrm h n j = aggSum hN scol dcol nrm h' n j' := by
  unfold aggSum
  exact Finset.sum_congr rfl fun e _ => by rw [hh]

/-- A weight per edge, spread along a new unit axis and then along the columns, read at `(e, j)`: edge `e`'s weight. -/
theorem spread_apply {M D : Nat} (b1 : (⟨1, ![M]⟩ : Shape).BroadcastsInDim ⟨2, ![M, 1]⟩ ![0])
    (b2 : (⟨2, ![M, 1]⟩ : Shape).BroadcastsInDim ⟨2, ![M, D]⟩ ![0, 1]) (nrm : FVec Ideal ⟨1, ![M]⟩ .f32) (e : Fin M) (j : Fin D) :
    broadcastInDim ⟨2, ![M, D]⟩ ![0, 1] b2 (broadcastInDim ⟨2, ![M, 1]⟩ ![0] b1 nrm) (ix2 e j) = nrm (ix1 e) := by
  rw [broadcastInDim_apply _ b2 _ (ix2 e j) (colIdx e) (fun a => match a with
    | ⟨0, _⟩ => by
      show e.val = if M = 1 then 0 else e.val
      split_ifs with hM
      · have := e.isLt; omega
      · rfl
    | ⟨1, _⟩ => by show 0 = if (1 : Nat) = 1 then 0 else j.val; rw [if_pos rfl])]
  exact broadcastInDim_apply _ b1 nrm (colIdx e) (ix1 e) (fun a => match a with
    | ⟨0, _⟩ => by
      show e.val = if M = 1 then 0 else e.val
      split_ifs with hM
      · have := e.isLt; omega
      · rfl)

/-- Entry `(n, j)` of the aggregate: zero plus the named sum. -/
theorem aggTerm_apply {N M D : Nat} (hN : 0 < N)
    (gd : GatherDims ⟨2, ![N, D]⟩ ⟨2, ![M, 1]⟩ ⟨2, ![M, D]⟩) (sd : ScatterDims ⟨2, ![N, D]⟩ ⟨2, ![M, 1]⟩ ⟨2, ![M, D]⟩)
    (wfg : GatherDims.WF ⟨2, ![N, D]⟩ ⟨2, ![M, 1]⟩ ⟨2, ![M, D]⟩ [1] [0] [] [0] [] 1 ![1, D])
    (wfs : ScatterDims.WF ⟨2, ![N, D]⟩ ⟨2, ![M, 1]⟩ ⟨2, ![M, D]⟩ [1] [0] [0] 1)
    (hgd : gd = rowDims N D M wfg) (hsd : sd = rowAddDims N D M wfs)
    (bz : (⟨0, ![]⟩ : Shape).BroadcastsInDim ⟨2, ![N, D]⟩ ![])
    (b1 : (⟨1, ![M]⟩ : Shape).BroadcastsInDim ⟨2, ![M, 1]⟩ ![0])
    (b2 : (⟨2, ![M, 1]⟩ : Shape).BroadcastsInDim ⟨2, ![M, D]⟩ ![0, 1])
    (scol dcol : IVec ⟨2, ![M, 1]⟩ 32) (nrm : FVec Ideal ⟨1, ![M]⟩ .f32) (h : FVec Ideal ⟨2, ![N, D]⟩ .f32)
    (n : Fin N) (j : Fin D) :
    Host.scatterAdd (F := Ideal) sd
        (broadcastInDim ⟨2, ![N, D]⟩ ![] bz (constant (F := Ideal) ⟨0, ![]⟩ .f32 0x00000000#32)) dcol
        (mulf (F := Ideal) (φ := .f32) (Host.gather gd h scol)
          (broadcastInDim ⟨2, ![M, D]⟩ ![0, 1] b2 (broadcastInDim ⟨2, ![M, 1]⟩ ![0] b1 nrm))) (ix2 n j)
      = Ideal.ofBits .f32 0x00000000#32 + aggSum hN scol dcol nrm h n j := by
  subst hgd hsd
  rw [hostScatterAdd_rows_apply]
  unfold aggSum
  congr 1
  refine Finset.sum_congr rfl fun e _ => ?_
  rw [mulf_apply, gather_rows_apply hN, spread_apply]

end Cert.Bridge

end
-- ==== Proof.BridgeMu.lean ====
/-
  The two means agree. The reference aggregates the hidden layer times each 64-column weight matrix separately; the
  other program aggregates the hidden layer times the two matrices side by side and takes the two halves of the columns.
  Entry (n, j) of either aggregate is zero plus the sum, over the edges that end at n, of the aggregated array at
  (source, column) times the edge's weight, and column j (or 64 + j) of the product with the joined matrix is column j of
  the product with the first (or second) matrix. The bias is added to both.
-/
import proofs.«155734_j54030688584379_1_alg».proof.Proof.BridgeRef
import proofs.«155734_j54030688584379_1_alg».proof.Proof.BridgeAgg

noncomputable section

open scoped BigOperators

namespace Cert.Bridge

open Idealize.ShloMosaic Idealize.ShloMosaic.ValueIdx Idealize.ShloMosaic.TcCoe Idealize.SL.Sem
open Cert.KernelIdeal Cert.KernelIdeal.Gen Cert.LibSegment Cert.LibPlainDot Cert.LibMatProd
open Cert.ReferenceIdeal.Read (val_main_v46 val_main_v47 val_main_v89 val_main_v88 val_main_v130)

/-- A vector laid along one row and then down the rows, read at `(n, j)`: the vector at `j`. -/
theorem bias_apply {N D : Nat} (b1 : (⟨1, ![D]⟩ : Shape).BroadcastsInDim ⟨2, ![1, D]⟩ ![1])
    (b2 : (⟨2, ![1, D]⟩ : Shape).BroadcastsInDim ⟨2, ![N, D]⟩ ![0, 1]) (b : FVec Ideal ⟨1, ![D]⟩ .f32) (n : Fin N) (j : Fin D) :
    broadcastInDim ⟨2, ![N, D]⟩ ![0, 1] b2 (broadcastInDim ⟨2, ![1, D]⟩ ![1] b1 b) (ix2 n j) = b (ix1 j) := by
  rw [bcast_1b_ab_apply, bcast_a_1a_apply]

/-- Entry `(n, j)` of the first mean of the program with the joined matrix. -/
theorem kMu_apply (v1 v3 : CI S320000 .i32) (v48 : CI S10000x128 .f32) (bmu : CI S64 .f32) (n : Fin 10000) (j : Fin 64) :
    stage90 v1 v3 v48 bmu (ix2 n j)
      = (Ideal.ofBits .f32 0x00000000#32
          + aggSum (N := 10000) (M := 330000) (D := 128) (by decide) (wrapCol (withLoops v1)) (col (withLoops v3))
              (normOf (withLoops v1) (withLoops v3)) v48 n ⟨j.val, by have := j.isLt; omega⟩)
        + bmu (ix1 j) := by
  unfold stage90
  rw [addf_apply]
  refine congrArg₂ (· + ·) ?_ ?_
  · rw [extractStridedSlice_apply ![0, 0] _ slices_S10000x128_S10000x64_0_0 (ix2 n j)
      (ix2 n (⟨j.val, by have := j.isLt; omega⟩ : Fin 128)) (fun a => match a with
      | ⟨0, _⟩ => by show n.val = 0 + n.val; omega
      | ⟨1, _⟩ => by show j.val = 0 + j.val; omega)]
    unfold agg128
    exact aggTerm_apply (N := 10000) (M := 330000) (D := 128) (by decide) _ _ _ _ rfl rfl _ _ _ _ _ _ _ n _
  · exact bias_apply _ _ bmu n j

/-- Entry `(n, j)` of the second mean of the program with the joined matrix. -/
theorem kLv_apply (v1 v3 : CI S320000 .i32) (v48 : CI S10000x128 .f32) (blv : CI S64 .f32) (n : Fin 10000) (j : Fin 64) :
    stage94 v1 v3 v48 blv (ix2 n j)
      = (Ideal.ofBits .f32 0x00000000#32
          + aggSum (N := 10000) (M := 330000) (D := 128) (by decide) (wrapCol (withLoops v1)) (col (withLoops v3))
              (normOf (withLoops v1) (withLoops v3)) v48 n ⟨64 + j.val, by have := j.isLt; omega⟩)
        + blv (ix1 j) := by
  unfold stage94
  rw [addf_apply]
  refine congrArg₂ (· + ·) ?_ ?_
  · rw [extractStridedSlice_apply ![0, 64] _ slices_S10000x128_S10000x64_0_64 (ix2 n j)
      (ix2 n (⟨64 + j.val, by have := j.isLt; omega⟩ : Fin 128)) (fun a => match a with
      | ⟨0, _⟩ => by show n.val = 0 + n.val; omega
      | ⟨1, _⟩ => by show 64 + j.val = 64 + j.val; rfl)]
    unfold agg128
    exact aggTerm_apply (N := 10000) (M := 330000) (D := 128) (by decide) _ _ _ _ rfl rfl _ _ _ _ _ _ _ n _
  · exact bias_apply _ _ blv n j

/-- Entry `(n, j)` of the reference's first mean. -/
theorem refMu_apply (x0 : CI S10000x512 .f32) (x1 : CI S2x320000 .i32) (x2 : CI S512x256 .f32) (x3 : CI S256 .f32)
    (x4 : CI S256x64 .f32) (x5 : CI S64 .f32) (n : Fin 10000) (j : Fin 64) :
    val_main_v88 (F := Ideal) x0 x1 x2 x3 x4 x5 (ix2 n j)
      = (Ideal.ofBits .f32 0x00000000#32
          + aggSum (N := 10000) (M := 330000) (D := 64) (by decide) (wrapCol (withLoops (srcOf x1))) (col (withLoops (dstOf x1)))
              (normOf (withLoops (srcOf x1)) (withLoops (dstOf x1))) (val_main_v47 (F := Ideal) x0 x1 x2 x3 x4) n j)
        + x5 (ix1 j) := by
  unfold Cert.ReferenceIdeal.Read.val_main_v88
  rw [addf_apply]
  refine congrArg₂ (· + ·) ?_ ?_
  · unfold Cert.ReferenceIdeal.Read.val_main_v85 Cert.ReferenceIdeal.Read.val_main_v83 Cert.ReferenceIdeal.Read.val_main_cst_17 Cert.ReferenceIdeal.Read.val_main_v82 Cert.ReferenceIdeal.Read.val_main_v79 Cert.ReferenceIdeal.Read.val_main_v81 Cert.ReferenceIdeal.Read.val_main_v80
    rw [ref_v84, ref_v78, ref_v72]
    exact aggTerm_apply (N := 10000) (M := 330000) (D := 64) (by decide) _ _ _ _ rfl rfl _ _ _ _ _ _ _ n j
  · unfold Cert.ReferenceIdeal.Read.val_main_v87 Cert.ReferenceIdeal.Read.val_main_v86
    exact bias_apply _ _ x5 n j

/-- Entry `(n, j)` of the reference's second mean. -/
theorem refLv_apply (x0 : CI S10000x512 .f32) (x1 : CI S2x320000 .i32) (x2 : CI S512x256 .f32) (x3 : CI S256 .f32)
    (x6 : CI S256x64 .f32) (x7 : CI S64 .f32) (n : Fin 10000) (j : Fin 64) :
    val_main_v130 (F := Ideal) x0 x1 x2 x3 x6 x7 (ix2 n j)
      = (Ideal.ofBits .f32 0x00000000#32
          + aggSum (N := 10000) (M := 330000) (D := 64) (by decide) (wrapCol (withLoops (srcOf x1))) (col (withLoops (dstOf x1)))
              (normOf (withLoops (srcOf x1)) (withLoops (dstOf x1))) (val_main_v89 (F := Ideal) x0 x1 x2 x3 x6) n j)
        + x7 (ix1 j) := by
  unfold Cert.ReferenceIdeal.Read.val_main_v130
  rw [addf_apply]
  refine congrArg₂ (· + ·) ?_ ?_
  · unfold Cert.ReferenceIdeal.Read.val_main_v127 Cert.ReferenceIdeal.Read.val_main_v125 Cert.ReferenceIdeal.Read.val_main_cst_27 Cert.ReferenceIdeal.Read.val_main_v124 Cert.ReferenceIdeal.Read.val_main_v121 Cert.ReferenceIdeal.Read.val_main_v123 Cert.ReferenceIdeal.Read.val_main_v122
    rw [ref_v126, ref_v120, ref_v114]
    exact aggTerm_apply (N := 10000) (M := 330000) (D := 64) (by decide) _ _ _ _ rfl rfl _ _ _ _ _ _ _ n j
  · unfold Cert.ReferenceIdeal.Read.val_main_v129 Cert.ReferenceIdeal.Read.val_main_v128
    exact bias_apply _ _ x7 n j

/-- The first means agree. -/
theorem mu_bridge (x0 : CI S10000x512 .f32) (x1 : CI S2x320000 .i32) (x2 : CI S512x256 .f32) (x3 : CI S256 .f32)
    (x4 : CI S256x64 .f32) (x5 : CI S64 .f32) (x6 : CI S256x64 .f32) :
    val_main_v88 (F := Ideal) x0 x1 x2 x3 x4 x5 = kMu x0 x1 x2 x3 x4 x5 x6 := by
  funext i
  obtain ⟨n, j, rfl⟩ : ∃ (n : Fin 10000) (j : Fin 64), i = ix2 n j := ⟨i 0, i 1, eq_ix2 i⟩
  rw [refMu_apply]
  unfold kMu
  rw [kMu_apply]
  refine congrArg (fun t => (Ideal.ofBits .f32 0x00000000#32 + t) + x5 (ix1 j)) ?_
  refine aggSum_congr _ _ _ _ _ _ n j _ (fun r => ?_)
  unfold Cert.ReferenceIdeal.Read.val_main_v47
  rw [host_dot_eq Cert.ReferenceIdeal.dot_S10000x256_S256x64_S10000x64_1_0_0_1_n_n rfl rfl rfl rfl rfl rfl, ref_hidden,
    matProd_apply, matProd_apply]
  refine Finset.sum_congr rfl fun k _ => ?_
  refine congrArg (fun t => kH x0 x1 x2 x3 (ix2 r k) * t) ?_
  unfold stage47
  exact (concatenate_pair_apply_left 1 x4 x6 concatenates_S256x64_S256x64_S256x128_d1
    (ix2 k (⟨j.val, by have := j.isLt; omega⟩ : Fin 128)) rfl (ix2 k j) (fun b => match b with
      | ⟨0, _⟩ => rfl
      | ⟨1, _⟩ => rfl)).symm

/-- The second means agree. -/
theorem lv_bridge (x0 : CI S10000x512 .f32) (x1 : CI S2x320000 .i32) (x2 : CI S512x256 .f32) (x3 : CI S256 .f32)
    (x4 : CI S256x64 .f32) (x6 : CI S256x64 .f32) (x7 : CI S64 .f32) :
    val_main_v130 (F := Ideal) x0 x1 x2 x3 x6 x7 = kLv x0 x1 x2 x3 x4 x6 x7 := by
  funext i
  obtain ⟨n, j, rfl⟩ : ∃ (n : Fin 10000) (j : Fin 64), i = ix2 n j := ⟨i 0, i 1, eq_ix2 i⟩
  rw [refLv_apply]
  unfold kLv
  rw [kLv_apply]
  refine congrArg (fun t => (Ideal.ofBits .f32 0x00000000#32 + t) + x7 (ix1 j)) ?_
  refine aggSum_congr _ _ _ _ _ _ n j _ (fun r => ?_)
  unfold Cert.ReferenceIdeal.Read.val_main_v89
  rw [host_dot_eq Cert.ReferenceIdeal.dot_S10000x256_S256x64_S10000x64_1_0_0_1_n_n rfl rfl rfl rfl rfl rfl, ref_hidden,
    matProd_apply, matProd_apply]
  refine Finset.sum_congr rfl fun k _ => ?_
  refine congrArg (fun t => kH x0 x1 x2 x3 (ix2 r k) * t) ?_
  unfold stage47
  exact (concatenate_pair_apply_right 1 x4 x6 concatenates_S256x64_S256x64_S256x128_d1
    (ix2 k (⟨64 + j.val, by have := j.isLt; omega⟩ : Fin 128)) rfl rfl (ix2 k j) (fun b hb => match b, hb with
      | ⟨0, _⟩, _ => rfl
      | ⟨1, _⟩, hb => absurd rfl hb)
    (by show j.val + 64 = 64 + j.val; omega)).symm

/-- The reference's first result is the first mean of the program with the joined matrix, at the reference's own arguments. -/
theorem mu_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v88 m' c
      = kMu (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) :=
  (Cert.ReferenceIdeal.Read.val_main_v88_eq (F := Ideal) m' c).trans (mu_bridge _ _ _ _ _ _ _)

/-- The reference's second result is the second mean of the program with the joined matrix, at the reference's own arguments. -/
theorem lv_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v130 m' c
      = kLv (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7)) :=
  (Cert.ReferenceIdeal.Read.val_main_v130_eq (F := Ideal) m' c).trans (lv_bridge _ _ _ _ _ _ _)

end Cert.Bridge

end
-- ==== Proof.RefAdj.lean ====
/- The reference's last result is the entrywise logistic of the Gram matrix of its third result: the reference
   transposes z, contracts z with the transpose (entry (p, q) is the sum over k of z (p, k) · z (q, k)), and applies
   one over one plus the exponential of the negation, the host's spelling of the logistic function. -/
import proofs.«155734_j54030688584379_1_alg».proof.Proof.Gen.ReferenceIdeal.Read
import proofs.«155734_j54030688584379_1_alg».proof.Proof.Spec
import proofs.«155734_j54030688584379_1_alg».proof.Proof.LibPlainDot

set_option maxRecDepth 16384

noncomputable section

namespace Cert.RefAdj

open Cert.ReferenceIdeal Cert.ReferenceIdeal.Gen Cert.ReferenceIdeal.Read Idealize.ShloMosaic Idealize.ShloMosaic.TcCoe Idealize.SL.Sem
open Idealize.ShloMosaic.ValueIdx

/-- The contraction's left index at output entry `i` and position `k`: row `i 0`, column `k`. -/
theorem lidx_eq (i : S10000x10000.Idx) (k : Fin 64) : lidx_main_v132 i k = ix2 (i 0) k :=
  funext fun a => match a with
    | ⟨0, _⟩ => rfl
    | ⟨1, _⟩ => rfl

/-- The contraction's right index, read through the transpose: row `i 1`, column `k`. -/
theorem ridx_eq (i : S10000x10000.Idx) (k : Fin 64) : idx_main_v131 (ridx_main_v132 i k) = ix2 (i 1) k :=
  funext fun a => match a with
    | ⟨0, _⟩ => rfl
    | ⟨1, _⟩ => rfl

/-- The reference's last result, the logistic of z times z transposed, where z is the reference's third result. -/
theorem ref_adj (m : (ℓ : Loc nD τ sig) → Buf (Elt Ideal) ℓ) (c : Dev nD) :
    Cert.ReferenceIdeal.Value.res_main_v138 m c
      = Cert.Spec.sigGram 10000 64 (Cert.ReferenceIdeal.Value.res_main_v88 m c) := by
  rw [val_main_v138_eq, val_main_v88_eq]
  generalize m ((c.tc : Thread nD τ).loc main_arg0) = a0
  generalize m ((c.tc : Thread nD τ).loc main_arg1) = a1
  generalize m ((c.tc : Thread nD τ).loc main_arg2) = a2
  generalize m ((c.tc : Thread nD τ).loc main_arg3) = a3
  generalize m ((c.tc : Thread nD τ).loc main_arg4) = a4
  generalize m ((c.tc : Thread nD τ).loc main_arg5) = a5
  have h : (val_main_v138 (F := Ideal) a0 a1 a2 a3 a4 a5 : FVec Ideal S10000x10000 .f32)
      = logistic (F := Ideal) (s := S10000x10000) (φ := .f32) (val_main_v132 (F := Ideal) a0 a1 a2 a3 a4 a5 : FVec Ideal S10000x10000 .f32) := by
    unfold val_main_v138 val_main_v137 val_main_v136 val_main_v135 val_main_v134 val_main_v133 val_main_cst_28 val_main_cst_29
    exact Cert.LibPlainDot.host_sigmoid_eq _ bcast_S_S10000x10000
  rw [h]
  funext i
  unfold Cert.Spec.sigGram
  simp only [logistic, Ideal.logistic_def]
  rw [val_main_v132_apply]
  refine congrArg Ideal.logistic (Finset.sum_congr rfl fun k _ => ?_)
  rw [val_main_v131_apply, lidx_eq, ridx_eq]
  rfl

end Cert.RefAdj

end
-- ==== Proof.lean ====
/- The certificate of a two-layer graph-convolution autoencoder: three row-tiled kernels (features times first weights;
   hidden layer times the two second-layer weight matrices side by side; the entrywise logistic of the Gram matrix of
   the mean half) among host stretches that aggregate over the edge list, against a reference that computes the two
   second-layer products separately on the host.
   The word-level program runs to the end leaving its arguments as launched: of what the last kernel leaves in its result
   array nothing is said there (its last column block overhangs the array, and the matrix unit's result is named only
   at the ideal instance). At the ideal instance every region's array is a closed form — a matrix product, or the
   logistic of a Gram matrix — and each host stretch its read-back stage, so the three results are functions of the
   eight argument arrays. The reference's results are the same functions: its first layer applies the same chain to
   the same product; its second layer aggregates 64 columns where the kernel aggregates 128 and keeps 64 — the
   aggregation acts column by column, so slicing commutes with it; and the host's spelling 1 / (1 + exp (-y)) of the
   logistic is the kernel's. No law used needs finiteness: sums of extended reals are only regrouped. -/
import proofs.«155734_j54030688584379_1_alg».proof.Defs
import proofs.«155734_j54030688584379_1_alg».proof.Proof.Gen.Kernel
import proofs.«155734_j54030688584379_1_alg».proof.Proof.Gen.KernelIdeal
import proofs.«155734_j54030688584379_1_alg».proof.Proof.Gen.ReferenceIdeal
import proofs.«155734_j54030688584379_1_alg».proof.Proof.Gen.Pre_finite_inputs
import proofs.«155734_j54030688584379_1_alg».proof.Proof.Gen.ReferenceIdeal.Run
import proofs.«155734_j54030688584379_1_alg».proof.Proof.Gen.ReferenceIdeal.Read
import proofs.«155734_j54030688584379_1_alg».proof.Proof.KRun
import proofs.«155734_j54030688584379_1_alg».proof.Proof.Run
import proofs.«155734_j54030688584379_1_alg».proof.Proof.RunVals
import proofs.«155734_j54030688584379_1_alg».proof.Proof.BridgeMu
import proofs.«155734_j54030688584379_1_alg».proof.Proof.RefAdj
import Idealize.ShloMosaic.Adequacy
import Idealize.ShloMosaic.Init

noncomputable section

namespace Cert.Proof

open Idealize.ShloMosaic Idealize.ShloMosaic.TcCoe Idealize.SL.Sem
open Cert.KernelIdeal.Hand Cert.KernelIdeal.HandValue Cert.Bridge

/-- The word-level program runs and leaves its arguments as launched. -/
theorem frame_k : Cert.frame_Kernel := fun m ρ _ => Cert.Kernel.Hand.frame m ρ

/-- The idealized program's run, every unscoped buffer named: the region-by-region fold at the ideal instance, where an
    entry of the last kernel's block product reads only its own row of the right factor. -/
theorem run_ki (m : (ℓ : Loc Cert.KernelIdeal.nD Cert.KernelIdeal.τ Cert.KernelIdeal.sig) → Buf (Elt Ideal) ℓ) (ρ : Dev Cert.KernelIdeal.nD → PrngReg) :
    θ_run Cert.KernelIdeal.defs (onTc (τ := Cert.KernelIdeal.τ) (Cert.KernelIdeal.main (F := Ideal))) ⟨m, fun _ => 0, ρ⟩ (fun r => ∀ c : Dev Cert.KernelIdeal.nD,
      ∀ b ∈ Pipeline.ucRefs Cert.KernelIdeal.τ Cert.KernelIdeal.sig, r.2.mem (((c : Thread Cert.KernelIdeal.nD Cert.KernelIdeal.τ)).1, b) = W8 m ρ c b) :=
  Cert.KernelIdeal.Hand.run_all (F := Ideal) m ρ rowLocal2

/-- The idealized program runs and leaves its arguments as launched. -/
theorem frame_ki : Cert.frame_KernelIdeal := fun m ρ _ =>
  (θ_run Cert.KernelIdeal.defs _ _).mono (fun r h c =>
    ⟨(h c _ (mem_uc Cert.KernelIdeal.main_arg0 (by decide))).trans (W8_main_arg0 m ρ c),
      (h c _ (mem_uc Cert.KernelIdeal.main_arg1 (by decide))).trans (W8_main_arg1 m ρ c),
      (h c _ (mem_uc Cert.KernelIdeal.main_arg2 (by decide))).trans (W8_main_arg2 m ρ c),
      (h c _ (mem_uc Cert.KernelIdeal.main_arg3 (by decide))).trans (W8_main_arg3 m ρ c),
      (h c _ (mem_uc Cert.KernelIdeal.main_arg4 (by decide))).trans (W8_main_arg4 m ρ c),
      (h c _ (mem_uc Cert.KernelIdeal.main_arg5 (by decide))).trans (W8_main_arg5 m ρ c),
      (h c _ (mem_uc Cert.KernelIdeal.main_arg6 (by decide))).trans (W8_main_arg6 m ρ c),
      (h c _ (mem_uc Cert.KernelIdeal.main_arg7 (by decide))).trans (W8_main_arg7 m ρ c)⟩) (run_ki m ρ)

/-- The reference runs and leaves its arguments as launched: its generated run, the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The ideal pass rewrote nothing. -/
theorem preserves : Cert.preserves_Kernel_KernelIdeal := trivial

/-- From memories that agree on the arguments both idealized programs end with the same three arrays: the mean half,
    the log-variance half, and the logistic Gram matrix of the mean half, as functions of the arguments. -/
theorem algebraic : Cert.algebraic_KernelIdeal_ReferenceIdeal := by
  intro m ρ m' ρ' _ hagree
  refine ⟨fun c => kMu (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => kLv (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => kMu (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => kAdj (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (run_ki m ρ)
    exact ⟨(h c _ (mem_uc Cert.KernelIdeal.main_v90 (by decide))).trans (W8_v90 m ρ c),
      (h c _ (mem_uc Cert.KernelIdeal.main_v94 (by decide))).trans (W8_v94 m ρ c),
      (h c _ (mem_uc Cert.KernelIdeal.main_v90 (by decide))).trans (W8_v90 m ρ c),
      (h c _ (mem_uc Cert.KernelIdeal.main_v95 (by decide))).trans (W8_v95 m ρ c),
      (h c _ (mem_uc Cert.KernelIdeal.main_arg0 (by decide))).trans (W8_main_arg0 m ρ c),
      (h c _ (mem_uc Cert.KernelIdeal.main_arg1 (by decide))).trans (W8_main_arg1 m ρ c),
      (h c _ (mem_uc Cert.KernelIdeal.main_arg2 (by decide))).trans (W8_main_arg2 m ρ c),
      (h c _ (mem_uc Cert.KernelIdeal.main_arg3 (by decide))).trans (W8_main_arg3 m ρ c),
      (h c _ (mem_uc Cert.KernelIdeal.main_arg4 (by decide))).trans (W8_main_arg4 m ρ c),
      (h c _ (mem_uc Cert.KernelIdeal.main_arg5 (by decide))).trans (W8_main_arg5 m ρ c),
      (h c _ (mem_uc Cert.KernelIdeal.main_arg6 (by decide))).trans (W8_main_arg6 m ρ c),
      (h c _ (mem_uc Cert.KernelIdeal.main_arg7 (by decide))).trans (W8_main_arg7 m ρ c)⟩
  · refine (θ_run Cert.ReferenceIdeal.defs _ _).mono (fun r h c => ?_) (Cert.ReferenceIdeal.Value.run (F := Ideal) m' ρ')
    obtain ⟨h0, h1, h2, h3, h4, h5, h6, h7⟩ := hagree c
    have e88 : Cert.ReferenceIdeal.Value.res_main_v88 m' c = kMu (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
      rw [mu_eq m' c, h0, h1, h2, h3, h4, h5, h6]
    have e130 : Cert.ReferenceIdeal.Value.res_main_v130 m' c = kLv (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
      rw [lv_eq m' c, h0, h1, h2, h3, h4, h6, h7]
    have e138 : Cert.ReferenceIdeal.Value.res_main_v138 m' c = kAdj (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
      rw [Cert.RefAdj.ref_adj m' c, e88]; rfl
    exact ⟨(h c).1.trans e88, (h c).2.1.trans e130, (h c).2.2.1.trans e88, (h c).2.2.2.1.trans e138, (h c).2.2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
